-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x1024 : Shape := ⟨2, ![256, 1024]⟩
abbrev S1024x64x16 : Shape := ⟨3, ![1024, 64, 16]⟩
abbrev S_ : Shape := ⟨0, ![]⟩

class Facts : Prop where
  bcast_S_S256x1024 : S_.BroadcastsInDim S256x1024 (![] : Fin 0 → Fin S256x1024.rank)
  reducesTo_S256x1024_S_d0_1 : S256x1024.ReducesTo [0, 1] S_
  h_S_ : 0 < S_.numel
  bcast_S_S1024x64x16 : S_.BroadcastsInDim S1024x64x16 (![] : Fin 0 → Fin S1024x64x16.rank)
  reducesTo_S1024x64x16_S_d0_1_2 : S1024x64x16.ReducesTo [0, 1, 2] S_

variable [Facts]

def fn {F : FTy → Type} [FloatOps F] (main_arg0 : FVec F S256x1024 .f32) (main_arg1 : FVec F S1024x64x16 .f32) : IVec S_ 1 :=
  let main_v0 : FVec F S256x1024 .f32 := Host.absf main_arg0
  let main_cst : FVec F S_ .f32 := constant S_ .f32 0x7F800000#32
  let main_v1 : FVec F S256x1024 .f32 := broadcastInDim S256x1024 ![] bcast_S_S256x1024 main_cst
  let main_v2 : IVec S256x1024 1 := cmpf .olt main_v0 main_v1
  let main_c : IVec S_ 1 := constantI S_ 1 1#1
  let main_v3 : IVec S_ 1 := (fun x v => Host.reduce IntOp.andi x v reducesTo_S256x1024_S_d0_1 h_S_) main_v2 main_c
  let main_v4 : FVec F S1024x64x16 .f32 := Host.absf main_arg1
  let main_cst_0 : FVec F S_ .f32 := constant S_ .f32 0x7F800000#32
  let main_v5 : FVec F S1024x64x16 .f32 := broadcastInDim S1024x64x16 ![] bcast_S_S1024x64x16 main_cst_0
  let main_v6 : IVec S1024x64x16 1 := cmpf .olt main_v4 main_v5
  let main_c_1 : IVec S_ 1 := constantI S_ 1 1#1
  let main_v7 : IVec S_ 1 := (fun x v => Host.reduce IntOp.andi x v reducesTo_S1024x64x16_S_d0_1_2 h_S_) main_v6 main_c_1
  let main_v8 : IVec S_ 1 := andi main_v3 main_v7
  main_v8
-- ==== Kernel.lean ====
abbrev S256x1024 : Shape := ⟨2, ![256, 1024]⟩
abbrev S1024x64x16 : Shape := ⟨3, ![1024, 64, 16]⟩
abbrev S1024x1024 : Shape := ⟨2, ![1024, 1024]⟩
abbrev S128x1024 : Shape := ⟨2, ![128, 1024]⟩
abbrev S256x64x16 : Shape := ⟨3, ![256, 64, 16]⟩
abbrev S256x64 : Shape := ⟨2, ![256, 64]⟩
abbrev S32x64x16 : Shape := ⟨3, ![32, 64, 16]⟩
abbrev S64x64x16 : Shape := ⟨3, ![64, 64, 16]⟩
abbrev S32x64 : Shape := ⟨2, ![32, 64]⟩
abbrev S32x1x64x16 : Shape := ⟨4, ![32, 1, 64, 16]⟩
abbrev S1x64x64x16 : Shape := ⟨4, ![1, 64, 64, 16]⟩
abbrev S32x64x64x16 : Shape := ⟨4, ![32, 64, 64, 16]⟩
abbrev S32x64x64 : Shape := ⟨3, ![32, 64, 64]⟩
abbrev S32x64x1 : Shape := ⟨3, ![32, 64, 1]⟩
abbrev S256x1088 : Shape := ⟨2, ![256, 1088]⟩

abbrev nBuf : Space → Nat
  | .hbm => 9
  | .vmem => 12
  | .smem => 0
  | _ => 0

abbrev bufTy : (tb : Table) → Fin (tcTables nBuf tb) → BufTy
  | .hbm, ⟨0, _⟩ => ⟨S256x1024, .f32⟩
  | .hbm, ⟨1, _⟩ => ⟨S1024x64x16, .f32⟩
  | .hbm, ⟨2, _⟩ => ⟨S1024x1024, .f32⟩
  | .hbm, ⟨3, _⟩ => ⟨S256x1024, .bf16⟩
  | .hbm, ⟨4, _⟩ => ⟨S1024x1024, .bf16⟩
  | .hbm, ⟨5, _⟩ => ⟨S256x1024, .f32⟩
  | .hbm, ⟨6, _⟩ => ⟨S256x64x16, .f32⟩
  | .hbm, ⟨7, _⟩ => ⟨S256x64, .f32⟩
  | .hbm, ⟨8, _⟩ => ⟨S256x1088, .f32⟩
  | .local _ .vmem, ⟨0, _⟩ => ⟨S128x1024, .bf16⟩
  | .local _ .vmem, ⟨1, _⟩ => ⟨S128x1024, .bf16⟩
  | .local _ .vmem, ⟨2, _⟩ => ⟨S1024x1024, .bf16⟩
  | .local _ .vmem, ⟨3, _⟩ => ⟨S128x1024, .f32⟩
  | .local _ .vmem, ⟨4, _⟩ => ⟨S128x1024, .f32⟩
  | .local _ .vmem, ⟨5, _⟩ => ⟨S32x64x16, .f32⟩
  | .local _ .vmem, ⟨6, _⟩ => ⟨S32x64x16, .f32⟩
  | .local _ .vmem, ⟨7, _⟩ => ⟨S64x64x16, .f32⟩
  | .local _ .vmem, ⟨8, _⟩ => ⟨S64x64x16, .f32⟩
  | .local _ .vmem, ⟨9, _⟩ => ⟨S32x64, .f32⟩
  | .local _ .vmem, ⟨10, _⟩ => ⟨S32x64, .f32⟩
  | .local _ .vmem, ⟨11, _⟩ => ⟨S32x64, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 4], ![false, false]⟩

def k1_cond2 (i : grid1.Coords) : BitVec 1 :=
  let arg1 : BitVec 32 := BitVec.ofNat 32 (i 1).val
  let c3_i32 : BitVec 32 := 3#32
  let v38 : BitVec 1 := Scalar.cmpi .eq arg1 c3_i32
  let v39 : BitVec 32 := Scalar.extui v38
  let c0_i32_12 : BitVec 32 := 0#32
  let v40 : BitVec 1 := Scalar.cmpi .ne v39 c0_i32_12
  v40

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S32x64x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S64x64x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S32x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  shapeCasts_S1024x64x16_S1024x1024 : S1024x64x16.ShapeCasts S1024x1024
  bitsLt_bf16_f32 : FTy.bits .bf16 < FTy.bits .f32
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S256x1024_S256x64x16 : S256x1024.ShapeCasts S256x64x16
  inb_S32x64_S32x64_0_0 : ∀ a, (![0, 0] : Fin 2 → Nat) a + S32x64.size a ≤ S32x64.size a
  h_S32x64 : 0 < S32x64.numel
  shapeCasts_S32x64_S32x64 : S32x64.ShapeCasts S32x64
  inb_S32x64x16_S32x64x16_0_0_0 : ∀ a, (![0, 0, 0] : Fin 3 → Nat) a + S32x64x16.size a ≤ S32x64x16.size a
  h_S32x64x16 : 0 < S32x64x16.numel
  shapeCasts_S32x64x16_S32x64x16 : S32x64x16.ShapeCasts S32x64x16
  inb_S64x64x16_S64x64x16_0_0_0 : ∀ a, (![0, 0, 0] : Fin 3 → Nat) a + S64x64x16.size a ≤ S64x64x16.size a
  h_S64x64x16 : 0 < S64x64x16.numel
  shapeCasts_S64x64x16_S64x64x16 : S64x64x16.ShapeCasts S64x64x16
  shapeCasts_S32x64x16_S32x1x64x16 : S32x64x16.ShapeCasts S32x1x64x16
  shapeCasts_S64x64x16_S1x64x64x16 : S64x64x16.ShapeCasts S1x64x64x16
  broadcasts_S32x1x64x16_S32x64x64x16 : S32x1x64x16.Broadcasts S32x64x64x16
  broadcasts_S1x64x64x16_S32x64x64x16 : S1x64x64x16.Broadcasts S32x64x64x16
  reduces_S32x64x64x16_S32x64x64 : S32x64x64x16.Reduces [3] S32x64x64
  iota_S32x64_d0_w32 : S32x64.Iotas .tc 32 [0]
  iota_S32x64_d1_w32 : S32x64.Iotas .tc 32 [1]
  natLt_1_32 : 1 < 32
  shapeCasts_S32x64_S32x64x1 : S32x64.ShapeCasts S32x64x1
  broadcasts_S32x64x1_S32x64x64 : S32x64x1.Broadcasts S32x64x64
  transposes_S32x64x64_p0_2_1_S32x64x64 : S32x64x64.Transposes [0, 2, 1] S32x64x64
  reduces_S32x64x64_S32x64 : S32x64x64.Reduces [2] S32x64
  concatenates_S256x1024_S256x64_S256x1088_d1 : Shape.Concatenates [S256x1024, S256x64] S256x1088 1
  dot_S128x1024_S1024x1024_S128x1024_1_0_0_1_n_n_wf : DotDims.WF S128x1024 S1024x1024 S128x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S256x1024.size a
  hwx0_0 : ∀ i : grid0.Coords, EltTy.bits .bf16 = 32 ∨ (Rect.block (s := S256x1024) S128x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S256x1024.size a
  hwx0_2 : ∀ i : grid0.Coords, EltTy.bits .f32 = 32 ∨ (Rect.block (s := S256x1024) S128x1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S32x64x16.size a ≤ S256x64x16.size a
  hwx1_0 : ∀ i : grid1.Coords, EltTy.bits .f32 = 32 ∨ (Rect.block (s := S256x64x16) S32x64x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S64x64x16.size a ≤ S256x64x16.size a
  hwx1_1 : ∀ i : grid1.Coords, EltTy.bits .f32 = 32 ∨ (Rect.block (s := S256x64x16) S64x64x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S32x64.size a ≤ S256x64.size a
  hwx1_2 : ∀ i : grid1.Coords, EltTy.bits .f32 = 32 ∨ (Rect.block (s := S256x64) S32x64.size (cc1_transform_2 i) (hinb1_2 i)).WholeWords (EltTy.packing .f32)

variable [Facts₀]

def dot_S128x1024_S1024x1024_S128x1024_1_0_0_1_n_n : DotDims S128x1024 S1024x1024 S128x1024 where
  lhsContracting := [1]
  rhsContracting := [0]
  lhsNonContracting := [0]
  rhsNonContracting := [1]
  lhsBatch := []
  rhsBatch := []
  wf := dot_S128x1024_S1024x1024_S128x1024_1_0_0_1_n_n_wf

abbrev win0_0 : Pipeline.Window sig grid0 :=
  Pipeline.Window.ofSpec (Memref.whole main_v1) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S128x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v4) S32x64x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S64x64x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S32x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S256x1024 : Shape := ⟨2, ![256, 1024]⟩
abbrev S1024x64x16 : Shape := ⟨3, ![1024, 64, 16]⟩
abbrev S1024x1024 : Shape := ⟨2, ![1024, 1024]⟩
abbrev S256x64x16 : Shape := ⟨3, ![256, 64, 16]⟩
abbrev S1x256x64x16 : Shape := ⟨4, ![1, 256, 64, 16]⟩
abbrev S256x1x64x16 : Shape := ⟨4, ![256, 1, 64, 16]⟩
abbrev S256x256x64x16 : Shape := ⟨4, ![256, 256, 64, 16]⟩
abbrev S_ : Shape := ⟨0, ![]⟩
abbrev S256x256x64 : Shape := ⟨3, ![256, 256, 64]⟩
abbrev S256x256 : Shape := ⟨2, ![256, 256]⟩
abbrev S256x256x1 : Shape := ⟨3, ![256, 256, 1]⟩
abbrev S256x64 : Shape := ⟨2, ![256, 64]⟩
abbrev S256x1088 : Shape := ⟨2, ![256, 1088]⟩

abbrev nBuf : Space → Nat
  | .hbm => 31
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024x64x16, .f32⟩
  | .hbm, ⟨2, _⟩ => ⟨S1024x1024, .f32⟩
  | .hbm, ⟨3, _⟩ => ⟨S256x1024, .f32⟩
  | .hbm, ⟨4, _⟩ => ⟨S256x64x16, .f32⟩
  | .hbm, ⟨5, _⟩ => ⟨S1x256x64x16, .f32⟩
  | .hbm, ⟨6, _⟩ => ⟨S256x1x64x16, .f32⟩
  | .hbm, ⟨7, _⟩ => ⟨S256x256x64x16, .f32⟩
  | .hbm, ⟨8, _⟩ => ⟨S256x256x64x16, .f32⟩
  | .hbm, ⟨9, _⟩ => ⟨S256x256x64x16, .f32⟩
  | .hbm, ⟨10, _⟩ => ⟨S256x256x64x16, .f32⟩
  | .hbm, ⟨11, _⟩ => ⟨S_, .f32⟩
  | .hbm, ⟨12, _⟩ => ⟨S256x256x64, .f32⟩
  | .hbm, ⟨13, _⟩ => ⟨S256x256x64, .f32⟩
  | .hbm, ⟨14, _⟩ => ⟨S256x256x64, .f32⟩
  | .hbm, ⟨15, _⟩ => ⟨S256x256, .i32⟩
  | .hbm, ⟨16, _⟩ => ⟨S256x256, .i32⟩
  | .hbm, ⟨17, _⟩ => ⟨S_, .i32⟩
  | .hbm, ⟨18, _⟩ => ⟨S256x256, .i32⟩
  | .hbm, ⟨19, _⟩ => ⟨S256x256, .i32⟩
  | .hbm, ⟨20, _⟩ => ⟨S256x256, .i1⟩
  | .hbm, ⟨21, _⟩ => ⟨S256x256, .f32⟩
  | .hbm, ⟨22, _⟩ => ⟨S256x256x1, .f32⟩
  | .hbm, ⟨23, _⟩ => ⟨S_, .f32⟩
  | .hbm, ⟨24, _⟩ => ⟨S256x256x1, .f32⟩
  | .hbm, ⟨25, _⟩ => ⟨S256x256x1, .f32⟩
  | .hbm, ⟨26, _⟩ => ⟨S256x256x64, .f32⟩
  | .hbm, ⟨27, _⟩ => ⟨S256x256x64, .f32⟩
  | .hbm, ⟨28, _⟩ => ⟨S_, .f32⟩
  | .hbm, ⟨29, _⟩ => ⟨S256x64, .f32⟩
  | .hbm, ⟨30, _⟩ => ⟨S256x1088, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_c : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst_0 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_1 : Ref sig .tc := ⟨.hbm, 28, rfl⟩
abbrev main_v23 : Ref sig .tc := ⟨.hbm, 29, rfl⟩
abbrev main_v24 : Ref sig .tc := ⟨.hbm, 30, rfl⟩

abbrev nD : Nat := 1
abbrev τ : Topo := Topo.v7x

variable {F : FTy → Type} [FloatOps F]

class Facts₀ : Prop where
  shapeCasts_S1024x64x16_S1024x1024 : S1024x64x16.ShapeCasts S1024x1024
  shapeCasts_S256x1024_S256x64x16 : S256x1024.ShapeCasts S256x64x16
  bcast_S256x64x16_S1x256x64x16_1_2_3 : S256x64x16.BroadcastsInDim S1x256x64x16 (![1, 2, 3] : Fin 3 → Fin S1x256x64x16.rank)
  bcast_S256x64x16_S256x1x64x16_0_2_3 : S256x64x16.BroadcastsInDim S256x1x64x16 (![0, 2, 3] : Fin 3 → Fin S256x1x64x16.rank)
  bcast_S1x256x64x16_S256x256x64x16_0_1_2_3 : S1x256x64x16.BroadcastsInDim S256x256x64x16 (![0, 1, 2, 3] : Fin 4 → Fin S256x256x64x16.rank)
  bcast_S256x1x64x16_S256x256x64x16_0_1_2_3 : S256x1x64x16.BroadcastsInDim S256x256x64x16 (![0, 1, 2, 3] : Fin 4 → Fin S256x256x64x16.rank)
  reducesTo_S256x256x64x16_S256x256x64_d3 : S256x256x64x16.ReducesTo [3] S256x256x64
  h_S_ : 0 < S_.numel
  bcast_S_S256x256 : S_.BroadcastsInDim S256x256 (![] : Fin 0 → Fin S256x256.rank)
  bcast_S256x256_S256x256x1_0_1 : S256x256.BroadcastsInDim S256x256x1 (![0, 1] : Fin 2 → Fin S256x256x1.rank)
  bcast_S_S256x256x1 : S_.BroadcastsInDim S256x256x1 (![] : Fin 0 → Fin S256x256x1.rank)
  bcast_S256x256x1_S256x256x64_0_1_2 : S256x256x1.BroadcastsInDim S256x256x64 (![0, 1, 2] : Fin 3 → Fin S256x256x64.rank)
  reducesTo_S256x256x64_S256x64_d1 : S256x256x64.ReducesTo [1] S256x64
  concatenates_S256x1024_S256x64_S256x1088_d1 : Shape.Concatenates [S256x1024, S256x64] S256x1088 1
  dot_S256x1024_S1024x1024_S256x1024_1_0_0_1_n_n_wf : DotDims.WF S256x1024 S1024x1024 S256x1024 [1] [0] [0] [1] [] []

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

class Facts : Prop extends Facts₀ where

variable [Facts]
-- ==== Proof.KbRegion0.lean ====
/-
  The product kernel (the first of the program's two kernels) at the contents its region is entered with.

  Each of its two grid points multiplies a block of 128 rows of the left operand with the whole right operand and
  stores the 128 x 1024 block of the product; nothing is carried from one point to the next. Stated here, for any
  float instance: what the output block holds after the body as a function of the two input blocks, the body's
  triple, the data the launch theorems ask for, and the obligation at every point.
-/
import proofs.«107602_j970662608991_2_alg».proof.Proof.Gen.Kernel.Launch
import proofs.«107602_j970662608991_2_alg».proof.Proof.Gen.Kernel.Skeleton
import proofs.«107602_j970662608991_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole-block rectangles the body reads and writes through. -/
abbrev r0_a : Rect S128x1024 := Rect.unit (s := S128x1024) ![0, 0] S128x1024.size inb_S128x1024_S128x1024_0_0
abbrev r0_b : Rect S1024x1024 := Rect.unit (s := S1024x1024) ![0, 0] S1024x1024.size inb_S1024x1024_S1024x1024_0_0

/-- The output block after the body: the one store of the product of the two loaded blocks. -/
def out0_2 (x0 : Vec F S128x1024 .bf16) (x1 : Vec F S1024x1024 .bf16) : Vec F S128x1024 .f32 :=
  View.canon [⟨r0_a, k0_pay1 (View.ld x0 r0_a) (View.ld x1 r0_b)⟩]

theorem cover0_2 (p0 : Vec F S128x1024 .f32) (y : S128x1024.Idx) :
    ∃ pc ∈ ([⟨r0_a, p0⟩] : List (View.Piece (Elt F) S128x1024 .f32)), y ∈ pc.1.set :=
  View.cover_of_tiled [⟨r0_a, p0⟩] S128x1024.size (by rfl) y

set_option maxHeartbeats 1000000 in
/-- The body's triple: from the two input blocks at their contents and the output block at anything, the body ends
    with the inputs as they were and the output at the product. -/
theorem sound_kernel0 (c : Dev nD) (E : Set ℕ) (i : grid0.Coords) (arg1 : Memref sig .tc .vmem S128x1024 .bf16) (harg1 : arg1.IsWhole)
    (arg2 : Memref sig .tc .vmem S1024x1024 .bf16) (harg2 : arg2.IsWhole) (arg3 : Memref sig .tc .vmem S128x1024 .f32) (harg3 : arg3.IsWhole)
    (x0 : Vec F S128x1024 .bf16) (x1 : Vec F S1024x1024 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The data of the product kernel on core `c`: the arrays as the region finds them; after the body each input's
    buffer at its block and the output's at the product of the two blocks; the invariant is the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Region0

end Cert.Kernel.Frm

end
-- ==== Proof.KbRuns1.lean ====
/-
  The pairwise kernel (the second of the program's two kernels): what its runs share.

  Its grid is 8 x 4: the first coordinate i picks a block of 32 rows, the second j a block of 64 rows to pair them with.
  A scratch block of 32 x 64 sums is cleared at j = 0, added to at every point, and copied to the output block at
  j = 3; so the body has three cases along the grid (first point of a row block, a middle point, the last point), the
  output window is idle at the first two, and the scratch is carried from each point to the next. Stated here: the
  two conditions in closed form over the grid, where the output window is idle, the memrefs the body is called
  with, and the region's invariant with the scratch named.
-/
import proofs.«107602_j970662608991_2_alg».proof.Proof.Gen.Kernel.Launch
import proofs.«107602_j970662608991_2_alg».proof.Proof.Gen.Kernel.Skeleton
import proofs.«107602_j970662608991_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition under which the body clears the scratch: the second grid coordinate is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- The condition under which the body copies the scratch to the output block: the second grid coordinate is 3. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-- The two input windows are never idle; the output window is idle, and not written back, away from the last point
    of a row block, and live there. -/
theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-- One staging buffer of the output window, and the scratch, as views through which contents are stated. -/
abbrev VO1_2 : View sig .tc .vmem S32x64 .f32 := (Memref.whole cc1_stg2_0 : Memref sig .tc .vmem S32x64 .f32).view
abbrev ms1_0 (t : Fin cfg1.N) : Memref sig .tc .vmem S32x64x16 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S64x64x16 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S32x64 .f32 := win1_2.stage (cfg1.slots t 2)
abbrev hs1_2 (t : Fin cfg1.N) : (ms1_2 t).IsWhole := hstage1_2 ((cfg1.slots t 2).cast nbuf1_2)
abbrev scM1 : Memref sig .tc .vmem S32x64 .f32 := Memref.whole cc1_scratch0
abbrev VS1 : View sig .tc .vmem S32x64 .f32 := scM1.view

/-- The scoped buffers of the other kernel, each at some contents, beside an assertion `S` about the scratch: the
    shape of the scoped rest of this region with the scratch singled out. -/
def restC (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ S)

/-- The region's plain invariant (the scoped rest and the generator register) with the scratch as a memref owned at
    some contents. -/
theorem PhiA1_eq (c : Dev nD) :
    (Pipeline.ΦA spec1 c : sProp 𝕄)
      = iprop(restC c (iprop(∃ d, owns (c : Thread nD τ) scM1 fullShare d)) ∗ (∃ r, prngReg c r)) := by
  unfold Pipeline.ΦA restC; rw [scopedRest1_eq]; simp only [scM1, owns_whole]; try rfl

end Cert.Kernel.Frm

end
-- ==== Proof.KbRun1.lean ====
/-
  The pairwise kernel's body run once per case: at the first point of a row block (the scratch is cleared, then
  added to), at a middle point (added to), at the last point (added to, then copied to the output block). Each run
  is the body's triple on whole staging memrefs, with the pieces the stores leave in the scratch and in the output
  block found while the body is executed.
-/
import proofs.«107602_j970662608991_2_alg».proof.Proof.KbRuns1

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The first point of a row block: the scratch, at anything, is cleared and then holds the block's first sums; the
    output block is handed back untouched. -/
noncomputable def kernelRun1_A (c : Dev nD) (i : grid1.Coords) (arg2 : Memref sig .tc .vmem S32x64x16 .f32) (harg2 : arg2.IsWhole) (arg3 : Memref sig .tc .vmem S64x64x16 .f32) (harg3 : arg3.IsWhole) (arg4 : Memref sig .tc .vmem S32x64 .f32) (harg4 : arg4.IsWhole) (arg5 : Memref sig .tc .vmem S32x64 .f32) (harg5 : arg5.IsWhole) (hc0 : cond1_0 i) (hc1 : ¬cond1_1 i)
    (x0 : Vec F S32x64x16 .f32) (x1 : Vec F S64x64x16 .f32) :
    Σ' (L2 : List (View.Piece (Elt F) S32x64 .f32)), { LS : List (View.Piece (Elt F) S32x64 .f32) //
      ∀ (xi2 : Vec F S32x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc1__dist_kernel i arg2 harg2 arg3 harg3 arg4 harg4 arg5 harg5) K } := by
  refine ⟨[], ?_, fun xi2 E K => ?run⟩
  case run =>
    simp only [cc1__dist_kernel_eq_skeleton]; unfold cc1__dist_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 4000000 in
/-- A middle point: the scratch, at what the point before left, is added to; the output block is handed back untouched. -/
noncomputable def kernelRun1_B (c : Dev nD) (i : grid1.Coords) (arg2 : Memref sig .tc .vmem S32x64x16 .f32) (harg2 : arg2.IsWhole) (arg3 : Memref sig .tc .vmem S64x64x16 .f32) (harg3 : arg3.IsWhole) (arg4 : Memref sig .tc .vmem S32x64 .f32) (harg4 : arg4.IsWhole) (arg5 : Memref sig .tc .vmem S32x64 .f32) (harg5 : arg5.IsWhole) (hc0 : ¬cond1_0 i) (hc1 : ¬cond1_1 i)
    (x0 : Vec F S32x64x16 .f32) (x1 : Vec F S64x64x16 .f32) (xs : Vec F S32x64 .f32) :
    Σ' (L2 : List (View.Piece (Elt F) S32x64 .f32)), { LS : List (View.Piece (Elt F) S32x64 .f32) //
      ∀ (xi2 : Vec F S32x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc1__dist_kernel i arg2 harg2 arg3 harg3 arg4 harg4 arg5 harg5) K } := by
  refine ⟨[], ?_, fun xi2 E K => ?run⟩
  case run =>
    simp only [cc1__dist_kernel_eq_skeleton]; unfold cc1__dist_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 4000000 in
/-- The last point of a row block: the scratch, at what the point before left, is added to and then copied into the
    output block, which was at anything. -/
noncomputable def kernelRun1_C (c : Dev nD) (i : grid1.Coords) (arg2 : Memref sig .tc .vmem S32x64x16 .f32) (harg2 : arg2.IsWhole) (arg3 : Memref sig .tc .vmem S64x64x16 .f32) (harg3 : arg3.IsWhole) (arg4 : Memref sig .tc .vmem S32x64 .f32) (harg4 : arg4.IsWhole) (arg5 : Memref sig .tc .vmem S32x64 .f32) (harg5 : arg5.IsWhole) (hc0 : ¬cond1_0 i) (hc1 : cond1_1 i)
    (x0 : Vec F S32x64x16 .f32) (x1 : Vec F S64x64x16 .f32) (xs : Vec F S32x64 .f32) :
    Σ' (L2 : List (View.Piece (Elt F) S32x64 .f32)), { LS : List (View.Piece (Elt F) S32x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc1__dist_kernel i arg2 harg2 arg3 harg3 arg4 harg4 arg5 harg5) K } := by
  refine ⟨?_, ?_, fun E K => ?run⟩
  case run =>
    simp only [cc1__dist_kernel_eq_skeleton]; unfold cc1__dist_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.Kernel.Frm

end
-- ==== Proof.KbRegion1.lean ====
/-
  The pairwise kernel at the contents its region is entered with: what the scratch and the output block hold after
  every grid point, by recursion on the point (the case the point is in, run on that point's input blocks and on
  what the point before left in the scratch), the data the launch theorems ask for, and the obligation at every
  point. The two input windows read ONE array (the product, seen as 256 x 64 x 16): each holds half of its share.
-/
import proofs.«107602_j970662608991_2_alg».proof.Proof.KbRun1

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves -/

def out1_A_2 (c : Dev nD) (i : grid1.Coords) (arg2 : Memref sig .tc .vmem S32x64x16 .f32) (harg2 : arg2.IsWhole) (arg3 : Memref sig .tc .vmem S64x64x16 .f32) (harg3 : arg3.IsWhole) (arg4 : Memref sig .tc .vmem S32x64 .f32) (harg4 : arg4.IsWhole) (arg5 : Memref sig .tc .vmem S32x64 .f32) (harg5 : arg5.IsWhole) (hc0 : cond1_0 i) (hc1 : ¬cond1_1 i) (x0 : Vec F S32x64x16 .f32) (x1 : Vec F S64x64x16 .f32) : Vec F S32x64 .f32 :=
  VO1_2.read (Elt F) (VO1_2.writes (Elt F) VO1_2.junk (kernelRun1_A c i arg2 harg2 arg3 harg3 arg4 harg4 arg5 harg5 hc0 hc1 x0 x1).1)
theorem scover1_A (c : Dev nD) (i : grid1.Coords) (arg2 : Memref sig .tc .vmem S32x64x16 .f32) (harg2 : arg2.IsWhole) (arg3 : Memref sig .tc .vmem S64x64x16 .f32) (harg3 : arg3.IsWhole) (arg4 : Memref sig .tc .vmem S32x64 .f32) (harg4 : arg4.IsWhole) (arg5 : Memref sig .tc .vmem S32x64 .f32) (harg5 : arg5.IsWhole) (hc0 : cond1_0 i) (hc1 : ¬cond1_1 i) (x0 : Vec F S32x64x16 .f32) (x1 : Vec F S64x64x16 .f32) (y : S32x64.Idx) :
    ∃ pc ∈ (kernelRun1_A c i arg2 harg2 arg3 harg3 arg4 harg4 arg5 harg5 hc0 hc1 x0 x1).2.1, y ∈ pc.1.set :=
  View.cover_of_tiledL (kernelRun1_A c i arg2 harg2 arg3 harg3 arg4 harg4 arg5 harg5 hc0 hc1 x0 x1).2.1 S32x64.size (by sl_kernel_rfl) y
def sout1_A (c : Dev nD) (i : grid1.Coords) (arg2 : Memref sig .tc .vmem S32x64x16 .f32) (harg2 : arg2.IsWhole) (arg3 : Memref sig .tc .vmem S64x64x16 .f32) (harg3 : arg3.IsWhole) (arg4 : Memref sig .tc .vmem S32x64 .f32) (harg4 : arg4.IsWhole) (arg5 : Memref sig .tc .vmem S32x64 .f32) (harg5 : arg5.IsWhole) (hc0 : cond1_0 i) (hc1 : ¬cond1_1 i) (x0 : Vec F S32x64x16 .f32) (x1 : Vec F S64x64x16 .f32) : Vec F S32x64 .f32 :=
  VS1.read (Elt F) (VS1.writes (Elt F) VS1.junk (kernelRun1_A c i arg2 harg2 arg3 harg3 arg4 harg4 arg5 harg5 hc0 hc1 x0 x1).2.1)

def out1_B_2 (c : Dev nD) (i : grid1.Coords) (arg2 : Memref sig .tc .vmem S32x64x16 .f32) (harg2 : arg2.IsWhole) (arg3 : Memref sig .tc .vmem S64x64x16 .f32) (harg3 : arg3.IsWhole) (arg4 : Memref sig .tc .vmem S32x64 .f32) (harg4 : arg4.IsWhole) (arg5 : Memref sig .tc .vmem S32x64 .f32) (harg5 : arg5.IsWhole) (hc0 : ¬cond1_0 i) (hc1 : ¬cond1_1 i) (x0 : Vec F S32x64x16 .f32) (x1 : Vec F S64x64x16 .f32) (xs : Vec F S32x64 .f32) : Vec F S32x64 .f32 :=
  VO1_2.read (Elt F) (VO1_2.writes (Elt F) VO1_2.junk (kernelRun1_B c i arg2 harg2 arg3 harg3 arg4 harg4 arg5 harg5 hc0 hc1 x0 x1 xs).1)
theorem scover1_B (c : Dev nD) (i : grid1.Coords) (arg2 : Memref sig .tc .vmem S32x64x16 .f32) (harg2 : arg2.IsWhole) (arg3 : Memref sig .tc .vmem S64x64x16 .f32) (harg3 : arg3.IsWhole) (arg4 : Memref sig .tc .vmem S32x64 .f32) (harg4 : arg4.IsWhole) (arg5 : Memref sig .tc .vmem S32x64 .f32) (harg5 : arg5.IsWhole) (hc0 : ¬cond1_0 i) (hc1 : ¬cond1_1 i) (x0 : Vec F S32x64x16 .f32) (x1 : Vec F S64x64x16 .f32) (xs : Vec F S32x64 .f32) (y : S32x64.Idx) :
    ∃ pc ∈ (kernelRun1_B c i arg2 harg2 arg3 harg3 arg4 harg4 arg5 harg5 hc0 hc1 x0 x1 xs).2.1, y ∈ pc.1.set :=
  View.cover_of_tiledL (kernelRun1_B c i arg2 harg2 arg3 harg3 arg4 harg4 arg5 harg5 hc0 hc1 x0 x1 xs).2.1 S32x64.size (by sl_kernel_rfl) y
def sout1_B (c : Dev nD) (i : grid1.Coords) (arg2 : Memref sig .tc .vmem S32x64x16 .f32) (harg2 : arg2.IsWhole) (arg3 : Memref sig .tc .vmem S64x64x16 .f32) (harg3 : arg3.IsWhole) (arg4 : Memref sig .tc .vmem S32x64 .f32) (harg4 : arg4.IsWhole) (arg5 : Memref sig .tc .vmem S32x64 .f32) (harg5 : arg5.IsWhole) (hc0 : ¬cond1_0 i) (hc1 : ¬cond1_1 i) (x0 : Vec F S32x64x16 .f32) (x1 : Vec F S64x64x16 .f32) (xs : Vec F S32x64 .f32) : Vec F S32x64 .f32 :=
  VS1.read (Elt F) (VS1.writes (Elt F) VS1.junk (kernelRun1_B c i arg2 harg2 arg3 harg3 arg4 harg4 arg5 harg5 hc0 hc1 x0 x1 xs).2.1)

theorem cover1_C_2 (c : Dev nD) (i : grid1.Coords) (arg2 : Memref sig .tc .vmem S32x64x16 .f32) (harg2 : arg2.IsWhole) (arg3 : Memref sig .tc .vmem S64x64x16 .f32) (harg3 : arg3.IsWhole) (arg4 : Memref sig .tc .vmem S32x64 .f32) (harg4 : arg4.IsWhole) (arg5 : Memref sig .tc .vmem S32x64 .f32) (harg5 : arg5.IsWhole) (hc0 : ¬cond1_0 i) (hc1 : cond1_1 i) (x0 : Vec F S32x64x16 .f32) (x1 : Vec F S64x64x16 .f32) (xs : Vec F S32x64 .f32) (y : S32x64.Idx) :
    ∃ pc ∈ (kernelRun1_C c i arg2 harg2 arg3 harg3 arg4 harg4 arg5 harg5 hc0 hc1 x0 x1 xs).1, y ∈ pc.1.set :=
  View.cover_of_tiledL (kernelRun1_C c i arg2 harg2 arg3 harg3 arg4 harg4 arg5 harg5 hc0 hc1 x0 x1 xs).1 S32x64.size (by sl_kernel_rfl) y
def out1_C_2 (c : Dev nD) (i : grid1.Coords) (arg2 : Memref sig .tc .vmem S32x64x16 .f32) (harg2 : arg2.IsWhole) (arg3 : Memref sig .tc .vmem S64x64x16 .f32) (harg3 : arg3.IsWhole) (arg4 : Memref sig .tc .vmem S32x64 .f32) (harg4 : arg4.IsWhole) (arg5 : Memref sig .tc .vmem S32x64 .f32) (harg5 : arg5.IsWhole) (hc0 : ¬cond1_0 i) (hc1 : cond1_1 i) (x0 : Vec F S32x64x16 .f32) (x1 : Vec F S64x64x16 .f32) (xs : Vec F S32x64 .f32) : Vec F S32x64 .f32 :=
  VO1_2.read (Elt F) (VO1_2.writes (Elt F) VO1_2.junk (kernelRun1_C c i arg2 harg2 arg3 harg3 arg4 harg4 arg5 harg5 hc0 hc1 x0 x1 xs).1)
theorem scover1_C (c : Dev nD) (i : grid1.Coords) (arg2 : Memref sig .tc .vmem S32x64x16 .f32) (harg2 : arg2.IsWhole) (arg3 : Memref sig .tc .vmem S64x64x16 .f32) (harg3 : arg3.IsWhole) (arg4 : Memref sig .tc .vmem S32x64 .f32) (harg4 : arg4.IsWhole) (arg5 : Memref sig .tc .vmem S32x64 .f32) (harg5 : arg5.IsWhole) (hc0 : ¬cond1_0 i) (hc1 : cond1_1 i) (x0 : Vec F S32x64x16 .f32) (x1 : Vec F S64x64x16 .f32) (xs : Vec F S32x64 .f32) (y : S32x64.Idx) :
    ∃ pc ∈ (kernelRun1_C c i arg2 harg2 arg3 harg3 arg4 harg4 arg5 harg5 hc0 hc1 x0 x1 xs).2.1, y ∈ pc.1.set :=
  View.cover_of_tiledL (kernelRun1_C c i arg2 harg2 arg3 harg3 arg4 harg4 arg5 harg5 hc0 hc1 x0 x1 xs).2.1 S32x64.size (by sl_kernel_rfl) y
def sout1_C (c : Dev nD) (i : grid1.Coords) (arg2 : Memref sig .tc .vmem S32x64x16 .f32) (harg2 : arg2.IsWhole) (arg3 : Memref sig .tc .vmem S64x64x16 .f32) (harg3 : arg3.IsWhole) (arg4 : Memref sig .tc .vmem S32x64 .f32) (harg4 : arg4.IsWhole) (arg5 : Memref sig .tc .vmem S32x64 .f32) (harg5 : arg5.IsWhole) (hc0 : ¬cond1_0 i) (hc1 : cond1_1 i) (x0 : Vec F S32x64x16 .f32) (x1 : Vec F S64x64x16 .f32) (xs : Vec F S32x64 .f32) : Vec F S32x64 .f32 :=
  VS1.read (Elt F) (VS1.writes (Elt F) VS1.junk (kernelRun1_C c i arg2 harg2 arg3 harg3 arg4 harg4 arg5 harg5 hc0 hc1 x0 x1 xs).2.1)

/-! ## What the output block and the scratch hold after each point -/

/-- After the body at position `n`: the output block's buffer and the scratch (a pair). The case is chosen by the
    position modulo 4; the scratch's contents before the body are what position `n - 1` left. -/
def outsAt1 (c : Dev nD) : (n : ℕ) → n < cfg1.N → Vec F S32x64 .f32 × Vec F S32x64 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 4 = 0 then
      if h1 : (n + 1) % 4 = 3 then
        False.elim (by omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 4 = 3 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 4 = 0) (h1 : ¬t.val % 4 = 3) :
    outsAt1 V c t.val t.isLt = (out1_A_2 c (grid1.coords t) (ms1_0 t) (hs1_0 t) (ms1_1 t) (hs1_1 t) (ms1_2 t) (hs1_2 t) scM1 (Memref.isWhole_whole _) ((hcond1_0 t).mpr h0) (fun h => h1 ((hcond1_1 t).mp h)) (iblk1 V c 0 t) (iblk1 V c 1 t), sout1_A c (grid1.coords t) (ms1_0 t) (hs1_0 t) (ms1_1 t) (hs1_1 t) (ms1_2 t) (hs1_2 t) scM1 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (out1_B_2 c (grid1.coords t) (ms1_0 t) (hs1_0 t) (ms1_1 t) (hs1_1 t) (ms1_2 t) (hs1_2 t) scM1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2, sout1_B c (grid1.coords t) (ms1_0 t) (hs1_0 t) (ms1_1 t) (hs1_1 t) (ms1_2 t) (hs1_2 t) scM1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C_2 c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the plain one (the scratch at anything);
    afterwards the scratch at what the point before left. -/
def PhiS1 (c : Dev nD) : (n : ℕ) → n ≤ cfg1.N → sProp 𝕄
  | 0, _ => Pipeline.ΦA spec1 c
  | n + 1, hn => iprop(restC c (owns (c : Thread nD τ) scM1 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(restC c (owns (c : Thread nD τ) scM1 fullShare ((outsAt1 V c n hn).2)) ∗ (∃ r, prngReg c r)) := rfl
theorem PhiS1_pos (c : Dev nD) (n : ℕ) (h : n ≤ cfg1.N) (hz : n ≠ 0) :
    PhiS1 V c n h = iprop(restC c (owns (c : Thread nD τ) scM1 fullShare ((outsAt1 V c (n - 1) (by omega)).2)) ∗ (∃ r, prngReg c r)) := by
  cases n with
  | zero => exact absurd rfl hz
  | succ n => rfl

/-! ## The data -/

/-- The data of the pairwise kernel on core `c`. The two input windows read one array, each at half of its share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q w := match w with
    | ⟨0, _⟩ => (fullShare : PosShare TreeShare).left
    | ⟨1, _⟩ => (fullShare : PosShare TreeShare).right
    | ⟨2, _⟩ => fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The obligation at a point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' buffers hold their blocks; the position modulo 4 says which case the point is
    in; the invariant hands the body the scratch at what the point before left (at anything at the very first point)
    and takes it back at this point's contents; the other kernel's scoped buffers and the generator register pass
    through; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  by_cases h0 : t.val % 4 = 0
  · by_cases h1 : t.val % 4 = 3
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2 t (fun h => h1 ((hcond1_1 t).mp h))) (noFlush1_2 t (fun h => h1 ((hcond1_1 t).mp h)))]
      rw [outsAt1_A V c t h0 h1]
      unfold sout1_A; (try dsimp only)
      by_cases hz : t.val = 0
      · rw [PhiS1_castSucc V c t, PhiS1_zero V c _ _ hz, PhiA1_eq]
        unfold restC
        iintro ⟨⟨⟨Ha, Hb, Hc, Hd, He, HS⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS]; · iexact HS
        iintro ⟨H0, H1, H2, ⟨%es, HS⟩⟩
        isplitl [Ha Hb Hc Hd He HS Hg]
        · isplitl [Ha Hb Hc Hd He HS]
          · isplitl [Ha]; · iexact Ha
            isplitl [Hb]; · iexact Hb
            isplitl [Hc]; · iexact Hc
            isplitl [Hd]; · iexact Hd
            isplitl [He]; · iexact He
            unfold owns; iexists _; isplitr
            swap; · iexact HS
            ipureintro; exact View.read_writes_of_cover _ _ _ _ _ (scover1_A c _ _ _ _ _ _ _ _ _ _ _ _ _)
          iexact Hg
        isplitl [Ho]; · iexact Ho
        isplitl [H0]; · iexact H0
        isplitl [H1]; · iexact H1
        iexists _; iexact H2
      · rw [PhiS1_castSucc V c t, PhiS1_pos V c _ _ hz]
        unfold restC
        iintro ⟨⟨⟨Ha, Hb, Hc, Hd, He, HS⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS]; · iexists _; iexact HS
        iintro ⟨H0, H1, H2, ⟨%es, HS⟩⟩
        isplitl [Ha Hb Hc Hd He HS Hg]
        · isplitl [Ha Hb Hc Hd He HS]
          · isplitl [Ha]; · iexact Ha
            isplitl [Hb]; · iexact Hb
            isplitl [Hc]; · iexact Hc
            isplitl [Hd]; · iexact Hd
            isplitl [He]; · iexact He
            unfold owns; iexists _; isplitr
            swap; · iexact HS
            ipureintro; exact View.read_writes_of_cover _ _ _ _ _ (scover1_A c _ _ _ _ _ _ _ _ _ _ _ _ _)
          iexact Hg
        isplitl [Ho]; · iexact Ho
        isplitl [H0]; · iexact H0
        isplitl [H1]; · iexact H1
        iexists _; iexact H2
  · by_cases h1 : t.val % 4 = 3
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t ((hcond1_1 t).mpr h1)], after1_2]
      rw [outsAt1_C V c t h0 h1]
      unfold out1_C_2 sout1_C; (try dsimp only)
      have hz : t.val ≠ 0 := by omega
      rw [PhiS1_castSucc V c t, PhiS1_pos V c _ _ hz]
      unfold restC
      iintro ⟨⟨⟨Ha, Hb, Hc, Hd, He, HS⟩, Hg⟩, Ho, ⟨%d0, H0⟩, ⟨%d1, H1⟩, ⟨%d2, H2⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [Ha Hb Hc Hd He HS Hg]
      · isplitl [Ha Hb Hc Hd He HS]
        · isplitl [Ha]; · iexact Ha
          isplitl [Hb]; · iexact Hb
          isplitl [Hc]; · iexact Hc
          isplitl [Hd]; · iexact Hd
          isplitl [He]; · iexact He
          unfold owns; iexists _; isplitr
          swap; · iexact HS
          ipureintro; exact View.read_writes_of_cover _ _ _ _ _ (scover1_C c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C_2 c _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2 t (fun h => h1 ((hcond1_1 t).mp h))) (noFlush1_2 t (fun h => h1 ((hcond1_1 t).mp h)))]
      rw [outsAt1_B V c t h0 h1]
      unfold sout1_B; (try dsimp only)
      have hz : t.val ≠ 0 := by omega
      rw [PhiS1_castSucc V c t, PhiS1_pos V c _ _ hz]
      unfold restC
      iintro ⟨⟨⟨Ha, Hb, Hc, Hd, He, HS⟩, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
      isplitl [H0]; · iexact H0
      isplitl [H1]; · iexact H1
      isplitl [H2]; · iexact H2
      isplitl [HS]; · iexact HS
      iintro ⟨H0, H1, H2, ⟨%es, HS⟩⟩
      isplitl [Ha Hb Hc Hd He HS Hg]
      · isplitl [Ha Hb Hc Hd He HS]
        · isplitl [Ha]; · iexact Ha
          isplitl [Hb]; · iexact Hb
          isplitl [Hc]; · iexact Hc
          isplitl [Hd]; · iexact Hd
          isplitl [He]; · iexact He
          unfold owns; iexists _; isplitr
          swap; · iexact HS
          ipureintro; exact View.read_writes_of_cover _ _ _ _ _ (scover1_B c _ _ _ _ _ _ _ _ _ _ _ _ _ _)
        iexact Hg
      isplitl [Ho]; · iexact Ho
      isplitl [H0]; · iexact H0
      isplitl [H1]; · iexact H1
      iexists _; iexact H2

theorem body_obligation1 (c : Dev nD) : BodyObligation (dat1 (F := F) V c) (defs₀ (F := F)) Variants.none () Set.univ := fun t => by
  rw [bigSep_W1, bigSep_W1]
  exact sound_body1 V c t

/-- What the launch hands the region is the invariant before the first point, -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- and after the last point the invariant gives it back, the scratch's contents forgotten. -/
theorem hout1 (c : Dev nD) : (dat1 V c).Φ (Fin.last cfg1.N) ⊢ Pipeline.ΦA spec1 c := by
  have ht : (Fin.last cfg1.N).val ≠ 0 := by rw [Fin.val_last]; have : cfg1.N = 32 := N_1; omega
  rw [show (dat1 V c).Φ (Fin.last cfg1.N) = PhiS1 V c (Fin.last cfg1.N).val (Nat.le_of_lt_succ (Fin.last cfg1.N).isLt) from rfl, PhiS1_pos V c _ _ ht, PhiA1_eq]
  unfold restC
  iintro ⟨⟨Ha, Hb, Hc, Hd, He, HS⟩, Hg⟩
  isplitl [Ha Hb Hc Hd He HS]
  · isplitl [Ha]; · iexact Ha
    isplitl [Hb]; · iexact Hb
    isplitl [Hc]; · iexact Hc
    isplitl [Hd]; · iexact Hd
    isplitl [He]; · iexact He
    iexists _; iexact HS
  iexact Hg

end Region1

end Cert.Kernel.Frm

end
-- ==== Proof.KbMain.lean ====
/-
  The whole program run from the launch to the return: host operations, the product kernel's region, a reshape, the
  pairwise kernel's region, the final concatenation. Between two items every unscoped buffer is held at contents
  named here by a fold through the program (W0 … W5); each region is entered from the contents before it and left
  at its arrays' final contents. The pairwise kernel reads the product through two windows: on entry the product's
  buffer is split into two half shares, one per window, and on exit the halves are joined again. The conclusion
  names every unscoped buffer's final contents; the frame claim and the value claim are read off it.
-/
import proofs.«107602_j970662608991_2_alg».proof.Proof.KbRegion0
import proofs.«107602_j970662608991_2_alg».proof.Proof.KbRegion1

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => m (c, b)
/-- After the first host operations (the product kernel's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the product kernel's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the reshape (the pairwise kernel's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the pairwise kernel's exit: its output array at what the pipeline leaves, every other buffer as entered. -/
def W4 (c : Dev nD) : Valuation τ sig (Elt F) :=
  Function.update (W3 m c) (Proc.devRef .tc main_v5) ((dat1 (V3 m) c).arrAt 2 cfg1.N)
abbrev V4 : (c : Dev nD) → (b : Ref sig .tc) → Buf (Elt F) ((c : Thread nD τ).loc b) := fun c b => W4 m c b
theorem W4_main_v5 (c : Dev nD) : W4 m c (Proc.devRef .tc main_v5) = (dat1 (V3 m) c).arrAt 2 cfg1.N := by
  unfold W4; exact Function.update_self ..
theorem W4_of_ne (c : Dev nD) (b : Ref sig .tc) (hb : b ≠ main_v5) : W4 m c (Proc.devRef .tc b) = W3 m c (Proc.devRef .tc b) := by
  unfold W4; exact Function.update_of_ne (StableHlo.devRef_ne_of_ne hb) ..
/-- After the concatenation (the return). -/
abbrev W5 : Dev nD → Valuation τ sig (Elt F) := fun c => StableHlo.after hostOps2 (W4 m c)

/-! ## The pairwise kernel's arrays: one buffer behind two windows -/

section Shared
variable (Vx : (c : Dev nD) → (b : Ref sig .tc) → Buf (Elt F) ((c : Thread nD τ).loc b))

/-- The buffers behind the pairwise kernel's three windows are two: the product and the output. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v4) ↦{fullShare} V main_v4) ∗ (((c : Thread nD τ).loc main_v5) ↦{fullShare} V main_v5)) := by
  unfold Pipeline.arrBufs
  exact bigSep_eq_bigSepL_of_eq [main_v4, main_v5] (by decide) (by decide) _

/-- The windows' arrays as the pipeline holds them: the product twice, at the two halves of its share, and the output whole. -/
theorem arrays1_eq (c : Dev nD) (Fn : (w : Fin cfg1.W) → Buf (Elt F) ((cfg1.win w).arr.view.loc (c : Thread nD τ))) :
    ((dat1 Vx c).arrays Fn : sProp 𝕄)
      = iprop((((c : Thread nD τ).loc main_v4) ↦{(fullShare : PosShare TreeShare).left} Fn 0) ∗ (((c : Thread nD τ).loc main_v4) ↦{(fullShare : PosShare TreeShare).right} Fn 1)
          ∗ (((c : Thread nD τ).loc main_v5) ↦{fullShare} Fn 2)) := by
  unfold Dat.arrays
  rw [bigSep_W1]
  have h0 : (dat1 Vx c).share 0 = (fullShare : PosShare TreeShare).left := rfl
  have h1 : (dat1 Vx c).share 1 = (fullShare : PosShare TreeShare).right := rfl
  have h2 : (dat1 Vx c).share 2 = fullShare := rfl
  rw [h0, h1, h2, (arr_whole1 0).set_eq_univ, (arr_whole1 2).set_eq_univ]

end Shared

/-! ## The pairwise kernel's entry and exit: the product's buffer split into the two windows' halves, and joined again -/

theorem entry1 (c : Dev nD) :
    (StableHlo.held (c : Thread nD τ) (Pipeline.ucRefs τ sig) (W3 m c) : sProp 𝕄)
      ⊢ iprop((dat1 (V3 m) c).arrays ((dat1 (V3 m) c).arrAt · 0)
          ∗ Pipeline.unscopedRest (Ix := Unit) (Name := ℕ) (U := UR sig nD τ) (Lvl := ℕ) spec1 c (V3 m c)) := by
  rw [← Pipeline.unscopedBufs_held (Ix := Unit) (Name := ℕ) (U := UR sig nD τ) (Lvl := ℕ) c (W3 m c)]
  rw [Pipeline.unscopedBufs_split₀ cfgs 1 winFacts₀1.arr_unscoped c (V3 m c)]
  refine sep_mono ?_ .rfl
  show Pipeline.arrBufs spec1 c (V3 m c) ⊢ _
  rw [arrBufs1_eq, arrays1_eq]
  iintro ⟨H4, H5⟩
  ihave H := (pointsTo_share (PosShare.mem_left_op_right fullShare)).1 $$ H4
  icases H with ⟨Hl, Hr⟩
  isplitl [Hl]; · iexact Hl
  isplitl [Hr]; · iexact Hr
  iexact H5

theorem exit1 (c : Dev nD) :
    iprop((dat1 (V3 m) c).arrays ((dat1 (V3 m) c).arrAt · cfg1.N)
        ∗ Pipeline.unscopedRest (Ix := Unit) (Name := ℕ) (U := UR sig nD τ) (Lvl := ℕ) spec1 c (V3 m c))
      ⊢ (StableHlo.held (c : Thread nD τ) (Pipeline.ucRefs τ sig) (W4 m c) : sProp 𝕄) := by
  rw [← Pipeline.unscopedBufs_held (Ix := Unit) (Name := ℕ) (U := UR sig nD τ) (Lvl := ℕ) c (W4 m c)]
  rw [Pipeline.unscopedBufs_split₀ cfgs 1 winFacts₀1.arr_unscoped c (V4 m c)]
  refine sep_mono ?_ (Entails.of_eq ?_)
  · show _ ⊢ Pipeline.arrBufs spec1 c (V4 m c)
    rw [arrBufs1_eq, arrays1_eq]
    rw [show (dat1 (V3 m) c).arrAt 0 cfg1.N = V4 m c main_v4 from
          ((dat1 (V3 m) c).arrAt_in 0 rfl _).trans ((A_eq1 (V3 m) c 0).trans (W4_of_ne m c main_v4 (by decide)).symm),
        show (dat1 (V3 m) c).arrAt 1 cfg1.N = V4 m c main_v4 from
          ((dat1 (V3 m) c).arrAt_in 1 rfl _).trans ((A_eq1 (V3 m) c 1).trans (W4_of_ne m c main_v4 (by decide)).symm),
        show (dat1 (V3 m) c).arrAt 2 cfg1.N = V4 m c main_v5 from (W4_main_v5 m c).symm]
    iintro ⟨Hl, Hr, H5⟩
    isplitl [Hl Hr]
    · iapply (pointsTo_share (PosShare.mem_left_op_right fullShare)).2
      isplitl [Hl]; · iexact Hl
      iexact Hr
    iexact H5
  · unfold Pipeline.unscopedRest
    exact bigSep_congr fun b hb => by
      rw [show V4 m c b = V3 m c b from W4_of_ne m c b fun e => (Finset.mem_sdiff.mp hb).2 (Finset.mem_image.mpr ⟨2, Finset.mem_univ _, e.symm⟩)]

/-! ## The data of both kernels and the thread state -/

abbrev adm : (p : Fin 2) → (pcfgs (F := F) p).Adm := fun p => (cfgs p).toPCfg_adm
/-- Both kernels' data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W5 m c) ∗ ∃ r, prngReg c r)

/-! ## The two regions as segments -/

set_option backward.isDefEq.respectTransparency.types false in
/-- The product kernel's region: entered from every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The pairwise kernel's region: entered from every unscoped buffer at `W3`, left at `W4`; the product's buffer goes
    in as two halves and comes back whole. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have he : (StableHlo.held (c : Thread nD τ) (Pipeline.ucRefs τ sig) (W3 m c) : sProp 𝕄)
      ⊢ iprop((pdats m 1 c).arrays ((pdats m 1 c).arrAt · 0)
          ∗ Pipeline.unscopedRest (Ix := Unit) (Name := ℕ) (U := UR sig nD τ) (Lvl := ℕ) spec1 c (V3 m c)) := entry1 m c
    iintro ⟨⟨Hub, Hp, HO⟩, -, -⟩
    ihave H := he $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (V3 m) c).Φ 0 from rfl]
    iintro ⟨Hp, -, Hr⟩
    iapply (hin1 (V3 m) c)
    unfold Pipeline.ΦA
    isplitl [Hr]; · iexact Hr
    iexact Hp
  hout c := by
    rw [Pipeline.ownSems0_none, show (pdats m 1 c).Φ (Fin.last _) = (dat1 (V3 m) c).Φ (Fin.last cfg1.N) from rfl]
    iintro H
    ihave H' := (hout1 (V3 m) c) $$ H
    unfold Pipeline.ΦA
    icases H' with ⟨Hr, Hp⟩
    isplitl [Hp]; · iexact Hp
    isplitr; · iempintro
    iexact Hr
  hexit c := by
    have hx : iprop((pdats m 1 c).arrays ((pdats m 1 c).arrAt · cfg1.N)
        ∗ Pipeline.unscopedRest (Ix := Unit) (Name := ℕ) (U := UR sig nD τ) (Lvl := ℕ) spec1 c (V3 m c))
      ⊢ (StableHlo.held (c : Thread nD τ) (Pipeline.ucRefs τ sig) (W4 m c) : sProp 𝕄) := exit1 m c
    iintro ⟨Ha, HO, HY, Hrest⟩
    imodintro
    isplitl [Ha Hrest]
    · iapply hx; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]
theorem main_run (c : Dev nD) : main (F := F) c = Pipeline.Seg.run (segs m) := (main_chain c).trans (by chain_rfl)

set_option backward.isDefEq.respectTransparency.types false in
/-- From any memory with zero counters every weakly fair execution of the program terminates, nothing faulting, and
    every final state holds every unscoped buffer at the contents `W5` names. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => (show iprop(StableHlo.held (c : Thread nD τ) (Pipeline.ucRefs τ sig) (W5 m c) ∗ R c)
          ⊢ iprop(Tₙ m c ∗ ∃ W, owes (c : Thread nD τ) (0 : CellTallies nD τ sig Unit) W) from by
      iintro ⟨Hh, Hp, HO⟩
      isplitl [Hh Hp]
      · isplitl [Hh]; · iexact Hh
        iexact Hp
      iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

end Cert.Kernel.Frm

end
-- ==== Proof.KbFrame.lean ====
/-
  The frame claim read off the run: neither host operation nor region writes an argument array, so the fold of the
  buffer contents through the program, read at an argument, walks back to the launch memory.
-/
import proofs.«107602_j970662608991_2_alg».proof.Proof.KbMain

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg0) := W2_of_ne m c main_arg0 (by decide)
    _ = W0 m c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl
theorem W5_main_arg0 (c : Dev nD) : W5 m c (Proc.devRef .tc main_arg0) = m ((c : Thread nD τ).loc main_arg0) :=
  (StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W4_main_arg0 m c)

theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg1) := W2_of_ne m c main_arg1 (by decide)
    _ = W0 m c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl
theorem W5_main_arg1 (c : Dev nD) : W5 m c (Proc.devRef .tc main_arg1) = m ((c : Thread nD τ).loc main_arg1) :=
  (StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W4_main_arg1 m c)

/-- From any memory with zero counters the program terminates, nothing faulting, with both argument arrays as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W5_main_arg0 m c),
     (h c _ (mem_uc main_arg1 (by decide))).trans (W5_main_arg1 m c)⟩) (run_all m ρ)

end Cert.Kernel.Frm

end
-- ==== Proof.KiRegion0.lean ====
/-
  The product kernel (the first of the program's two kernels) at the contents its region is entered with.

  Each of its two grid points multiplies a block of 128 rows of the left operand with the whole right operand and
  stores the 128 x 1024 block of the product; nothing is carried from one point to the next. Stated here, for any
  float instance: what the output block holds after the body as a function of the two input blocks, the body's
  triple, the data the launch theorems ask for, and the obligation at every point.
-/
import proofs.«107602_j970662608991_2_alg».proof.Proof.Gen.KernelIdeal.Launch
import proofs.«107602_j970662608991_2_alg».proof.Proof.Gen.KernelIdeal.Skeleton
import proofs.«107602_j970662608991_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole-block rectangles the body reads and writes through. -/
abbrev r0_a : Rect S128x1024 := Rect.unit (s := S128x1024) ![0, 0] S128x1024.size inb_S128x1024_S128x1024_0_0
abbrev r0_b : Rect S1024x1024 := Rect.unit (s := S1024x1024) ![0, 0] S1024x1024.size inb_S1024x1024_S1024x1024_0_0

/-- The output block after the body: the one store of the product of the two loaded blocks. -/
def out0_2 (x0 : Vec F S128x1024 .bf16) (x1 : Vec F S1024x1024 .bf16) : Vec F S128x1024 .f32 :=
  View.canon [⟨r0_a, k0_pay1 (View.ld x0 r0_a) (View.ld x1 r0_b)⟩]

theorem cover0_2 (p0 : Vec F S128x1024 .f32) (y : S128x1024.Idx) :
    ∃ pc ∈ ([⟨r0_a, p0⟩] : List (View.Piece (Elt F) S128x1024 .f32)), y ∈ pc.1.set :=
  View.cover_of_tiled [⟨r0_a, p0⟩] S128x1024.size (by rfl) y

set_option maxHeartbeats 1000000 in
/-- The body's triple: from the two input blocks at their contents and the output block at anything, the body ends
    with the inputs as they were and the output at the product. -/
theorem sound_kernel0 (c : Dev nD) (E : Set ℕ) (i : grid0.Coords) (arg1 : Memref sig .tc .vmem S128x1024 .bf16) (harg1 : arg1.IsWhole)
    (arg2 : Memref sig .tc .vmem S1024x1024 .bf16) (harg2 : arg2.IsWhole) (arg3 : Memref sig .tc .vmem S128x1024 .f32) (harg3 : arg3.IsWhole)
    (x0 : Vec F S128x1024 .bf16) (x1 : Vec F S1024x1024 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The data of the product kernel on core `c`: the arrays as the region finds them; after the body each input's
    buffer at its block and the output's at the product of the two blocks; the invariant is the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Region0

end Cert.KernelIdeal.Frm

end
-- ==== Proof.KiRuns1.lean ====
/-
  The pairwise kernel (the second of the program's two kernels): what its runs share.

  Its grid is 8 x 4: the first coordinate i picks a block of 32 rows, the second j a block of 64 rows to pair them with.
  A scratch block of 32 x 64 sums is cleared at j = 0, added to at every point, and copied to the output block at
  j = 3; so the body has three cases along the grid (first point of a row block, a middle point, the last point), the
  output window is idle at the first two, and the scratch is carried from each point to the next. Stated here: the
  two conditions in closed form over the grid, where the output window is idle, the memrefs the body is called
  with, and the region's invariant with the scratch named.
-/
import proofs.«107602_j970662608991_2_alg».proof.Proof.Gen.KernelIdeal.Launch
import proofs.«107602_j970662608991_2_alg».proof.Proof.Gen.KernelIdeal.Skeleton
import proofs.«107602_j970662608991_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition under which the body clears the scratch: the second grid coordinate is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- The condition under which the body copies the scratch to the output block: the second grid coordinate is 3. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-- The two input windows are never idle; the output window is idle, and not written back, away from the last point
    of a row block, and live there. -/
theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-- One staging buffer of the output window, and the scratch, as views through which contents are stated. -/
abbrev VO1_2 : View sig .tc .vmem S32x64 .f32 := (Memref.whole cc1_stg2_0 : Memref sig .tc .vmem S32x64 .f32).view
abbrev ms1_0 (t : Fin cfg1.N) : Memref sig .tc .vmem S32x64x16 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S64x64x16 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S32x64 .f32 := win1_2.stage (cfg1.slots t 2)
abbrev hs1_2 (t : Fin cfg1.N) : (ms1_2 t).IsWhole := hstage1_2 ((cfg1.slots t 2).cast nbuf1_2)
abbrev scM1 : Memref sig .tc .vmem S32x64 .f32 := Memref.whole cc1_scratch0
abbrev VS1 : View sig .tc .vmem S32x64 .f32 := scM1.view

/-- The scoped buffers of the other kernel, each at some contents, beside an assertion `S` about the scratch: the
    shape of the scoped rest of this region with the scratch singled out. -/
def restC (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ S)

/-- The region's plain invariant (the scoped rest and the generator register) with the scratch as a memref owned at
    some contents. -/
theorem PhiA1_eq (c : Dev nD) :
    (Pipeline.ΦA spec1 c : sProp 𝕄)
      = iprop(restC c (iprop(∃ d, owns (c : Thread nD τ) scM1 fullShare d)) ∗ (∃ r, prngReg c r)) := by
  unfold Pipeline.ΦA restC; rw [scopedRest1_eq]; simp only [scM1, owns_whole]; try rfl

end Cert.KernelIdeal.Frm

end
-- ==== Proof.KiRun1.lean ====
/-
  The pairwise kernel's body run once per case: at the first point of a row block (the scratch is cleared, then
  added to), at a middle point (added to), at the last point (added to, then copied to the output block). Each run
  is the body's triple on whole staging memrefs, with the pieces the stores leave in the scratch and in the output
  block found while the body is executed.
-/
import proofs.«107602_j970662608991_2_alg».proof.Proof.KiRuns1

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The first point of a row block: the scratch, at anything, is cleared and then holds the block's first sums; the
    output block is handed back untouched. -/
noncomputable def kernelRun1_A (c : Dev nD) (i : grid1.Coords) (arg2 : Memref sig .tc .vmem S32x64x16 .f32) (harg2 : arg2.IsWhole) (arg3 : Memref sig .tc .vmem S64x64x16 .f32) (harg3 : arg3.IsWhole) (arg4 : Memref sig .tc .vmem S32x64 .f32) (harg4 : arg4.IsWhole) (arg5 : Memref sig .tc .vmem S32x64 .f32) (harg5 : arg5.IsWhole) (hc0 : cond1_0 i) (hc1 : ¬cond1_1 i)
    (x0 : Vec F S32x64x16 .f32) (x1 : Vec F S64x64x16 .f32) :
    Σ' (L2 : List (View.Piece (Elt F) S32x64 .f32)), { LS : List (View.Piece (Elt F) S32x64 .f32) //
      ∀ (xi2 : Vec F S32x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc1__dist_kernel i arg2 harg2 arg3 harg3 arg4 harg4 arg5 harg5) K } := by
  refine ⟨[], ?_, fun xi2 E K => ?run⟩
  case run =>
    simp only [cc1__dist_kernel_eq_skeleton]; unfold cc1__dist_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 4000000 in
/-- A middle point: the scratch, at what the point before left, is added to; the output block is handed back untouched. -/
noncomputable def kernelRun1_B (c : Dev nD) (i : grid1.Coords) (arg2 : Memref sig .tc .vmem S32x64x16 .f32) (harg2 : arg2.IsWhole) (arg3 : Memref sig .tc .vmem S64x64x16 .f32) (harg3 : arg3.IsWhole) (arg4 : Memref sig .tc .vmem S32x64 .f32) (harg4 : arg4.IsWhole) (arg5 : Memref sig .tc .vmem S32x64 .f32) (harg5 : arg5.IsWhole) (hc0 : ¬cond1_0 i) (hc1 : ¬cond1_1 i)
    (x0 : Vec F S32x64x16 .f32) (x1 : Vec F S64x64x16 .f32) (xs : Vec F S32x64 .f32) :
    Σ' (L2 : List (View.Piece (Elt F) S32x64 .f32)), { LS : List (View.Piece (Elt F) S32x64 .f32) //
      ∀ (xi2 : Vec F S32x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc1__dist_kernel i arg2 harg2 arg3 harg3 arg4 harg4 arg5 harg5) K } := by
  refine ⟨[], ?_, fun xi2 E K => ?run⟩
  case run =>
    simp only [cc1__dist_kernel_eq_skeleton]; unfold cc1__dist_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 4000000 in
/-- The last point of a row block: the scratch, at what the point before left, is added to and then copied into the
    output block, which was at anything. -/
noncomputable def kernelRun1_C (c : Dev nD) (i : grid1.Coords) (arg2 : Memref sig .tc .vmem S32x64x16 .f32) (harg2 : arg2.IsWhole) (arg3 : Memref sig .tc .vmem S64x64x16 .f32) (harg3 : arg3.IsWhole) (arg4 : Memref sig .tc .vmem S32x64 .f32) (harg4 : arg4.IsWhole) (arg5 : Memref sig .tc .vmem S32x64 .f32) (harg5 : arg5.IsWhole) (hc0 : ¬cond1_0 i) (hc1 : cond1_1 i)
    (x0 : Vec F S32x64x16 .f32) (x1 : Vec F S64x64x16 .f32) (xs : Vec F S32x64 .f32) :
    Σ' (L2 : List (View.Piece (Elt F) S32x64 .f32)), { LS : List (View.Piece (Elt F) S32x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc1__dist_kernel i arg2 harg2 arg3 harg3 arg4 harg4 arg5 harg5) K } := by
  refine ⟨?_, ?_, fun E K => ?run⟩
  case run =>
    simp only [cc1__dist_kernel_eq_skeleton]; unfold cc1__dist_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.KernelIdeal.Frm

end
-- ==== Proof.KiRegion1.lean ====
/-
  The pairwise kernel at the contents its region is entered with: what the scratch and the output block hold after
  every grid point, by recursion on the point (the case the point is in, run on that point's input blocks and on
  what the point before left in the scratch), the data the launch theorems ask for, and the obligation at every
  point. The two input windows read ONE array (the product, seen as 256 x 64 x 16): each holds half of its share.
-/
import proofs.«107602_j970662608991_2_alg».proof.Proof.KiRun1

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves -/

def out1_A_2 (c : Dev nD) (i : grid1.Coords) (arg2 : Memref sig .tc .vmem S32x64x16 .f32) (harg2 : arg2.IsWhole) (arg3 : Memref sig .tc .vmem S64x64x16 .f32) (harg3 : arg3.IsWhole) (arg4 : Memref sig .tc .vmem S32x64 .f32) (harg4 : arg4.IsWhole) (arg5 : Memref sig .tc .vmem S32x64 .f32) (harg5 : arg5.IsWhole) (hc0 : cond1_0 i) (hc1 : ¬cond1_1 i) (x0 : Vec F S32x64x16 .f32) (x1 : Vec F S64x64x16 .f32) : Vec F S32x64 .f32 :=
  VO1_2.read (Elt F) (VO1_2.writes (Elt F) VO1_2.junk (kernelRun1_A c i arg2 harg2 arg3 harg3 arg4 harg4 arg5 harg5 hc0 hc1 x0 x1).1)
theorem scover1_A (c : Dev nD) (i : grid1.Coords) (arg2 : Memref sig .tc .vmem S32x64x16 .f32) (harg2 : arg2.IsWhole) (arg3 : Memref sig .tc .vmem S64x64x16 .f32) (harg3 : arg3.IsWhole) (arg4 : Memref sig .tc .vmem S32x64 .f32) (harg4 : arg4.IsWhole) (arg5 : Memref sig .tc .vmem S32x64 .f32) (harg5 : arg5.IsWhole) (hc0 : cond1_0 i) (hc1 : ¬cond1_1 i) (x0 : Vec F S32x64x16 .f32) (x1 : Vec F S64x64x16 .f32) (y : S32x64.Idx) :
    ∃ pc ∈ (kernelRun1_A c i arg2 harg2 arg3 harg3 arg4 harg4 arg5 harg5 hc0 hc1 x0 x1).2.1, y ∈ pc.1.set :=
  View.cover_of_tiledL (kernelRun1_A c i arg2 harg2 arg3 harg3 arg4 harg4 arg5 harg5 hc0 hc1 x0 x1).2.1 S32x64.size (by sl_kernel_rfl) y
def sout1_A (c : Dev nD) (i : grid1.Coords) (arg2 : Memref sig .tc .vmem S32x64x16 .f32) (harg2 : arg2.IsWhole) (arg3 : Memref sig .tc .vmem S64x64x16 .f32) (harg3 : arg3.IsWhole) (arg4 : Memref sig .tc .vmem S32x64 .f32) (harg4 : arg4.IsWhole) (arg5 : Memref sig .tc .vmem S32x64 .f32) (harg5 : arg5.IsWhole) (hc0 : cond1_0 i) (hc1 : ¬cond1_1 i) (x0 : Vec F S32x64x16 .f32) (x1 : Vec F S64x64x16 .f32) : Vec F S32x64 .f32 :=
  VS1.read (Elt F) (VS1.writes (Elt F) VS1.junk (kernelRun1_A c i arg2 harg2 arg3 harg3 arg4 harg4 arg5 harg5 hc0 hc1 x0 x1).2.1)

def out1_B_2 (c : Dev nD) (i : grid1.Coords) (arg2 : Memref sig .tc .vmem S32x64x16 .f32) (harg2 : arg2.IsWhole) (arg3 : Memref sig .tc .vmem S64x64x16 .f32) (harg3 : arg3.IsWhole) (arg4 : Memref sig .tc .vmem S32x64 .f32) (harg4 : arg4.IsWhole) (arg5 : Memref sig .tc .vmem S32x64 .f32) (harg5 : arg5.IsWhole) (hc0 : ¬cond1_0 i) (hc1 : ¬cond1_1 i) (x0 : Vec F S32x64x16 .f32) (x1 : Vec F S64x64x16 .f32) (xs : Vec F S32x64 .f32) : Vec F S32x64 .f32 :=
  VO1_2.read (Elt F) (VO1_2.writes (Elt F) VO1_2.junk (kernelRun1_B c i arg2 harg2 arg3 harg3 arg4 harg4 arg5 harg5 hc0 hc1 x0 x1 xs).1)
theorem scover1_B (c : Dev nD) (i : grid1.Coords) (arg2 : Memref sig .tc .vmem S32x64x16 .f32) (harg2 : arg2.IsWhole) (arg3 : Memref sig .tc .vmem S64x64x16 .f32) (harg3 : arg3.IsWhole) (arg4 : Memref sig .tc .vmem S32x64 .f32) (harg4 : arg4.IsWhole) (arg5 : Memref sig .tc .vmem S32x64 .f32) (harg5 : arg5.IsWhole) (hc0 : ¬cond1_0 i) (hc1 : ¬cond1_1 i) (x0 : Vec F S32x64x16 .f32) (x1 : Vec F S64x64x16 .f32) (xs : Vec F S32x64 .f32) (y : S32x64.Idx) :
    ∃ pc ∈ (kernelRun1_B c i arg2 harg2 arg3 harg3 arg4 harg4 arg5 harg5 hc0 hc1 x0 x1 xs).2.1, y ∈ pc.1.set :=
  View.cover_of_tiledL (kernelRun1_B c i arg2 harg2 arg3 harg3 arg4 harg4 arg5 harg5 hc0 hc1 x0 x1 xs).2.1 S32x64.size (by sl_kernel_rfl) y
def sout1_B (c : Dev nD) (i : grid1.Coords) (arg2 : Memref sig .tc .vmem S32x64x16 .f32) (harg2 : arg2.IsWhole) (arg3 : Memref sig .tc .vmem S64x64x16 .f32) (harg3 : arg3.IsWhole) (arg4 : Memref sig .tc .vmem S32x64 .f32) (harg4 : arg4.IsWhole) (arg5 : Memref sig .tc .vmem S32x64 .f32) (harg5 : arg5.IsWhole) (hc0 : ¬cond1_0 i) (hc1 : ¬cond1_1 i) (x0 : Vec F S32x64x16 .f32) (x1 : Vec F S64x64x16 .f32) (xs : Vec F S32x64 .f32) : Vec F S32x64 .f32 :=
  VS1.read (Elt F) (VS1.writes (Elt F) VS1.junk (kernelRun1_B c i arg2 harg2 arg3 harg3 arg4 harg4 arg5 harg5 hc0 hc1 x0 x1 xs).2.1)

theorem cover1_C_2 (c : Dev nD) (i : grid1.Coords) (arg2 : Memref sig .tc .vmem S32x64x16 .f32) (harg2 : arg2.IsWhole) (arg3 : Memref sig .tc .vmem S64x64x16 .f32) (harg3 : arg3.IsWhole) (arg4 : Memref sig .tc .vmem S32x64 .f32) (harg4 : arg4.IsWhole) (arg5 : Memref sig .tc .vmem S32x64 .f32) (harg5 : arg5.IsWhole) (hc0 : ¬cond1_0 i) (hc1 : cond1_1 i) (x0 : Vec F S32x64x16 .f32) (x1 : Vec F S64x64x16 .f32) (xs : Vec F S32x64 .f32) (y : S32x64.Idx) :
    ∃ pc ∈ (kernelRun1_C c i arg2 harg2 arg3 harg3 arg4 harg4 arg5 harg5 hc0 hc1 x0 x1 xs).1, y ∈ pc.1.set :=
  View.cover_of_tiledL (kernelRun1_C c i arg2 harg2 arg3 harg3 arg4 harg4 arg5 harg5 hc0 hc1 x0 x1 xs).1 S32x64.size (by sl_kernel_rfl) y
def out1_C_2 (c : Dev nD) (i : grid1.Coords) (arg2 : Memref sig .tc .vmem S32x64x16 .f32) (harg2 : arg2.IsWhole) (arg3 : Memref sig .tc .vmem S64x64x16 .f32) (harg3 : arg3.IsWhole) (arg4 : Memref sig .tc .vmem S32x64 .f32) (harg4 : arg4.IsWhole) (arg5 : Memref sig .tc .vmem S32x64 .f32) (harg5 : arg5.IsWhole) (hc0 : ¬cond1_0 i) (hc1 : cond1_1 i) (x0 : Vec F S32x64x16 .f32) (x1 : Vec F S64x64x16 .f32) (xs : Vec F S32x64 .f32) : Vec F S32x64 .f32 :=
  VO1_2.read (Elt F) (VO1_2.writes (Elt F) VO1_2.junk (kernelRun1_C c i arg2 harg2 arg3 harg3 arg4 harg4 arg5 harg5 hc0 hc1 x0 x1 xs).1)
theorem scover1_C (c : Dev nD) (i : grid1.Coords) (arg2 : Memref sig .tc .vmem S32x64x16 .f32) (harg2 : arg2.IsWhole) (arg3 : Memref sig .tc .vmem S64x64x16 .f32) (harg3 : arg3.IsWhole) (arg4 : Memref sig .tc .vmem S32x64 .f32) (harg4 : arg4.IsWhole) (arg5 : Memref sig .tc .vmem S32x64 .f32) (harg5 : arg5.IsWhole) (hc0 : ¬cond1_0 i) (hc1 : cond1_1 i) (x0 : Vec F S32x64x16 .f32) (x1 : Vec F S64x64x16 .f32) (xs : Vec F S32x64 .f32) (y : S32x64.Idx) :
    ∃ pc ∈ (kernelRun1_C c i arg2 harg2 arg3 harg3 arg4 harg4 arg5 harg5 hc0 hc1 x0 x1 xs).2.1, y ∈ pc.1.set :=
  View.cover_of_tiledL (kernelRun1_C c i arg2 harg2 arg3 harg3 arg4 harg4 arg5 harg5 hc0 hc1 x0 x1 xs).2.1 S32x64.size (by sl_kernel_rfl) y
def sout1_C (c : Dev nD) (i : grid1.Coords) (arg2 : Memref sig .tc .vmem S32x64x16 .f32) (harg2 : arg2.IsWhole) (arg3 : Memref sig .tc .vmem S64x64x16 .f32) (harg3 : arg3.IsWhole) (arg4 : Memref sig .tc .vmem S32x64 .f32) (harg4 : arg4.IsWhole) (arg5 : Memref sig .tc .vmem S32x64 .f32) (harg5 : arg5.IsWhole) (hc0 : ¬cond1_0 i) (hc1 : cond1_1 i) (x0 : Vec F S32x64x16 .f32) (x1 : Vec F S64x64x16 .f32) (xs : Vec F S32x64 .f32) : Vec F S32x64 .f32 :=
  VS1.read (Elt F) (VS1.writes (Elt F) VS1.junk (kernelRun1_C c i arg2 harg2 arg3 harg3 arg4 harg4 arg5 harg5 hc0 hc1 x0 x1 xs).2.1)

/-! ## What the output block and the scratch hold after each point -/

/-- After the body at position `n`: the output block's buffer and the scratch (a pair). The case is chosen by the
    position modulo 4; the scratch's contents before the body are what position `n - 1` left. -/
def outsAt1 (c : Dev nD) : (n : ℕ) → n < cfg1.N → Vec F S32x64 .f32 × Vec F S32x64 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 4 = 0 then
      if h1 : (n + 1) % 4 = 3 then
        False.elim (by omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 4 = 3 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 4 = 0) (h1 : ¬t.val % 4 = 3) :
    outsAt1 V c t.val t.isLt = (out1_A_2 c (grid1.coords t) (ms1_0 t) (hs1_0 t) (ms1_1 t) (hs1_1 t) (ms1_2 t) (hs1_2 t) scM1 (Memref.isWhole_whole _) ((hcond1_0 t).mpr h0) (fun h => h1 ((hcond1_1 t).mp h)) (iblk1 V c 0 t) (iblk1 V c 1 t), sout1_A c (grid1.coords t) (ms1_0 t) (hs1_0 t) (ms1_1 t) (hs1_1 t) (ms1_2 t) (hs1_2 t) scM1 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (out1_B_2 c (grid1.coords t) (ms1_0 t) (hs1_0 t) (ms1_1 t) (hs1_1 t) (ms1_2 t) (hs1_2 t) scM1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2, sout1_B c (grid1.coords t) (ms1_0 t) (hs1_0 t) (ms1_1 t) (hs1_1 t) (ms1_2 t) (hs1_2 t) scM1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C_2 c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the plain one (the scratch at anything);
    afterwards the scratch at what the point before left. -/
def PhiS1 (c : Dev nD) : (n : ℕ) → n ≤ cfg1.N → sProp 𝕄
  | 0, _ => Pipeline.ΦA spec1 c
  | n + 1, hn => iprop(restC c (owns (c : Thread nD τ) scM1 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(restC c (owns (c : Thread nD τ) scM1 fullShare ((outsAt1 V c n hn).2)) ∗ (∃ r, prngReg c r)) := rfl
theorem PhiS1_pos (c : Dev nD) (n : ℕ) (h : n ≤ cfg1.N) (hz : n ≠ 0) :
    PhiS1 V c n h = iprop(restC c (owns (c : Thread nD τ) scM1 fullShare ((outsAt1 V c (n - 1) (by omega)).2)) ∗ (∃ r, prngReg c r)) := by
  cases n with
  | zero => exact absurd rfl hz
  | succ n => rfl

/-! ## The data -/

/-- The data of the pairwise kernel on core `c`. The two input windows read one array, each at half of its share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q w := match w with
    | ⟨0, _⟩ => (fullShare : PosShare TreeShare).left
    | ⟨1, _⟩ => (fullShare : PosShare TreeShare).right
    | ⟨2, _⟩ => fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The obligation at a point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' buffers hold their blocks; the position modulo 4 says which case the point is
    in; the invariant hands the body the scratch at what the point before left (at anything at the very first point)
    and takes it back at this point's contents; the other kernel's scoped buffers and the generator register pass
    through; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  by_cases h0 : t.val % 4 = 0
  · by_cases h1 : t.val % 4 = 3
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2 t (fun h => h1 ((hcond1_1 t).mp h))) (noFlush1_2 t (fun h => h1 ((hcond1_1 t).mp h)))]
      rw [outsAt1_A V c t h0 h1]
      unfold sout1_A; (try dsimp only)
      by_cases hz : t.val = 0
      · rw [PhiS1_castSucc V c t, PhiS1_zero V c _ _ hz, PhiA1_eq]
        unfold restC
        iintro ⟨⟨⟨Ha, Hb, Hc, Hd, He, HS⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS]; · iexact HS
        iintro ⟨H0, H1, H2, ⟨%es, HS⟩⟩
        isplitl [Ha Hb Hc Hd He HS Hg]
        · isplitl [Ha Hb Hc Hd He HS]
          · isplitl [Ha]; · iexact Ha
            isplitl [Hb]; · iexact Hb
            isplitl [Hc]; · iexact Hc
            isplitl [Hd]; · iexact Hd
            isplitl [He]; · iexact He
            unfold owns; iexists _; isplitr
            swap; · iexact HS
            ipureintro; exact View.read_writes_of_cover _ _ _ _ _ (scover1_A c _ _ _ _ _ _ _ _ _ _ _ _ _)
          iexact Hg
        isplitl [Ho]; · iexact Ho
        isplitl [H0]; · iexact H0
        isplitl [H1]; · iexact H1
        iexists _; iexact H2
      · rw [PhiS1_castSucc V c t, PhiS1_pos V c _ _ hz]
        unfold restC
        iintro ⟨⟨⟨Ha, Hb, Hc, Hd, He, HS⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS]; · iexists _; iexact HS
        iintro ⟨H0, H1, H2, ⟨%es, HS⟩⟩
        isplitl [Ha Hb Hc Hd He HS Hg]
        · isplitl [Ha Hb Hc Hd He HS]
          · isplitl [Ha]; · iexact Ha
            isplitl [Hb]; · iexact Hb
            isplitl [Hc]; · iexact Hc
            isplitl [Hd]; · iexact Hd
            isplitl [He]; · iexact He
            unfold owns; iexists _; isplitr
            swap; · iexact HS
            ipureintro; exact View.read_writes_of_cover _ _ _ _ _ (scover1_A c _ _ _ _ _ _ _ _ _ _ _ _ _)
          iexact Hg
        isplitl [Ho]; · iexact Ho
        isplitl [H0]; · iexact H0
        isplitl [H1]; · iexact H1
        iexists _; iexact H2
  · by_cases h1 : t.val % 4 = 3
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t ((hcond1_1 t).mpr h1)], after1_2]
      rw [outsAt1_C V c t h0 h1]
      unfold out1_C_2 sout1_C; (try dsimp only)
      have hz : t.val ≠ 0 := by omega
      rw [PhiS1_castSucc V c t, PhiS1_pos V c _ _ hz]
      unfold restC
      iintro ⟨⟨⟨Ha, Hb, Hc, Hd, He, HS⟩, Hg⟩, Ho, ⟨%d0, H0⟩, ⟨%d1, H1⟩, ⟨%d2, H2⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [Ha Hb Hc Hd He HS Hg]
      · isplitl [Ha Hb Hc Hd He HS]
        · isplitl [Ha]; · iexact Ha
          isplitl [Hb]; · iexact Hb
          isplitl [Hc]; · iexact Hc
          isplitl [Hd]; · iexact Hd
          isplitl [He]; · iexact He
          unfold owns; iexists _; isplitr
          swap; · iexact HS
          ipureintro; exact View.read_writes_of_cover _ _ _ _ _ (scover1_C c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C_2 c _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2 t (fun h => h1 ((hcond1_1 t).mp h))) (noFlush1_2 t (fun h => h1 ((hcond1_1 t).mp h)))]
      rw [outsAt1_B V c t h0 h1]
      unfold sout1_B; (try dsimp only)
      have hz : t.val ≠ 0 := by omega
      rw [PhiS1_castSucc V c t, PhiS1_pos V c _ _ hz]
      unfold restC
      iintro ⟨⟨⟨Ha, Hb, Hc, Hd, He, HS⟩, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
      isplitl [H0]; · iexact H0
      isplitl [H1]; · iexact H1
      isplitl [H2]; · iexact H2
      isplitl [HS]; · iexact HS
      iintro ⟨H0, H1, H2, ⟨%es, HS⟩⟩
      isplitl [Ha Hb Hc Hd He HS Hg]
      · isplitl [Ha Hb Hc Hd He HS]
        · isplitl [Ha]; · iexact Ha
          isplitl [Hb]; · iexact Hb
          isplitl [Hc]; · iexact Hc
          isplitl [Hd]; · iexact Hd
          isplitl [He]; · iexact He
          unfold owns; iexists _; isplitr
          swap; · iexact HS
          ipureintro; exact View.read_writes_of_cover _ _ _ _ _ (scover1_B c _ _ _ _ _ _ _ _ _ _ _ _ _ _)
        iexact Hg
      isplitl [Ho]; · iexact Ho
      isplitl [H0]; · iexact H0
      isplitl [H1]; · iexact H1
      iexists _; iexact H2

theorem body_obligation1 (c : Dev nD) : BodyObligation (dat1 (F := F) V c) (defs₀ (F := F)) Variants.none () Set.univ := fun t => by
  rw [bigSep_W1, bigSep_W1]
  exact sound_body1 V c t

/-- What the launch hands the region is the invariant before the first point, -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- and after the last point the invariant gives it back, the scratch's contents forgotten. -/
theorem hout1 (c : Dev nD) : (dat1 V c).Φ (Fin.last cfg1.N) ⊢ Pipeline.ΦA spec1 c := by
  have ht : (Fin.last cfg1.N).val ≠ 0 := by rw [Fin.val_last]; have : cfg1.N = 32 := N_1; omega
  rw [show (dat1 V c).Φ (Fin.last cfg1.N) = PhiS1 V c (Fin.last cfg1.N).val (Nat.le_of_lt_succ (Fin.last cfg1.N).isLt) from rfl, PhiS1_pos V c _ _ ht, PhiA1_eq]
  unfold restC
  iintro ⟨⟨Ha, Hb, Hc, Hd, He, HS⟩, Hg⟩
  isplitl [Ha Hb Hc Hd He HS]
  · isplitl [Ha]; · iexact Ha
    isplitl [Hb]; · iexact Hb
    isplitl [Hc]; · iexact Hc
    isplitl [Hd]; · iexact Hd
    isplitl [He]; · iexact He
    iexists _; iexact HS
  iexact Hg

end Region1

end Cert.KernelIdeal.Frm

end
-- ==== Proof.KiMain.lean ====
/-
  The whole program run from the launch to the return: host operations, the product kernel's region, a reshape, the
  pairwise kernel's region, the final concatenation. Between two items every unscoped buffer is held at contents
  named here by a fold through the program (W0 … W5); each region is entered from the contents before it and left
  at its arrays' final contents. The pairwise kernel reads the product through two windows: on entry the product's
  buffer is split into two half shares, one per window, and on exit the halves are joined again. The conclusion
  names every unscoped buffer's final contents; the frame claim and the value claim are read off it.
-/
import proofs.«107602_j970662608991_2_alg».proof.Proof.KiRegion0
import proofs.«107602_j970662608991_2_alg».proof.Proof.KiRegion1

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => m (c, b)
/-- After the first host operations (the product kernel's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the product kernel's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the reshape (the pairwise kernel's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the pairwise kernel's exit: its output array at what the pipeline leaves, every other buffer as entered. -/
def W4 (c : Dev nD) : Valuation τ sig (Elt F) :=
  Function.update (W3 m c) (Proc.devRef .tc main_v5) ((dat1 (V3 m) c).arrAt 2 cfg1.N)
abbrev V4 : (c : Dev nD) → (b : Ref sig .tc) → Buf (Elt F) ((c : Thread nD τ).loc b) := fun c b => W4 m c b
theorem W4_main_v5 (c : Dev nD) : W4 m c (Proc.devRef .tc main_v5) = (dat1 (V3 m) c).arrAt 2 cfg1.N := by
  unfold W4; exact Function.update_self ..
theorem W4_of_ne (c : Dev nD) (b : Ref sig .tc) (hb : b ≠ main_v5) : W4 m c (Proc.devRef .tc b) = W3 m c (Proc.devRef .tc b) := by
  unfold W4; exact Function.update_of_ne (StableHlo.devRef_ne_of_ne hb) ..
/-- After the concatenation (the return). -/
abbrev W5 : Dev nD → Valuation τ sig (Elt F) := fun c => StableHlo.after hostOps2 (W4 m c)

/-! ## The pairwise kernel's arrays: one buffer behind two windows -/

section Shared
variable (Vx : (c : Dev nD) → (b : Ref sig .tc) → Buf (Elt F) ((c : Thread nD τ).loc b))

/-- The buffers behind the pairwise kernel's three windows are two: the product and the output. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v4) ↦{fullShare} V main_v4) ∗ (((c : Thread nD τ).loc main_v5) ↦{fullShare} V main_v5)) := by
  unfold Pipeline.arrBufs
  exact bigSep_eq_bigSepL_of_eq [main_v4, main_v5] (by decide) (by decide) _

/-- The windows' arrays as the pipeline holds them: the product twice, at the two halves of its share, and the output whole. -/
theorem arrays1_eq (c : Dev nD) (Fn : (w : Fin cfg1.W) → Buf (Elt F) ((cfg1.win w).arr.view.loc (c : Thread nD τ))) :
    ((dat1 Vx c).arrays Fn : sProp 𝕄)
      = iprop((((c : Thread nD τ).loc main_v4) ↦{(fullShare : PosShare TreeShare).left} Fn 0) ∗ (((c : Thread nD τ).loc main_v4) ↦{(fullShare : PosShare TreeShare).right} Fn 1)
          ∗ (((c : Thread nD τ).loc main_v5) ↦{fullShare} Fn 2)) := by
  unfold Dat.arrays
  rw [bigSep_W1]
  have h0 : (dat1 Vx c).share 0 = (fullShare : PosShare TreeShare).left := rfl
  have h1 : (dat1 Vx c).share 1 = (fullShare : PosShare TreeShare).right := rfl
  have h2 : (dat1 Vx c).share 2 = fullShare := rfl
  rw [h0, h1, h2, (arr_whole1 0).set_eq_univ, (arr_whole1 2).set_eq_univ]

end Shared

/-! ## The pairwise kernel's entry and exit: the product's buffer split into the two windows' halves, and joined again -/

theorem entry1 (c : Dev nD) :
    (StableHlo.held (c : Thread nD τ) (Pipeline.ucRefs τ sig) (W3 m c) : sProp 𝕄)
      ⊢ iprop((dat1 (V3 m) c).arrays ((dat1 (V3 m) c).arrAt · 0)
          ∗ Pipeline.unscopedRest (Ix := Unit) (Name := ℕ) (U := UR sig nD τ) (Lvl := ℕ) spec1 c (V3 m c)) := by
  rw [← Pipeline.unscopedBufs_held (Ix := Unit) (Name := ℕ) (U := UR sig nD τ) (Lvl := ℕ) c (W3 m c)]
  rw [Pipeline.unscopedBufs_split₀ cfgs 1 winFacts₀1.arr_unscoped c (V3 m c)]
  refine sep_mono ?_ .rfl
  show Pipeline.arrBufs spec1 c (V3 m c) ⊢ _
  rw [arrBufs1_eq, arrays1_eq]
  iintro ⟨H4, H5⟩
  ihave H := (pointsTo_share (PosShare.mem_left_op_right fullShare)).1 $$ H4
  icases H with ⟨Hl, Hr⟩
  isplitl [Hl]; · iexact Hl
  isplitl [Hr]; · iexact Hr
  iexact H5

theorem exit1 (c : Dev nD) :
    iprop((dat1 (V3 m) c).arrays ((dat1 (V3 m) c).arrAt · cfg1.N)
        ∗ Pipeline.unscopedRest (Ix := Unit) (Name := ℕ) (U := UR sig nD τ) (Lvl := ℕ) spec1 c (V3 m c))
      ⊢ (StableHlo.held (c : Thread nD τ) (Pipeline.ucRefs τ sig) (W4 m c) : sProp 𝕄) := by
  rw [← Pipeline.unscopedBufs_held (Ix := Unit) (Name := ℕ) (U := UR sig nD τ) (Lvl := ℕ) c (W4 m c)]
  rw [Pipeline.unscopedBufs_split₀ cfgs 1 winFacts₀1.arr_unscoped c (V4 m c)]
  refine sep_mono ?_ (Entails.of_eq ?_)
  · show _ ⊢ Pipeline.arrBufs spec1 c (V4 m c)
    rw [arrBufs1_eq, arrays1_eq]
    rw [show (dat1 (V3 m) c).arrAt 0 cfg1.N = V4 m c main_v4 from
          ((dat1 (V3 m) c).arrAt_in 0 rfl _).trans ((A_eq1 (V3 m) c 0).trans (W4_of_ne m c main_v4 (by decide)).symm),
        show (dat1 (V3 m) c).arrAt 1 cfg1.N = V4 m c main_v4 from
          ((dat1 (V3 m) c).arrAt_in 1 rfl _).trans ((A_eq1 (V3 m) c 1).trans (W4_of_ne m c main_v4 (by decide)).symm),
        show (dat1 (V3 m) c).arrAt 2 cfg1.N = V4 m c main_v5 from (W4_main_v5 m c).symm]
    iintro ⟨Hl, Hr, H5⟩
    isplitl [Hl Hr]
    · iapply (pointsTo_share (PosShare.mem_left_op_right fullShare)).2
      isplitl [Hl]; · iexact Hl
      iexact Hr
    iexact H5
  · unfold Pipeline.unscopedRest
    exact bigSep_congr fun b hb => by
      rw [show V4 m c b = V3 m c b from W4_of_ne m c b fun e => (Finset.mem_sdiff.mp hb).2 (Finset.mem_image.mpr ⟨2, Finset.mem_univ _, e.symm⟩)]

/-! ## The data of both kernels and the thread state -/

abbrev adm : (p : Fin 2) → (pcfgs (F := F) p).Adm := fun p => (cfgs p).toPCfg_adm
/-- Both kernels' data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W5 m c) ∗ ∃ r, prngReg c r)

/-! ## The two regions as segments -/

set_option backward.isDefEq.respectTransparency.types false in
/-- The product kernel's region: entered from every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The pairwise kernel's region: entered from every unscoped buffer at `W3`, left at `W4`; the product's buffer goes
    in as two halves and comes back whole. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have he : (StableHlo.held (c : Thread nD τ) (Pipeline.ucRefs τ sig) (W3 m c) : sProp 𝕄)
      ⊢ iprop((pdats m 1 c).arrays ((pdats m 1 c).arrAt · 0)
          ∗ Pipeline.unscopedRest (Ix := Unit) (Name := ℕ) (U := UR sig nD τ) (Lvl := ℕ) spec1 c (V3 m c)) := entry1 m c
    iintro ⟨⟨Hub, Hp, HO⟩, -, -⟩
    ihave H := he $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (V3 m) c).Φ 0 from rfl]
    iintro ⟨Hp, -, Hr⟩
    iapply (hin1 (V3 m) c)
    unfold Pipeline.ΦA
    isplitl [Hr]; · iexact Hr
    iexact Hp
  hout c := by
    rw [Pipeline.ownSems0_none, show (pdats m 1 c).Φ (Fin.last _) = (dat1 (V3 m) c).Φ (Fin.last cfg1.N) from rfl]
    iintro H
    ihave H' := (hout1 (V3 m) c) $$ H
    unfold Pipeline.ΦA
    icases H' with ⟨Hr, Hp⟩
    isplitl [Hp]; · iexact Hp
    isplitr; · iempintro
    iexact Hr
  hexit c := by
    have hx : iprop((pdats m 1 c).arrays ((pdats m 1 c).arrAt · cfg1.N)
        ∗ Pipeline.unscopedRest (Ix := Unit) (Name := ℕ) (U := UR sig nD τ) (Lvl := ℕ) spec1 c (V3 m c))
      ⊢ (StableHlo.held (c : Thread nD τ) (Pipeline.ucRefs τ sig) (W4 m c) : sProp 𝕄) := exit1 m c
    iintro ⟨Ha, HO, HY, Hrest⟩
    imodintro
    isplitl [Ha Hrest]
    · iapply hx; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]
theorem main_run (c : Dev nD) : main (F := F) c = Pipeline.Seg.run (segs m) := (main_chain c).trans (by chain_rfl)

set_option backward.isDefEq.respectTransparency.types false in
/-- From any memory with zero counters every weakly fair execution of the program terminates, nothing faulting, and
    every final state holds every unscoped buffer at the contents `W5` names. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => (show iprop(StableHlo.held (c : Thread nD τ) (Pipeline.ucRefs τ sig) (W5 m c) ∗ R c)
          ⊢ iprop(Tₙ m c ∗ ∃ W, owes (c : Thread nD τ) (0 : CellTallies nD τ sig Unit) W) from by
      iintro ⟨Hh, Hp, HO⟩
      isplitl [Hh Hp]
      · isplitl [Hh]; · iexact Hh
        iexact Hp
      iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

end Cert.KernelIdeal.Frm

end
-- ==== Proof.KiFrame.lean ====
/-
  The frame claim read off the run: neither host operation nor region writes an argument array, so the fold of the
  buffer contents through the program, read at an argument, walks back to the launch memory.
-/
import proofs.«107602_j970662608991_2_alg».proof.Proof.KiMain

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg0) := W2_of_ne m c main_arg0 (by decide)
    _ = W0 m c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl
theorem W5_main_arg0 (c : Dev nD) : W5 m c (Proc.devRef .tc main_arg0) = m ((c : Thread nD τ).loc main_arg0) :=
  (StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W4_main_arg0 m c)

theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg1) := W2_of_ne m c main_arg1 (by decide)
    _ = W0 m c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl
theorem W5_main_arg1 (c : Dev nD) : W5 m c (Proc.devRef .tc main_arg1) = m ((c : Thread nD τ).loc main_arg1) :=
  (StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W4_main_arg1 m c)

/-- From any memory with zero counters the program terminates, nothing faulting, with both argument arrays as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W5_main_arg0 m c),
     (h c _ (mem_uc main_arg1 (by decide))).trans (W5_main_arg1 m c)⟩) (run_all m ρ)

end Cert.KernelIdeal.Frm

end
-- ==== Proof.LibPlainMatmul.lean ====
/-
  A plain matrix product read at coordinates.

  For the plain contraction `[M, K] × [K, N] → [M, N]` (the left operand contracted on its second axis, the right on
  its first, no batch axis), accumulated into the zero matrix, the entry `(r, c)` of the result is
  `Σ_k lhs (r, k) · rhs (k, c)` on the extended reals, at any extents: the left operand is read on row `r`, the
  right on column `c`, and the one contraction coordinate `k` runs over `Fin K`.
-/
import Idealize.ShloMosaic.Lib.ValueIdx
import Idealize.ShloMosaic.PureOps.Ideal.Laws

namespace Cert.PlainMatmul

open Idealize.ShloMosaic Idealize.ShloMosaic.ValueIdx

variable {M K N : ℕ}

/-- The left operand's row coordinate is the result's row coordinate. -/
theorem lhs_row (j : (⟨2, ![M, N]⟩ : Shape).Idx) (q : (DotDims.plain M K N).contr.Idx) :
    ((DotDims.plain M K N).lhsIdx j q (0 : Fin (⟨2, ![M, K]⟩ : Shape).rank)).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from
      List.mem_singleton.mpr rfl)]
  rfl

/-- The right operand's column coordinate is the result's column coordinate. -/
theorem rhs_col (j : (⟨2, ![M, N]⟩ : Shape).Idx) (q : (DotDims.plain M K N).contr.Idx) :
    ((DotDims.plain M K N).rhsIdx j q (1 : Fin (⟨2, ![K, N]⟩ : Shape).rank)).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from
      List.mem_singleton.mpr rfl)]
  rfl

/-- The plain product into the zero matrix, at `(r, c)`: the sum over `k` of `lhs (r, k) · rhs (k, c)`. -/
theorem plain_apply {φ₁ φ₂ : FTy} (lhs : FVec Ideal ⟨2, ![M, K]⟩ φ₁) (rhs : FVec Ideal ⟨2, ![K, N]⟩ φ₂)
    (r : Fin M) (c : Fin N) :
    FloatOps.matmul (DotDims.plain M K N) none lhs rhs (constant ⟨2, ![M, N]⟩ .f32 0x00000000#32) (ix2 r c)
      = ∑ k : Fin K, lhs (ix2 r k) * rhs (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx (ix2 r c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => exact rhs_col _ _)
  rw [el, er]

end Cert.PlainMatmul
-- ==== Proof.LibOuterLayout.lean ====
/-
  Layout operations and reductions of an OUTER-PRODUCT body, read at coordinates.

  A body that multiplies every entry of one row by every entry of another builds an `[a, b, n]` array from two
  matrices: the first, `[a, b]`, is given a trailing unit axis and spread along the last axis; the second, `[a, n]`,
  is given a MIDDLE unit axis and spread along the middle axis. It then sums the product along one of the two
  trailing axes, and takes a row's maximum for a softmax. None of these computes anything but the sums and the
  maximum; the lemmas name, by coordinates, which entries each result reads:
    • `[a, n] → [a, 1, n]` (a shape cast): entry `(r, u, k)` is entry `(r, k)`, whatever the unit coordinate;
    • `[a, 1, n] → [a, b, n]` (a broadcast): entry `(r, s, k)` is entry `(r, 0, k)`;
    • their composite: `(r, s, k)` reads the matrix at `(r, k)`;
    • a sum along the LAST axis of an `[a, b, n]` array of extended reals: entry `(r, s)` is `∑ₖ` of `(r, s, k)`;
    • a sum along the MIDDLE axis: entry `(r, k)` is `∑ₛ` of `(r, s, k)`;
    • a maximum along the second axis of an `[a, b]` array, from the accumulator's value: entry `r` is the fold of
      `max` over `j` of the entries `(r, j)` — for a vector reduction and for the host's one-operand reduce alike.
  The trailing-unit-axis forms (`[a, b] → [a, b, 1] → [a, b, n]`) and the column forms are in their own files.
-/
import Idealize.ShloMosaic.Lib.Pipeline.Value
import Idealize.ShloMosaic.Lib.ValueIdx
import Idealize.ShloMosaic.PureOps.Ideal.Laws

namespace Cert.OuterLayout

open Idealize.ShloMosaic Idealize.ShloMosaic.ValueIdx

variable {α : Type}

/-- An `[a, n]` array cast to `[a, 1, n]` reads, at `(r, u, k)`, the operand at `(r, k)`: the two indices have the same
    row-major position, `(r·1 + u)·n + k = r·n + k` since `u = 0`. -/
theorem shapeCast_an_a1n_apply {a n : ℕ} (x : (⟨2, ![a, n]⟩ : Shape).Idx → α)
    (h : (⟨2, ![a, n]⟩ : Shape).ShapeCasts ⟨3, ![a, 1, n]⟩) (r : Fin a) (u : Fin 1) (k : Fin n) :
    shapeCast ⟨3, ![a, 1, n]⟩ x h (ix3 r u k) = x (ix2 r k) :=
  shapeCast_apply x h _ _ (by
    have hu : u.val = 0 := by omega
    rw [Shape.rowMajor_val_two, Shape.rowMajor_val_three]
    show r.val * n + k.val = (r.val * 1 + u.val) * n + k.val
    rw [hu, Nat.mul_one, Nat.add_zero])

/-- An `[a, 1, n]` array broadcast to `[a, b, n]` reads, at `(r, s, k)`, the operand at `(r, 0, k)`. -/
theorem broadcastTo_a1n_abn_apply {a b n : ℕ} (y : (⟨3, ![a, 1, n]⟩ : Shape).Idx → α)
    (h : (⟨3, ![a, 1, n]⟩ : Shape).Broadcasts ⟨3, ![a, b, n]⟩) (r : Fin a) (s : Fin b) (k : Fin n) :
    broadcastTo ⟨3, ![a, b, n]⟩ y h (ix3 r s k) = y (ix3 r (0 : Fin 1) k) := by
  refine broadcastTo_apply y h (ix3 r s k) (ix3 r (0 : Fin 1) k) fun ax => ?_
  match ax with
  | ⟨0, _⟩ =>
    show r.val = if a = 1 then 0 else r.val
    split
    · have := r.isLt; omega
    · rfl
  | ⟨1, _⟩ => rfl
  | ⟨2, _⟩ =>
    show k.val = if n = 1 then 0 else k.val
    split
    · have := k.isLt; omega
    · rfl

/-- An `[a, n]` matrix given a middle unit axis and broadcast along it: `(r, s, k)` reads the matrix at `(r, k)`. -/
theorem middle_apply {a b n : ℕ} (x : (⟨2, ![a, n]⟩ : Shape).Idx → α)
    (hc : (⟨2, ![a, n]⟩ : Shape).ShapeCasts ⟨3, ![a, 1, n]⟩) (hb : (⟨3, ![a, 1, n]⟩ : Shape).Broadcasts ⟨3, ![a, b, n]⟩)
    (r : Fin a) (s : Fin b) (k : Fin n) :
    broadcastTo ⟨3, ![a, b, n]⟩ (shapeCast ⟨3, ![a, 1, n]⟩ x hc) hb (ix3 r s k) = x (ix2 r k) :=
  (broadcastTo_a1n_abn_apply _ hb r s k).trans (shapeCast_an_a1n_apply x hc r 0 k)

/-- A sum along the last axis of an `[a, b, n]` array of extended reals, from the zero accumulator, reads at `(r, s)`
    the sum over `k` of the entries `(r, s, k)`. The last hypothesis says that the accumulator's word, zero, is the
    neutral word of addition. -/
theorem sumLast_apply {a b n : ℕ} (src : FVec Ideal ⟨3, ![a, b, n]⟩ .f32)
    (h : (⟨3, ![a, b, n]⟩ : Shape).Reduces [2] ⟨2, ![a, b]⟩) (hφ : FKind.Formats .f32)
    (hacc : (0x00000000#32 : BitVec 32) = FKind.add.neutral .f32 hφ) (r : Fin a) (s : Fin b) :
    multiReduction .add [2] ⟨2, ![a, b]⟩ src 0x00000000#32 h hφ hacc (ix2 r s) = ∑ k : Fin n, src (ix3 r s k) := by
  refine (Ideal.multiReduction_add_single src 0x00000000#32 h hφ hacc (ix2 r s)).trans ?_
  show ∑ k : Fin n, src (h.lift (ix2 r s) k) = ∑ k : Fin n, src (ix3 r s k)
  refine Finset.sum_congr rfl fun k _ => congrArg src (funext fun c => Fin.ext ?_)
  match c with
  | ⟨0, _⟩ => rfl
  | ⟨1, _⟩ => rfl
  | ⟨2, _⟩ => rfl

/-- A sum along the middle axis of an `[a, b, n]` array of extended reals, from the zero accumulator, reads at `(r, k)`
    the sum over `s` of the entries `(r, s, k)`. -/
theorem sumMiddle_apply {a b n : ℕ} (src : FVec Ideal ⟨3, ![a, b, n]⟩ .f32)
    (h : (⟨3, ![a, b, n]⟩ : Shape).Reduces [1] ⟨2, ![a, n]⟩) (hφ : FKind.Formats .f32)
    (hacc : (0x00000000#32 : BitVec 32) = FKind.add.neutral .f32 hφ) (r : Fin a) (k : Fin n) :
    multiReduction .add [1] ⟨2, ![a, n]⟩ src 0x00000000#32 h hφ hacc (ix2 r k) = ∑ s : Fin b, src (ix3 r s k) := by
  refine (Ideal.multiReduction_add_single src 0x00000000#32 h hφ hacc (ix2 r k)).trans ?_
  show ∑ s : Fin b, src (h.lift (ix2 r k) s) = ∑ s : Fin b, src (ix3 r s k)
  refine Finset.sum_congr rfl fun s _ => congrArg src (funext fun c => Fin.ext ?_)
  match c with
  | ⟨0, _⟩ => rfl
  | ⟨1, _⟩ => rfl
  | ⟨2, _⟩ => rfl

/-- A maximum along the second axis of an `[a, b]` array of extended reals reads, at `r`, the fold of `max`, from the
    value the accumulator's word denotes, over `j` of the entries `(r, j)`. -/
theorem rowMax_apply {a b : ℕ} (src : FVec Ideal ⟨2, ![a, b]⟩ .f32) (acc : BitVec 32)
    (h : (⟨2, ![a, b]⟩ : Shape).Reduces [1] ⟨1, ![a]⟩) (hφ : FKind.Formats .f32)
    (hacc : acc = FKind.maximumf.neutral .f32 hφ) (r : Fin a) :
    multiReduction .maximumf [1] ⟨1, ![a]⟩ src acc h hφ hacc (ix1 r)
      = (Finset.univ : Finset (Fin b)).fold max (Ideal.ofBits .f32 acc) (fun j => src (ix2 r j)) := by
  refine (Ideal.multiReduction_maximumf_single src acc h hφ hacc (ix1 r)).trans ?_
  show (Finset.univ : Finset (Fin b)).fold max (Ideal.ofBits .f32 acc) (src ∘ h.lift (ix1 r)) = _
  refine congrArg (fun f => Finset.fold max (Ideal.ofBits .f32 acc) f (Finset.univ : Finset (Fin b)))
    (funext fun j => congrArg src (funext fun c => Fin.ext ?_))
  match c with
  | ⟨0, _⟩ => rfl
  | ⟨1, _⟩ => rfl

/-- The host's one-operand reduce with a maximum body along the second axis of an `[a, b]` array of extended reals
    reads, at `r`, the fold of `max`, from the initial value's one element, over `j` of the entries `(r, j)`: the same
    fold as the vector reduction's. -/
theorem hostRowMax_apply {a b : ℕ} {u : Shape} (x : (⟨2, ![a, b]⟩ : Shape).Idx → Ideal .f32) (init : u.Idx → Ideal .f32)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce FloatOps.maximumf x init h' hu (ix1 r)
      = (Finset.univ : Finset (Fin b)).fold max (init (Shape.Idx.first hu)) (fun j => x (ix2 r j)) := by
  refine (Host.reduce_eq_fold_single FloatOps.maximumf x init h' h hu (ix1 r)).trans ?_
  show (Finset.univ : Finset (Fin b)).fold max (init (Shape.Idx.first hu)) (x ∘ h.lift (ix1 r)) = _
  refine congrArg (fun f => Finset.fold max (init (Shape.Idx.first hu)) f (Finset.univ : Finset (Fin b)))
    (funext fun j => congrArg x (funext fun c => Fin.ext ?_))
  match c with
  | ⟨0, _⟩ => rfl
  | ⟨1, _⟩ => rfl

end Cert.OuterLayout
-- ==== Proof.LibRank3Layout.lean ====
/-
  Rank-3 layout operations read at coordinates — the forms a body meets when it compares every entry of an `[a, b]`
  block with every entry of a length-`n` vector and then flattens the two leading axes for a matrix product:

  • a TRAILING unit axis added by a shape cast, `[a, b] → [a, b, 1]` (`shapeCast_ab_ab1_apply`);
  • a vector laid along the LAST axis by a shape cast, `[n] → [1, 1, n]` (`shapeCast_n_11n_apply`);
  • the broadcast of the first along the last axis, `[a, b, 1] → [a, b, n]` (`broadcastTo_ab1_abn_apply`), and of the
    second along the two leading axes, `[1, 1, n] → [a, b, n]` (`broadcastTo_11n_abn_apply`);
  • the two composites, which read `(r, s, k)` at `(r, s)` of the block (`column_apply`) and at `k` of the vector
    (`row_apply`);
  • the two leading axes MERGED, `[a, b, n] → [m, n]` with `m = a·b`, and SPLIT again, `[m, d] → [a, b, d]`: row
    `j = r·b + s` of the flat array is row `(r, s)` of the stacked one (`shapeCast_abn_mn_apply`,
    `shapeCast_md_abd_apply`; the flat row is passed with the equation `j = r·b + s`, so that a literal extent such
    as `4096` need not be recognised as a product).

  Each is the library's `shapeCast_apply` (equal row-major positions) or `broadcastTo_apply` (a unit axis reads
  coordinate `0`) with both indices written by coordinates, at every extent.
-/
import Idealize.ShloMosaic.Lib.Pipeline.Value
import Idealize.ShloMosaic.Lib.ValueIdx

namespace Cert.Rank3Layout

open Idealize.ShloMosaic Idealize.ShloMosaic.ValueIdx

variable {α : Type}

/-- An `[a, b]` array cast to `[a, b, 1]` reads, at `(r, s, u)`, the operand at `(r, s)`, whatever the unit coordinate. -/
theorem shapeCast_ab_ab1_apply {a b : ℕ} (x : (⟨2, ![a, b]⟩ : Shape).Idx → α)
    (h : (⟨2, ![a, b]⟩ : Shape).ShapeCasts ⟨3, ![a, b, 1]⟩) (r : Fin a) (s : Fin b) (u : Fin 1) :
    shapeCast ⟨3, ![a, b, 1]⟩ x h (ix3 r s u) = x (ix2 r s) :=
  shapeCast_apply x h _ _ (by
    have hu : u.val = 0 := by omega
    rw [Shape.rowMajor_val_two, Shape.rowMajor_val_three]
    show r.val * b + s.val = (r.val * b + s.val) * 1 + u.val
    rw [hu, Nat.mul_one, Nat.add_zero])

/-- An `[n]` vector cast to `[1, 1, n]` reads, at `(u, u', k)`, the operand at `k`, whatever the unit coordinates. -/
theorem shapeCast_n_11n_apply {n : ℕ} (q : (⟨1, ![n]⟩ : Shape).Idx → α)
    (h : (⟨1, ![n]⟩ : Shape).ShapeCasts ⟨3, ![1, 1, n]⟩) (u u' : Fin 1) (k : Fin n) :
    shapeCast ⟨3, ![1, 1, n]⟩ q h (ix3 u u' k) = q (ix1 k) :=
  shapeCast_apply q h _ _ (by
    have hu : u.val = 0 := by omega
    have hu' : u'.val = 0 := by omega
    rw [Shape.rowMajor_val_one, Shape.rowMajor_val_three]
    show k.val = (u.val * 1 + u'.val) * n + k.val
    rw [hu, hu']; simp)

/-- An `[a, b, 1]` array broadcast to `[a, b, n]` reads, at `(r, s, k)`, the operand at `(r, s, 0)`. -/
theorem broadcastTo_ab1_abn_apply {a b n : ℕ} (y : (⟨3, ![a, b, 1]⟩ : Shape).Idx → α)
    (h : (⟨3, ![a, b, 1]⟩ : Shape).Broadcasts ⟨3, ![a, b, n]⟩) (r : Fin a) (s : Fin b) (k : Fin n) :
    broadcastTo ⟨3, ![a, b, n]⟩ y h (ix3 r s k) = y (ix3 r s (0 : Fin 1)) := by
  refine broadcastTo_apply y h (ix3 r s k) (ix3 r s (0 : Fin 1)) fun ax => ?_
  match ax with
  | ⟨0, _⟩ =>
    show r.val = if a = 1 then 0 else r.val
    split
    · have := r.isLt; omega
    · rfl
  | ⟨1, _⟩ =>
    show s.val = if b = 1 then 0 else s.val
    split
    · have := s.isLt; omega
    · rfl
  | ⟨2, _⟩ => rfl

/-- A `[1, 1, n]` array broadcast to `[a, b, n]` reads, at `(r, s, k)`, the operand at `(0, 0, k)`. -/
theorem broadcastTo_11n_abn_apply {a b n : ℕ} (q : (⟨3, ![1, 1, n]⟩ : Shape).Idx → α)
    (h : (⟨3, ![1, 1, n]⟩ : Shape).Broadcasts ⟨3, ![a, b, n]⟩) (r : Fin a) (s : Fin b) (k : Fin n) :
    broadcastTo ⟨3, ![a, b, n]⟩ q h (ix3 r s k) = q (ix3 (0 : Fin 1) (0 : Fin 1) k) := by
  refine broadcastTo_apply q h (ix3 r s k) (ix3 (0 : Fin 1) (0 : Fin 1) k) fun ax => ?_
  match ax with
  | ⟨0, _⟩ => rfl
  | ⟨1, _⟩ => rfl
  | ⟨2, _⟩ =>
    show k.val = if n = 1 then 0 else k.val
    split
    · have := k.isLt; omega
    · rfl

/-- An `[a, b]` block given a trailing unit axis and broadcast along it: `(r, s, k)` reads the block at `(r, s)`. -/
theorem column_apply {a b n : ℕ} (x : (⟨2, ![a, b]⟩ : Shape).Idx → α)
    (hc : (⟨2, ![a, b]⟩ : Shape).ShapeCasts ⟨3, ![a, b, 1]⟩) (hb : (⟨3, ![a, b, 1]⟩ : Shape).Broadcasts ⟨3, ![a, b, n]⟩)
    (r : Fin a) (s : Fin b) (k : Fin n) :
    broadcastTo ⟨3, ![a, b, n]⟩ (shapeCast ⟨3, ![a, b, 1]⟩ x hc) hb (ix3 r s k) = x (ix2 r s) :=
  (broadcastTo_ab1_abn_apply _ hb r s k).trans (shapeCast_ab_ab1_apply x hc r s 0)

/-- A length-`n` vector laid along the last axis and broadcast over the two leading ones: `(r, s, k)` reads it at `k`. -/
theorem row_apply {a b n : ℕ} (q : (⟨1, ![n]⟩ : Shape).Idx → α)
    (hc : (⟨1, ![n]⟩ : Shape).ShapeCasts ⟨3, ![1, 1, n]⟩) (hb : (⟨3, ![1, 1, n]⟩ : Shape).Broadcasts ⟨3, ![a, b, n]⟩)
    (r : Fin a) (s : Fin b) (k : Fin n) :
    broadcastTo ⟨3, ![a, b, n]⟩ (shapeCast ⟨3, ![1, 1, n]⟩ q hc) hb (ix3 r s k) = q (ix1 k) :=
  (broadcastTo_11n_abn_apply _ hb r s k).trans (shapeCast_n_11n_apply q hc 0 0 k)

/-- The two leading axes merged: an `[a, b, n]` array cast to `[m, n]` reads, at `(j, k)` with `j = r·b + s`, the
    operand at `(r, s, k)`. -/
theorem shapeCast_abn_mn_apply {a b n m : ℕ} (w : (⟨3, ![a, b, n]⟩ : Shape).Idx → α)
    (h : (⟨3, ![a, b, n]⟩ : Shape).ShapeCasts ⟨2, ![m, n]⟩) (r : Fin a) (s : Fin b) (k : Fin n) (j : Fin m)
    (hj : j.val = r.val * b + s.val) :
    shapeCast ⟨2, ![m, n]⟩ w h (ix2 j k) = w (ix3 r s k) :=
  shapeCast_apply w h _ _ (by
    rw [Shape.rowMajor_val_three, Shape.rowMajor_val_two]
    show (r.val * b + s.val) * n + k.val = j.val * n + k.val
    rw [hj])

/-- The leading axis split in two: an `[m, d]` array cast to `[a, b, d]` reads, at `(r, s, e)`, the operand at `(j, e)`
    with `j = r·b + s`. -/
theorem shapeCast_md_abd_apply {a b d m : ℕ} (z : (⟨2, ![m, d]⟩ : Shape).Idx → α)
    (h : (⟨2, ![m, d]⟩ : Shape).ShapeCasts ⟨3, ![a, b, d]⟩) (r : Fin a) (s : Fin b) (e : Fin d) (j : Fin m)
    (hj : j.val = r.val * b + s.val) :
    shapeCast ⟨3, ![a, b, d]⟩ z h (ix3 r s e) = z (ix2 j e) :=
  shapeCast_apply z h _ _ (by
    rw [Shape.rowMajor_val_two, Shape.rowMajor_val_three]
    show j.val * d + e.val = (r.val * b + s.val) * d + e.val
    rw [hj])

end Cert.Rank3Layout
-- ==== Proof.PayAtLayout.lean ====
/-
  Rank-4 layouts of an ALL-PAIRS body, read at coordinates, at every extent.

  A body that compares every row `r` of one stack `[a, c, d]` with every row `t` of another stack `[b, c, d]` builds
  the rank-4 array `[a, b, c, d]` of the pairs: the first stack is given a unit axis in SECOND position and spread
  along it, the second a LEADING unit axis and spread along that one. It then sums along the last axis. None of this
  computes anything but the sum; the lemmas say, by coordinates, which entries each result reads:
    • `[a, c, d] → [a, 1, c, d]` (a shape cast): entry `(r, u, s, k)` is entry `(r, s, k)`, whatever the unit coordinate;
    • `[a, 1, c, d] → [a, b, c, d]` (a broadcast): entry `(r, t, s, k)` is entry `(r, 0, s, k)`;
    • `[1, b, c, d] → [a, b, c, d]` (a broadcast): entry `(r, t, s, k)` is entry `(0, t, s, k)`;
    • the two composites: `(r, t, s, k)` reads the first stack at `(r, s, k)` and the second at `(t, s, k)`;
    • a sum along the LAST axis of an `[a, b, c, d]` array of extended reals, from the zero accumulator: entry
      `(r, t, s)` is `∑ₖ` of the entries `(r, t, s, k)`.
-/
import Idealize.ShloMosaic.Lib.Pipeline.Value
import Idealize.ShloMosaic.Lib.ValueIdx
import Idealize.ShloMosaic.Lib.ValueLayout
import Idealize.ShloMosaic.PureOps.Ideal.Laws

namespace Cert.KernelIdeal.PayAt

open Idealize.ShloMosaic Idealize.ShloMosaic.ValueIdx

variable {α : Type}

/-- An `[a, c, d]` array cast to `[a, 1, c, d]` reads, at `(r, u, s, k)`, the operand at `(r, s, k)`: the two indices
    have the same row-major position, since `u = 0`. -/
theorem shapeCast_acd_a1cd_apply {a c d : ℕ} (x : (⟨3, ![a, c, d]⟩ : Shape).Idx → α)
    (h : (⟨3, ![a, c, d]⟩ : Shape).ShapeCasts ⟨4, ![a, 1, c, d]⟩) (r : Fin a) (u : Fin 1) (s : Fin c) (k : Fin d) :
    shapeCast ⟨4, ![a, 1, c, d]⟩ x h (ix4 r u s k) = x (ix3 r s k) :=
  shapeCast_apply x h _ _ (by
    have hu : u.val = 0 := by omega
    rw [Shape.rowMajor_val_three, Shape.rowMajor_val_four]
    show (r.val * c + s.val) * d + k.val = ((r.val * 1 + u.val) * c + s.val) * d + k.val
    rw [hu, Nat.mul_one, Nat.add_zero])

/-- An `[a, 1, c, d]` array broadcast to `[a, b, c, d]` reads, at `(r, t, s, k)`, the operand at `(r, 0, s, k)`. -/
theorem broadcastTo_a1cd_abcd_apply {a b c d : ℕ} (y : (⟨4, ![a, 1, c, d]⟩ : Shape).Idx → α)
    (h : (⟨4, ![a, 1, c, d]⟩ : Shape).Broadcasts ⟨4, ![a, b, c, d]⟩) (r : Fin a) (t : Fin b) (s : Fin c) (k : Fin d) :
    broadcastTo ⟨4, ![a, b, c, d]⟩ y h (ix4 r t s k) = y (ix4 r (0 : Fin 1) s k) := by
  refine broadcastTo_apply y h (ix4 r t s k) (ix4 r (0 : Fin 1) s k) fun ax => ?_
  match ax with
  | ⟨0, _⟩ =>
    show r.val = if a = 1 then 0 else r.val
    split
    · have := r.isLt; omega
    · rfl
  | ⟨1, _⟩ => rfl
  | ⟨2, _⟩ =>
    show s.val = if c = 1 then 0 else s.val
    split
    · have := s.isLt; omega
    · rfl
  | ⟨3, _⟩ =>
    show k.val = if d = 1 then 0 else k.val
    split
    · have := k.isLt; omega
    · rfl

/-- A `[1, b, c, d]` array broadcast to `[a, b, c, d]` reads, at `(r, t, s, k)`, the operand at `(0, t, s, k)`. -/
theorem broadcastTo_1bcd_abcd_apply {a b c d : ℕ} (y : (⟨4, ![1, b, c, d]⟩ : Shape).Idx → α)
    (h : (⟨4, ![1, b, c, d]⟩ : Shape).Broadcasts ⟨4, ![a, b, c, d]⟩) (r : Fin a) (t : Fin b) (s : Fin c) (k : Fin d) :
    broadcastTo ⟨4, ![a, b, c, d]⟩ y h (ix4 r t s k) = y (ix4 (0 : Fin 1) t s k) := by
  refine broadcastTo_apply y h (ix4 r t s k) (ix4 (0 : Fin 1) t s k) fun ax => ?_
  match ax with
  | ⟨0, _⟩ => rfl
  | ⟨1, _⟩ =>
    show t.val = if b = 1 then 0 else t.val
    split
    · have := t.isLt; omega
    · rfl
  | ⟨2, _⟩ =>
    show s.val = if c = 1 then 0 else s.val
    split
    · have := s.isLt; omega
    · rfl
  | ⟨3, _⟩ =>
    show k.val = if d = 1 then 0 else k.val
    split
    · have := k.isLt; omega
    · rfl

/-- The first stack spread over the pairs: `(r, t, s, k)` reads it at `(r, s, k)`. -/
theorem pairLeft_apply {a b c d : ℕ} (x : (⟨3, ![a, c, d]⟩ : Shape).Idx → α)
    (hc : (⟨3, ![a, c, d]⟩ : Shape).ShapeCasts ⟨4, ![a, 1, c, d]⟩)
    (hb : (⟨4, ![a, 1, c, d]⟩ : Shape).Broadcasts ⟨4, ![a, b, c, d]⟩) (r : Fin a) (t : Fin b) (s : Fin c) (k : Fin d) :
    broadcastTo ⟨4, ![a, b, c, d]⟩ (shapeCast ⟨4, ![a, 1, c, d]⟩ x hc) hb (ix4 r t s k) = x (ix3 r s k) :=
  (broadcastTo_a1cd_abcd_apply _ hb r t s k).trans (shapeCast_acd_a1cd_apply x hc r 0 s k)

/-- The second stack spread over the pairs: `(r, t, s, k)` reads it at `(t, s, k)`. -/
theorem pairRight_apply {a b c d : ℕ} (x : (⟨3, ![b, c, d]⟩ : Shape).Idx → α)
    (hc : (⟨3, ![b, c, d]⟩ : Shape).ShapeCasts ⟨4, ![1, b, c, d]⟩)
    (hb : (⟨4, ![1, b, c, d]⟩ : Shape).Broadcasts ⟨4, ![a, b, c, d]⟩) (r : Fin a) (t : Fin b) (s : Fin c) (k : Fin d) :
    broadcastTo ⟨4, ![a, b, c, d]⟩ (shapeCast ⟨4, ![1, b, c, d]⟩ x hc) hb (ix4 r t s k) = x (ix3 t s k) :=
  (broadcastTo_1bcd_abcd_apply _ hb r t s k).trans (shapeCast_abc_1abc_apply x hc 0 t s k)

/-- A sum along the last axis of an `[a, b, c, d]` array of extended reals, from the zero accumulator, reads at
    `(r, t, s)` the sum over `k` of the entries `(r, t, s, k)`. The last hypothesis says that the accumulator's word,
    zero, is the neutral word of addition. -/
theorem sumAxis3_apply {a b c d : ℕ} (src : FVec Ideal ⟨4, ![a, b, c, d]⟩ .f32)
    (h : (⟨4, ![a, b, c, d]⟩ : Shape).Reduces [3] ⟨3, ![a, b, c]⟩) (hφ : FKind.Formats .f32)
    (hacc : (0x00000000#32 : BitVec 32) = FKind.add.neutral .f32 hφ) (r : Fin a) (t : Fin b) (s : Fin c) :
    multiReduction .add [3] ⟨3, ![a, b, c]⟩ src 0x00000000#32 h hφ hacc (ix3 r t s) = ∑ k : Fin d, src (ix4 r t s k) := by
  refine (Ideal.multiReduction_add_single src 0x00000000#32 h hφ hacc (ix3 r t s)).trans ?_
  show ∑ k : Fin d, src (h.lift (ix3 r t s) k) = ∑ k : Fin d, src (ix4 r t s k)
  refine Finset.sum_congr rfl fun k _ => congrArg src (funext fun x => Fin.ext ?_)
  match x with
  | ⟨0, _⟩ => rfl
  | ⟨1, _⟩ => rfl
  | ⟨2, _⟩ => rfl
  | ⟨3, _⟩ => rfl

end Cert.KernelIdeal.PayAt
-- ==== Proof.LibUnitLayout.lean ====
/-
  Unit-extent layouts and index words read at coordinates, at any extents.

  A body that reduces a row to one number keeps that number in arrays of extent one — `[1]`, `[1, 1]` — pulls it out
  as a scalar and spreads it again; and it marks the diagonal of a square array by comparing two index arrays. None of
  this computes anything; the lemmas say which entry or which word each result holds:
    • a `[1, 1, n]` array cast to `[n]`: entry `k` is entry `(0, 0, k)`;
    • every index of a `[1, 1]` array is `(0, 0)`, so the scalar extracted at position `(0, 0)` from a `[1]`
      vector recast as `[1, 1]` is the vector's one entry;
    • a `[1]` vector spread to `[n]`: every entry is its one entry;
    • the index array along axis `0` (axis `1`) of an `[a, b]` array holds at `(i, j)` the word of `i` (of `j`);
    • for `i, j` below `2³²`, the "not equal" bit of their two words, widened to 32 bits and read as a signed
      number, is `0` when `i = j` and `1` otherwise; the "equal" bit read as an unsigned number is the opposite.
-/
import Idealize.ShloMosaic.Lib.ValueLayout
import Idealize.ShloMosaic.Lib.Pipeline.Value
import Idealize.ShloMosaic.PureOps.Ideal.Laws

namespace Cert.UnitLayout

open Idealize.ShloMosaic Idealize.ShloMosaic.ValueIdx

variable {α : Type}

/-- A `[1, 1, n]` array cast to `[n]` reads, at `k`, the operand at `(0, 0, k)`. -/
theorem shapeCast_11n_n_apply {n : ℕ} (x : (⟨3, ![1, 1, n]⟩ : Shape).Idx → α)
    (h : (⟨3, ![1, 1, n]⟩ : Shape).ShapeCasts ⟨1, ![n]⟩) (k : Fin n) :
    shapeCast ⟨1, ![n]⟩ x h (ix1 k) = x (ix3 (0 : Fin 1) (0 : Fin 1) k) :=
  shapeCast_apply x h _ _ (by
    rw [Shape.rowMajor_val_three, Shape.rowMajor_val_one]
    show (0 * 1 + 0) * n + k.val = k.val
    simp)

/-- Every index of a `[1, 1]` array is `(0, 0)`. -/
theorem idx11_eq (j : (⟨2, ![1, 1]⟩ : Shape).Idx) : j = ix2 (0 : Fin 1) (0 : Fin 1) := by
  have h0 : (j 0).val = 0 := Nat.lt_one_iff.mp (j 0).isLt
  have h1 : (j 1).val = 0 := Nat.lt_one_iff.mp (j 1).isLt
  funext d
  match d with
  | ⟨0, _⟩ => exact Fin.ext h0
  | ⟨1, _⟩ => exact Fin.ext h1

/-- The scalar extracted at position `(0, 0)` of a `[1]` vector recast as `[1, 1]` is the vector's one entry. -/
theorem extract_one_apply (v : (⟨1, ![1]⟩ : Shape).Idx → α) (h : (⟨1, ![1]⟩ : Shape).ShapeCasts ⟨2, ![1, 1]⟩)
    (hp : ∀ a, (![0, 0] : Fin 2 → ℕ) a < (⟨2, ![1, 1]⟩ : Shape).size a) :
    extractAt ![0, 0] (shapeCast ⟨2, ![1, 1]⟩ v h) hp = v (ix1 (0 : Fin 1)) := by
  unfold extractAt
  exact (congrArg (shapeCast ⟨2, ![1, 1]⟩ v h) (idx11_eq _)).trans (shapeCast_a_1a_apply v h 0 0)

/-- A `[1]` vector spread to `[n]` reads, at every `k`, its one entry. -/
theorem broadcastTo_1_n_apply {n : ℕ} (v : (⟨1, ![1]⟩ : Shape).Idx → α) (h : (⟨1, ![1]⟩ : Shape).Broadcasts ⟨1, ![n]⟩)
    (k : Fin n) : broadcastTo ⟨1, ![n]⟩ v h (ix1 k) = v (ix1 (0 : Fin 1)) := by
  refine broadcastTo_apply v h (ix1 k) (ix1 (0 : Fin 1)) fun ax => ?_
  match ax with
  | ⟨0, _⟩ => rfl

/-- The index array along axis `0` of an `[a, b]` array holds, at `(i, j)`, the word of `i`. -/
theorem iota_rows_apply {κ : Kind} {a b : ℕ} (h : (⟨2, ![a, b]⟩ : Shape).Iotas κ 32 [0]) (i : Fin a) (j : Fin b) :
    iota κ ⟨2, ![a, b]⟩ 32 [0] h (ix2 i j) = BitVec.ofNat 32 i.val := by
  unfold iota
  show BitVec.ofNat 32 (0 * a + i.val) = _
  rw [Nat.zero_mul, Nat.zero_add]

/-- The index array along axis `1` of an `[a, b]` array holds, at `(i, j)`, the word of `j`. -/
theorem iota_cols_apply {κ : Kind} {a b : ℕ} (h : (⟨2, ![a, b]⟩ : Shape).Iotas κ 32 [1]) (i : Fin a) (j : Fin b) :
    iota κ ⟨2, ![a, b]⟩ 32 [1] h (ix2 i j) = BitVec.ofNat 32 j.val := by
  unfold iota
  show BitVec.ofNat 32 (0 * b + j.val) = _
  rw [Nat.zero_mul, Nat.zero_add]

/-- Two numbers below `2³²` have the same 32-bit word only if they are equal. -/
theorem ofNat_inj {p q : ℕ} (hp : p < 4294967296) (hq : q < 4294967296) :
    BitVec.ofNat 32 p = BitVec.ofNat 32 q ↔ p = q := by
  constructor
  · intro e
    have := congrArg BitVec.toNat e
    simp only [BitVec.toNat_ofNat] at this
    rw [Nat.mod_eq_of_lt (by simpa using hp), Nat.mod_eq_of_lt (by simpa using hq)] at this
    exact this
  · rintro rfl; rfl

/-- The "not equal" bit of the words of `i` and `j`, widened to 32 bits and read as a signed number: `0` on the
    diagonal, `1` off it. -/
theorem ne_word_apply {n : ℕ} (hn : n ≤ 4294967296) (i j : Fin n) :
    FloatOps.sitofp (F := Ideal) .f32 ((IntOp.cmpi .ne (BitVec.ofNat 32 i.val) (BitVec.ofNat 32 j.val)).setWidth 32)
      = if i = j then (0 : EReal) else 1 := by
  have hi : i.val < 4294967296 := lt_of_lt_of_le i.isLt hn
  have hj : j.val < 4294967296 := lt_of_lt_of_le j.isLt hn
  by_cases e : i = j
  · subst e
    rw [if_pos rfl]
    show (((BitVec.ofBool (BitVec.ofNat 32 i.val != BitVec.ofNat 32 i.val)).setWidth 32).toInt : ℝ) = (0 : EReal)
    simp
  · rw [if_neg e]
    have hne : BitVec.ofNat 32 i.val ≠ BitVec.ofNat 32 j.val := fun h => e (Fin.ext ((ofNat_inj hi hj).mp h))
    show (((BitVec.ofBool (BitVec.ofNat 32 i.val != BitVec.ofNat 32 j.val)).setWidth 32).toInt : ℝ) = (1 : EReal)
    have : (BitVec.ofNat 32 i.val != BitVec.ofNat 32 j.val) = true := by simpa using hne
    rw [this]
    simp

end Cert.UnitLayout
-- ==== Proof.PayAtMask.lean ====
/-
  The off-diagonal mask of a tiled all-pairs body, read at coordinates.

  A body that handles the `[m, n]` tile at block position `(g, h)` of a square array marks the entries that lie OFF the
  array's diagonal: it forms the global row number `g·m + r` and the global column number `h·n + t` as 32-bit words
  (a word product plus an index array), compares the two words, widens the "not equal" bit to 32 bits and reads it as
  a signed number. When both global numbers stay below `2³²` no word wraps, so the result is `0` exactly when
  `g·m + r = h·n + t` and `1` otherwise.
-/
import proofs.«107602_j970662608991_2_alg».proof.Proof.LibUnitLayout
import Idealize.ShloMosaic.Lib.ValueIdx

namespace Cert.KernelIdeal.PayAt

open Idealize.ShloMosaic Idealize.ShloMosaic.ValueIdx

/-- The word of `g` times the word of `m`, plus the word of `r`, is the word of `g·m + r`. -/
theorem word_affine (g m r : ℕ) :
    IntOp.addi (Scalar.muli (BitVec.ofNat 32 g) (BitVec.ofNat 32 m)) (BitVec.ofNat 32 r) = BitVec.ofNat 32 (g * m + r) := by
  show BitVec.ofNat 32 g * BitVec.ofNat 32 m + BitVec.ofNat 32 r = _
  rw [BitVec.ofNat_mul_ofNat, BitVec.ofNat_add_ofNat]

/-- The "not equal" bit of the words of `A` and `B`, both below `2³²`, widened to 32 bits and read as a signed number:
    `0` when `A = B`, `1` otherwise. -/
theorem ne_nat_apply {A B : ℕ} (hA : A < 4294967296) (hB : B < 4294967296) :
    FloatOps.sitofp (F := Ideal) .f32 ((IntOp.cmpi .ne (BitVec.ofNat 32 A) (BitVec.ofNat 32 B)).setWidth 32)
      = if A = B then (0 : EReal) else 1 := by
  have h := Cert.UnitLayout.ne_word_apply (n := 4294967296) (le_refl _) ⟨A, hA⟩ ⟨B, hB⟩
  refine h.trans ?_
  by_cases e : A = B
  · subst e; rw [if_pos rfl, if_pos rfl]
  · rw [if_neg e, if_neg (fun h' => e (congrArg Fin.val h'))]

/-- The mask of the tile at block position `(g, h)`, at entry `(r, t)` of the tile. -/
theorem mask_apply {a b : ℕ} (g h m n : ℕ) (hr : (⟨2, ![a, b]⟩ : Shape).Iotas .tc 32 [0])
    (hc : (⟨2, ![a, b]⟩ : Shape).Iotas .tc 32 [1]) (hw : 1 < 32) (r : Fin a) (t : Fin b)
    (hA : g * m + r.val < 4294967296) (hB : h * n + t.val < 4294967296) :
    (sitofp .f32 (extui 32 (cmpi .ne
        (addi (broadcast ⟨2, ![a, b]⟩ (Scalar.muli (BitVec.ofNat 32 g) (BitVec.ofNat 32 m))) (iota .tc ⟨2, ![a, b]⟩ 32 [0] hr))
        (addi (broadcast ⟨2, ![a, b]⟩ (Scalar.muli (BitVec.ofNat 32 h) (BitVec.ofNat 32 n))) (iota .tc ⟨2, ![a, b]⟩ 32 [1] hc))) hw)
      : FVec Ideal ⟨2, ![a, b]⟩ .f32) (ix2 r t)
      = if g * m + r.val = h * n + t.val then (0 : EReal) else 1 := by
  show FloatOps.sitofp (F := Ideal) .f32 ((IntOp.cmpi .ne
      (IntOp.addi (Scalar.muli (BitVec.ofNat 32 g) (BitVec.ofNat 32 m)) (iota .tc ⟨2, ![a, b]⟩ 32 [0] hr (ix2 r t)))
      (IntOp.addi (Scalar.muli (BitVec.ofNat 32 h) (BitVec.ofNat 32 n)) (iota .tc ⟨2, ![a, b]⟩ 32 [1] hc (ix2 r t)))).setWidth 32) = _
  rw [Cert.UnitLayout.iota_rows_apply hr r t, Cert.UnitLayout.iota_cols_apply hc r t, word_affine, word_affine]
  exact ne_nat_apply hA hB

end Cert.KernelIdeal.PayAt
-- ==== Proof.PayAt.lean ====
/-
  The arithmetic of the two kernels, read entry by entry on the extended reals.

  • The product kernel stores, at `(p, n)`, the plain matrix product `∑_f x (p, f) · t (f, n)` of the two blocks it
    loaded: the accumulator is the zero matrix and the casts between a shape and itself move nothing.
  • The pairwise kernel first stores the zero block.
  • Its accumulation step adds to the running block, at row `p` and feature `o`, the sum over the rows `j` of the second
    tile of `exp (−L₁)`, where `L₁ = ∑_k |a (p, o, k) − b (j, o, k)|` is the distance between the two rows' length-16
    vectors for feature `o` (`|z| = max z (−z)`), each term multiplied by `0` when the two rows are the SAME row of the
    whole array — global row numbers `i₀·32 + p` and `i₁·64 + j` — and by `1` otherwise. The body builds the pairs as a
    rank-4 array `[32, 64(j), 64(o), 16]`, sums the last axis, negates by subtracting from zero, multiplies by the mask
    spread along `o`, exchanges the axes `j` and `o` and sums the last axis, now `j`.
-/
import proofs.«107602_j970662608991_2_alg».proof.Proof.Gen.KernelIdeal.Skeleton
import proofs.«107602_j970662608991_2_alg».proof.Proof.LibPlainMatmul
import proofs.«107602_j970662608991_2_alg».proof.Proof.LibOuterLayout
import proofs.«107602_j970662608991_2_alg».proof.Proof.LibRank3Layout
import proofs.«107602_j970662608991_2_alg».proof.Proof.PayAtLayout
import proofs.«107602_j970662608991_2_alg».proof.Proof.PayAtMask
import Idealize.ShloMosaic.Lib.ValueIdx
import Idealize.ShloMosaic.Lib.ValueLayout
import Idealize.ShloMosaic.Lib.Pipeline.Value
import Idealize.ShloMosaic.PureOps.Ideal.Laws

namespace Cert.KernelIdeal.PayAt

open Idealize.ShloMosaic Idealize.ShloMosaic.ValueIdx Cert.KernelIdeal Cert.KernelIdeal.Gen

/-- The product kernel's stored value at `(p, n)`: the sum over `f` of `x (p, f) · t (f, n)`. -/
theorem pay0_apply (v0 : Vec Ideal S128x1024 .bf16) (v2 : Vec Ideal S1024x1024 .bf16) (p : Fin 128) (n : Fin 1024) :
    k0_pay1 (F := Ideal) v0 v2 (ix2 p n) = ∑ f : Fin 1024, v0 (ix2 p f) * v2 (ix2 f n) := by
  unfold k0_pay1
  show FloatOps.matmul (F := Ideal) (φ₁ := .bf16) (φ₂ := .bf16) (DotDims.plain 128 1024 1024) none
      (shapeCast S128x1024 (v0 : FVec Ideal S128x1024 .bf16) shapeCasts_S128x1024_S128x1024)
      (shapeCast S1024x1024 (v2 : FVec Ideal S1024x1024 .bf16) shapeCasts_S1024x1024_S1024x1024)
      (constant S128x1024 .f32 0x00000000#32) (ix2 p n) = _
  rw [shapeCast_self, shapeCast_self]
  exact Cert.PlainMatmul.plain_apply (φ₁ := .bf16) (φ₂ := .bf16) v0 v2 p n

/-- The zero block at `(p, o)`. -/
theorem zero_apply (p : Fin 32) (o : Fin 64) : k1_pay1 (F := Ideal) (ix2 p o) = 0 := by
  unfold k1_pay1
  refine (congrFun (shapeCast_self _ _) (ix2 p o)).trans ?_
  exact Ideal.ofBits_zero_f32

/-- The accumulation step at `(p, o)`: the running value plus, over the rows `j` of the second tile, `exp` of minus the
    L₁ distance between row `p` of the first tile and row `j` of the second at feature `o`, times `0` when the two are
    the same row of the whole array (`i₀·32 + p = i₁·64 + j`) and `1` otherwise. With `i₀ < 8` and `i₁ < 4` both global
    row numbers are below `512`, so no 32-bit word wraps. -/
theorem step_apply (i : grid1.Coords) (v3 : Vec Ideal S32x64x16 .f32) (v5 : Vec Ideal S64x64x16 .f32)
    (v31 : Vec Ideal S32x64 .f32) (p : Fin 32) (o : Fin 64) :
    k1_pay2 (F := Ideal) i v3 v5 v31 (ix2 p o)
      = v31 (ix2 p o) + ∑ j : Fin 64, Ideal.exp (-(∑ k : Fin 16, max (v3 (ix3 p o k) - v5 (ix3 j o k)) (-(v3 (ix3 p o k) - v5 (ix3 j o k)))))
          * (if (i 0).val * 32 + p.val = (i 1).val * 64 + j.val then (0 : EReal) else 1) := by
  have h0 : (i 0).val < 8 := (i 0).isLt
  have h1 : (i 1).val < 4 := (i 1).isLt
  unfold k1_pay2
  refine (congrFun (shapeCast_self _ _) (ix2 p o)).trans ?_
  refine congrArg (v31 (ix2 p o) + ·) ?_
  refine (Cert.OuterLayout.sumLast_apply _ _ _ _ p o).trans ?_
  refine Finset.sum_congr rfl fun j _ => ?_
  refine (transpose_ix3_021_apply _ _ p o j).trans ?_
  refine congrArg₂ (· * ·) ?_ ?_
  · refine congrArg Ideal.exp ?_
    refine (congrArg (Ideal.ofBits .f32 0x00000000#32 - ·) (sumAxis3_apply _ _ _ _ p j o)).trans ?_
    rw [Ideal.ofBits_zero_f32, zero_sub]
    refine congrArg Neg.neg (Finset.sum_congr rfl fun k _ => ?_)
    refine congrArg (fun z : EReal => max z (-z)) ?_
    exact congrArg₂ (· - ·)
      ((pairLeft_apply _ _ _ p j o k).trans (congrFun (shapeCast_self v3 _) (ix3 p o k)))
      ((pairRight_apply _ _ _ p j o k).trans (congrFun (shapeCast_self v5 _) (ix3 j o k)))
  · refine (Cert.Rank3Layout.column_apply _ _ _ p j o).trans ?_
    exact mask_apply (i 0).val (i 1).val 32 64 _ _ _ p j (by omega) (by omega)

end Cert.KernelIdeal.PayAt
-- ==== Proof.Spec.lean ====
/-
  The function both programs compute, stated once over the extended reals and over no program.

  For inputs x : [256, 1024] and T : [1024, 64, 16] let
      Mat r o k = Σ_f x(r, f) · T(f, o, k)                         (the product x · T with T's two trailing axes flattened),
      dist r j o = Σ_k |Mat r o k − Mat j o k|                      (the L1 distance of rows r and j in output feature o),
      pair r j o = exp(−dist r j o) · [r ≠ j]                       (the self pair is masked out).
  The result is the [256, 1088] array whose first 1024 columns are x and whose column 1024 + o is Σ_j pair r j o.
  |a| is max a (−a), as the extended reals read the absolute value.
-/
import Idealize.ShloMosaic.PureOps.Ideal
import Idealize.ShloMosaic.Lib.ValueIdx

noncomputable section

open scoped BigOperators

namespace Cert.PairSpec

open Idealize.ShloMosaic Idealize.ShloMosaic.ValueIdx

abbrev SX : Shape := ⟨2, ![256, 1024]⟩
abbrev ST : Shape := ⟨3, ![1024, 64, 16]⟩
abbrev SO : Shape := ⟨2, ![256, 1088]⟩

/-- The product of x with T flattened: entry (r, o, k). -/
def Mat (x : SX.Idx → EReal) (T : ST.Idx → EReal) (r : Fin 256) (o : Fin 64) (k : Fin 16) : EReal :=
  ∑ f : Fin 1024, x (ix2 r f) * T (ix3 f o k)

/-- The L1 distance between rows r and j of the product, in output feature o. -/
def dist (x : SX.Idx → EReal) (T : ST.Idx → EReal) (r j : Fin 256) (o : Fin 64) : EReal :=
  ∑ k : Fin 16, max (Mat x T r o k - Mat x T j o k) (-(Mat x T r o k - Mat x T j o k))

/-- One pair's contribution: exp(−distance), the self pair masked out. -/
def pair (x : SX.Idx → EReal) (T : ST.Idx → EReal) (r j : Fin 256) (o : Fin 64) : EReal :=
  Ideal.exp (-(dist x T r j o)) * (if r = j then 0 else 1)

/-- The minibatch feature of row r, output feature o: the sum of the pairs over all rows j. -/
def feat (x : SX.Idx → EReal) (T : ST.Idx → EReal) (r : Fin 256) (o : Fin 64) : EReal :=
  ∑ j : Fin 256, pair x T r j o

/-- The whole result: x's columns, then the 64 feature columns. -/
def G (x : SX.Idx → EReal) (T : ST.Idx → EReal) : SO.Idx → EReal := fun i =>
  if h : (i 1).val < 1024 then x (ix2 (i 0) ⟨(i 1).val, h⟩)
  else feat x T (i 0) ⟨(i 1).val - 1024, by have h2 : (i 1).val < 1088 := (i 1).isLt; omega⟩

/-- |a − b| = |b − a| on the extended reals, infinities included. -/
theorem abs_sub_comm (a b : EReal) : max (a - b) (-(a - b)) = max (b - a) (-(b - a)) := by
  induction a using EReal.rec <;> induction b using EReal.rec <;>
    first
    | rfl
    | (simp only [← EReal.coe_sub, ← EReal.coe_neg, neg_sub]; exact max_comm _ _)
    | simp

end Cert.PairSpec

end
-- ==== Proof.SpecBlocks.lean ====
/-
  The feature of a row as four block sums.

  Row r = i0 · 32 + p of the 256 rows, column c = jb · 64 + j of the 256 columns. The feature of row r in output feature o
  is the sum over all 256 columns of the pair (r, c); splitting the columns into four blocks of 64 writes it as the
  sum of four block sums, added in order onto 0. The self pair's mask [r = c] is the equation of the two values
  i0 · 32 + p = jb · 64 + j.
-/
import proofs.«107602_j970662608991_2_alg».proof.Proof.Spec

noncomputable section

open scoped BigOperators

namespace Cert.PairSpec

open Idealize.ShloMosaic Idealize.ShloMosaic.ValueIdx

def rowOf (i0 : Fin 8) (p : Fin 32) : Fin 256 := ⟨i0.val * 32 + p.val, by omega⟩
def colOf (jb : Fin 4) (j : Fin 64) : Fin 256 := ⟨jb.val * 64 + j.val, by omega⟩
/-- One block of 64 pairs of row (i0, p): the sum the kernel adds to its accumulator at grid point (i0, jb). -/
def blockSum (x : SX.Idx → EReal) (T : ST.Idx → EReal) (i0 : Fin 8) (jb : Fin 4) (p : Fin 32) (o : Fin 64) : EReal :=
  ∑ j : Fin 64, Ideal.exp (-(∑ k : Fin 16, max (Mat x T (rowOf i0 p) o k - Mat x T (colOf jb j) o k) (-(Mat x T (rowOf i0 p) o k - Mat x T (colOf jb j) o k))))
      * (if i0.val * 32 + p.val = jb.val * 64 + j.val then (0 : EReal) else 1)

/-- A block sum is the sum of the specification's pairs over the block's 64 columns. -/
theorem blockSum_eq_sum_pair (x : SX.Idx → EReal) (T : ST.Idx → EReal) (i0 : Fin 8) (jb : Fin 4) (p : Fin 32) (o : Fin 64) :
    blockSum x T i0 jb p o = ∑ j : Fin 64, pair x T (rowOf i0 p) (colOf jb j) o := by
  unfold blockSum pair dist
  refine Finset.sum_congr rfl fun j _ => ?_
  have hc : (if i0.val * 32 + p.val = jb.val * 64 + j.val then (0 : EReal) else 1)
      = (if rowOf i0 p = colOf jb j then 0 else 1) :=
    if_congr (Fin.ext_iff (a := rowOf i0 p) (b := colOf jb j)).symm rfl rfl
  rw [hc]

/-- The 256 columns are the pairs (block, column inside the block), column jb · 64 + j. -/
theorem exists_colEquiv : ∃ e : Fin 4 × Fin 64 ≃ Fin 256, ∀ q, e q = colOf q.1 q.2 :=
  ⟨{ toFun := fun q => colOf q.1 q.2
     invFun := fun c => (⟨c.val / 64, by have := c.isLt; omega⟩, ⟨c.val % 64, Nat.mod_lt _ (by decide)⟩)
     left_inv := fun q => by
       obtain ⟨jb, j⟩ := q
       have hj := j.isLt
       refine Prod.ext (Fin.ext ?_) (Fin.ext ?_)
       · show (jb.val * 64 + j.val) / 64 = jb.val
         omega
       · show (jb.val * 64 + j.val) % 64 = j.val
         omega
     right_inv := fun c => Fin.ext (by
       show c.val / 64 * 64 + c.val % 64 = c.val
       omega) }, fun _ => rfl⟩

/-- The feature of row (i0, p) is its four block sums added in order onto 0. -/
theorem blocks_eq_feat (x : SX.Idx → EReal) (T : ST.Idx → EReal) (i0 : Fin 8) (p : Fin 32) (o : Fin 64) :
    (((0 + blockSum x T i0 0 p o) + blockSum x T i0 1 p o) + blockSum x T i0 2 p o) + blockSum x T i0 3 p o = feat x T (rowOf i0 p) o := by
  obtain ⟨e, he⟩ := exists_colEquiv
  have h1 : feat x T (rowOf i0 p) o = ∑ jb : Fin 4, ∑ j : Fin 64, pair x T (rowOf i0 p) (colOf jb j) o := by
    unfold feat
    rw [← Equiv.sum_comp e (fun c => pair x T (rowOf i0 p) c o), Fintype.sum_prod_type]
    refine Finset.sum_congr rfl fun jb _ => Finset.sum_congr rfl fun j _ => ?_
    rw [he]
  rw [h1, Fin.sum_univ_four, zero_add, blockSum_eq_sum_pair, blockSum_eq_sum_pair, blockSum_eq_sum_pair,
    blockSum_eq_sum_pair]

/-- Every row is row p of a block i0 of 32 rows. -/
theorem row_split (r : Fin 256) : ∃ (i0 : Fin 8) (p : Fin 32), r = rowOf i0 p :=
  ⟨⟨r.val / 32, by have := r.isLt; omega⟩, ⟨r.val % 32, Nat.mod_lt _ (by decide)⟩, Fin.ext (by
    show r.val = r.val / 32 * 32 + r.val % 32
    omega)⟩

end Cert.PairSpec

end
-- ==== Proof.KiVal1a.lean ====
/-
  The pairwise kernel's blocks and one accumulation step, read at an index over the extended reals.

  At grid point t = 4 q + jb (q < 8 the row block, jb < 4 the block of rows paired with it) the first window's block
  is rows 32 q … 32 q + 31 of the product array M (seen as 256 x 64 x 16) and the second window's block is rows
  64 jb … 64 jb + 63 of the same array. One step of the body adds to the scratch's entry (p, o) the sum over the
  64 rows j of the second block of exp(−Σ_k |M(32 q + p, o, k) − M(64 jb + j, o, k)|), the pair of a row with itself
  left out: the block sum of the specification once M is the product x · T.
-/
import proofs.«107602_j970662608991_2_alg».proof.Proof.KiMain
import proofs.«107602_j970662608991_2_alg».proof.Proof.PayAt
import proofs.«107602_j970662608991_2_alg».proof.Proof.SpecBlocks
import Idealize.ShloMosaic.Lib.Pipeline.Value
import Idealize.ShloMosaic.Lib.ValueIdx

set_option maxRecDepth 16384

noncomputable section

open scoped BigOperators

namespace Cert.KernelIdeal.Frm

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open Cert.PairSpec (Mat feat blockSum rowOf colOf)

section
variable (V : (c : Dev nD) → (b : Ref sig .tc) → Buf (Elt Ideal) ((c : Thread nD τ).loc b))

/-- The index maps and the grid's coordinates at point `t`, decided once over the grid: the first window follows the
    first coordinate t / 4, the second window the second coordinate t % 4, the output window the first. -/
theorem idx1_facts : ∀ t : Fin cfg1.N, win1_0.index t 0 = t.val / 4 ∧ win1_0.index t 1 = 0 ∧ win1_0.index t 2 = 0
    ∧ win1_1.index t 0 = t.val % 4 ∧ win1_1.index t 1 = 0 ∧ win1_1.index t 2 = 0
    ∧ win1_2.index t 0 = t.val / 4 ∧ win1_2.index t 1 = 0
    ∧ ((grid1.coords t) 0).val = t.val / 4 ∧ ((grid1.coords t) 1).val = t.val % 4 :=
  (by decide +kernel : ∀ t : Fin grid1.N, win1_0.index t 0 = t.val / 4 ∧ win1_0.index t 1 = 0 ∧ win1_0.index t 2 = 0
    ∧ win1_1.index t 0 = t.val % 4 ∧ win1_1.index t 1 = 0 ∧ win1_1.index t 2 = 0
    ∧ win1_2.index t 0 = t.val / 4 ∧ win1_2.index t 1 = 0
    ∧ ((grid1.coords t) 0).val = t.val / 4 ∧ ((grid1.coords t) 1).val = t.val % 4)

/-- The first window's block at point `t` is rows 32 (t / 4) … of the array it reads. -/
theorem iblk1_0_apply (c : Dev nD) (t : Fin cfg1.N) (y : S32x64x16.Idx) (k : S256x64x16.Idx)
    (h0 : (k 0).val = t.val / 4 * 32 + (y 0).val) (h1 : (k 1).val = (y 1).val) (h2 : (k 2).val = (y 2).val) :
    (iblk1 V c 0 t : Vec Ideal S32x64x16 .f32) y = (V c main_v4 : S256x64x16.Idx → EReal) k := by
  obtain ⟨e0, e1, e2, -⟩ := idx1_facts t
  unfold iblk1
  rw [View.read_apply]
  show V c main_v4 _ = V c main_v4 _
  congr 1
  funext a
  apply Fin.ext
  match a with
  | ⟨0, _⟩ => show win1_0.index t 0 * 32 + 1 * (y 0).val = (k 0).val; rw [e0, h0]; omega
  | ⟨1, _⟩ => show win1_0.index t 1 * 64 + 1 * (y 1).val = (k 1).val; rw [e1, h1]; omega
  | ⟨2, _⟩ => show win1_0.index t 2 * 16 + 1 * (y 2).val = (k 2).val; rw [e2, h2]; omega

/-- The second window's block at point `t` is rows 64 (t % 4) … of the same array. -/
theorem iblk1_1_apply (c : Dev nD) (t : Fin cfg1.N) (y : S64x64x16.Idx) (k : S256x64x16.Idx)
    (h0 : (k 0).val = t.val % 4 * 64 + (y 0).val) (h1 : (k 1).val = (y 1).val) (h2 : (k 2).val = (y 2).val) :
    (iblk1 V c 1 t : Vec Ideal S64x64x16 .f32) y = (V c main_v4 : S256x64x16.Idx → EReal) k := by
  obtain ⟨-, -, -, e0, e1, e2, -⟩ := idx1_facts t
  unfold iblk1
  rw [View.read_apply]
  show V c main_v4 _ = V c main_v4 _
  congr 1
  funext a
  apply Fin.ext
  match a with
  | ⟨0, _⟩ => show win1_1.index t 0 * 64 + 1 * (y 0).val = (k 0).val; rw [e0, h0]; omega
  | ⟨1, _⟩ => show win1_1.index t 1 * 64 + 1 * (y 1).val = (k 1).val; rw [e1, h1]; omega
  | ⟨2, _⟩ => show win1_1.index t 2 * 16 + 1 * (y 2).val = (k 2).val; rw [e2, h2]; omega

/-- One accumulation step at point t = 4 q + jb, at entry (p, o): the block sum of the specification is added, once
    the array the windows read is the product (`hM`). -/
theorem step_at (c : Dev nD) (x : Cert.PairSpec.SX.Idx → EReal) (T : Cert.PairSpec.ST.Idx → EReal)
    (hM : ∀ (r : Fin 256) (o : Fin 64) (k : Fin 16), (V c main_v4 : S256x64x16.Idx → EReal) (ix3 r o k) = Mat x T r o k)
    (t : Fin cfg1.N) (q : Fin 8) (jb : Fin 4) (ht : t.val = 4 * q.val + jb.val)
    (prev : Vec Ideal S32x64 .f32) (p : Fin 32) (o : Fin 64) :
    k1_pay2 (F := Ideal) (grid1.coords t) (iblk1 V c 0 t) (iblk1 V c 1 t) prev (ix2 p o) = prev (ix2 p o) + blockSum x T q jb p o := by
  obtain ⟨-, -, -, -, -, -, -, -, g0, g1⟩ := idx1_facts t
  have hq : t.val / 4 = q.val := by have := jb.isLt; omega
  have hj : t.val % 4 = jb.val := by have := jb.isLt; omega
  refine (Cert.KernelIdeal.PayAt.step_apply (grid1.coords t) (iblk1 V c 0 t) (iblk1 V c 1 t) prev p o).trans
    (congrArg (fun s => prev (ix2 p o) + s) ?_)
  unfold blockSum
  refine Finset.sum_congr rfl fun j _ => ?_
  have ea : ∀ k : Fin 16, (iblk1 V c 0 t : Vec Ideal S32x64x16 .f32) (ix3 p o k) = Mat x T (rowOf q p) o k := fun k =>
    (iblk1_0_apply V c t (ix3 p o k) (ix3 (rowOf q p) o k) (by show (rowOf q p).val = _; unfold rowOf; rw [hq]) rfl rfl).trans (hM _ _ _)
  have eb : ∀ k : Fin 16, (iblk1 V c 1 t : Vec Ideal S64x64x16 .f32) (ix3 j o k) = Mat x T (colOf jb j) o k := fun k =>
    (iblk1_1_apply V c t (ix3 j o k) (ix3 (colOf jb j) o k) (by show (colOf jb j).val = _; unfold colOf; rw [hj]) rfl rfl).trans (hM _ _ _)
  simp only [ea, eb, g0, g1, hq, hj]

end

end Cert.KernelIdeal.Frm

end
-- ==== Proof.KiPieces.lean ====
/-
  What each run of the two bodies leaves, as the bodies' arithmetic on the blocks they were given.

  Every load and every store of both kernels goes through the WHOLE staging buffer (the unit rectangle at zero
  offsets): a load reads the buffer's contents as they are, and one covering store leaves exactly the value stored.
  So, for any float instance:
    • the product kernel's output block is the product payload of its two input blocks;
    • a middle point of the pairwise kernel leaves in the scratch the accumulation step applied to the two input
      blocks and to what the scratch held;
    • the first point of a row block first clears the scratch and then reads it back, so it leaves the accumulation
      step applied to the zero block;
    • the last point leaves the same accumulation in the scratch and, since it then copies the scratch, in the
      output block too.
-/
import proofs.«107602_j970662608991_2_alg».proof.Proof.KiRegion0
import proofs.«107602_j970662608991_2_alg».proof.Proof.KiRegion1
import Idealize.ShloMosaic.Lib.Pipeline.Value

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The zero offsets of a rank-2 and of a rank-3 whole-buffer rectangle. -/
theorem zeroOff2 : (![0, 0] : Fin 2 → Nat) = fun _ => 0 := funext fun a => by fin_cases a <;> rfl
theorem zeroOff3 : (![0, 0, 0] : Fin 3 → Nat) = fun _ => 0 := funext fun a => by fin_cases a <;> rfl

/-- The product kernel: the output block after the body is the product payload of the two input blocks. -/
theorem out0_eq (x0 : Vec F S128x1024 .bf16) (x1 : Vec F S1024x1024 .bf16) : out0_2 x0 x1 = k0_pay1 x0 x1 := by
  unfold out0_2
  rw [View.canon_unit_zero zeroOff2]
  simp only [View.ld_unit_zero (S := S128x1024) zeroOff2, View.ld_unit_zero (S := S1024x1024) zeroOff2]

/-- A middle point: the scratch is left at the accumulation step of the two input blocks and of what it held. -/
theorem soutB_eq (c : Dev nD) (i : grid1.Coords) (arg2 : Memref sig .tc .vmem S32x64x16 .f32) (harg2 : arg2.IsWhole) (arg3 : Memref sig .tc .vmem S64x64x16 .f32) (harg3 : arg3.IsWhole) (arg4 : Memref sig .tc .vmem S32x64 .f32) (harg4 : arg4.IsWhole) (arg5 : Memref sig .tc .vmem S32x64 .f32) (harg5 : arg5.IsWhole) (hc0 : ¬cond1_0 i) (hc1 : ¬cond1_1 i) (x0 : Vec F S32x64x16 .f32) (x1 : Vec F S64x64x16 .f32) (xs : Vec F S32x64 .f32) :
    sout1_B c i arg2 harg2 arg3 harg3 arg4 harg4 arg5 harg5 hc0 hc1 x0 x1 xs = k1_pay2 i x0 x1 xs := by
  unfold sout1_B
  rw [View.read_writes_eq_canon _ _ _ (scover1_B c i arg2 harg2 arg3 harg3 arg4 harg4 arg5 harg5 hc0 hc1 x0 x1 xs)]
  unfold kernelRun1_B
  dsimp only
  try sl_unfold_words
  rw [View.canon_unit_zero zeroOff2]
  simp only [View.readAt_eq_ld, harg2.read_unread, harg3.read_unread, harg5.read_unread,
    View.ld_unit_zero (S := S32x64x16) zeroOff3, View.ld_unit_zero (S := S64x64x16) zeroOff3,
    View.ld_unit_zero (S := S32x64) zeroOff2]

/-- The first point of a row block: the scratch is cleared, read back, and left at the accumulation step of the two
    input blocks and of the zero block. -/
theorem soutA_eq (c : Dev nD) (i : grid1.Coords) (arg2 : Memref sig .tc .vmem S32x64x16 .f32) (harg2 : arg2.IsWhole) (arg3 : Memref sig .tc .vmem S64x64x16 .f32) (harg3 : arg3.IsWhole) (arg4 : Memref sig .tc .vmem S32x64 .f32) (harg4 : arg4.IsWhole) (arg5 : Memref sig .tc .vmem S32x64 .f32) (harg5 : arg5.IsWhole) (hc0 : cond1_0 i) (hc1 : ¬cond1_1 i) (x0 : Vec F S32x64x16 .f32) (x1 : Vec F S64x64x16 .f32) :
    sout1_A c i arg2 harg2 arg3 harg3 arg4 harg4 arg5 harg5 hc0 hc1 x0 x1 = k1_pay2 i x0 x1 (k1_pay1 (F := F)) := by
  unfold sout1_A
  rw [View.read_writes_eq_canon _ _ _ (scover1_A c i arg2 harg2 arg3 harg3 arg4 harg4 arg5 harg5 hc0 hc1 x0 x1)]
  unfold kernelRun1_A
  dsimp only
  try sl_unfold_words
  rw [View.canon_cons_unit_zero (S := S32x64) zeroOff2, View.readCov_unit_zero (S := S32x64) _ zeroOff2]
  simp only [View.readAt_eq_ld, harg2.read_unread, harg3.read_unread,
    View.ld_unit_zero (S := S32x64x16) zeroOff3, View.ld_unit_zero (S := S64x64x16) zeroOff3]

/-- The last point of a row block, the scratch: left at the accumulation step, as at a middle point. -/
theorem soutC_eq (c : Dev nD) (i : grid1.Coords) (arg2 : Memref sig .tc .vmem S32x64x16 .f32) (harg2 : arg2.IsWhole) (arg3 : Memref sig .tc .vmem S64x64x16 .f32) (harg3 : arg3.IsWhole) (arg4 : Memref sig .tc .vmem S32x64 .f32) (harg4 : arg4.IsWhole) (arg5 : Memref sig .tc .vmem S32x64 .f32) (harg5 : arg5.IsWhole) (hc0 : ¬cond1_0 i) (hc1 : cond1_1 i) (x0 : Vec F S32x64x16 .f32) (x1 : Vec F S64x64x16 .f32) (xs : Vec F S32x64 .f32) :
    sout1_C c i arg2 harg2 arg3 harg3 arg4 harg4 arg5 harg5 hc0 hc1 x0 x1 xs = k1_pay2 i x0 x1 xs := by
  unfold sout1_C
  rw [View.read_writes_eq_canon _ _ _ (scover1_C c i arg2 harg2 arg3 harg3 arg4 harg4 arg5 harg5 hc0 hc1 x0 x1 xs)]
  unfold kernelRun1_C
  dsimp only
  try sl_unfold_words
  rw [View.canon_unit_zero zeroOff2]
  simp only [View.readAt_eq_ld, harg2.read_unread, harg3.read_unread, harg5.read_unread,
    View.ld_unit_zero (S := S32x64x16) zeroOff3, View.ld_unit_zero (S := S64x64x16) zeroOff3,
    View.ld_unit_zero (S := S32x64) zeroOff2]

/-- The last point of a row block, the output block: the copy of the scratch just written, so the same value. -/
theorem outC_eq (c : Dev nD) (i : grid1.Coords) (arg2 : Memref sig .tc .vmem S32x64x16 .f32) (harg2 : arg2.IsWhole) (arg3 : Memref sig .tc .vmem S64x64x16 .f32) (harg3 : arg3.IsWhole) (arg4 : Memref sig .tc .vmem S32x64 .f32) (harg4 : arg4.IsWhole) (arg5 : Memref sig .tc .vmem S32x64 .f32) (harg5 : arg5.IsWhole) (hc0 : ¬cond1_0 i) (hc1 : cond1_1 i) (x0 : Vec F S32x64x16 .f32) (x1 : Vec F S64x64x16 .f32) (xs : Vec F S32x64 .f32) :
    out1_C_2 c i arg2 harg2 arg3 harg3 arg4 harg4 arg5 harg5 hc0 hc1 x0 x1 xs = k1_pay2 i x0 x1 xs := by
  unfold out1_C_2
  rw [View.read_writes_eq_canon _ _ _ (cover1_C_2 c i arg2 harg2 arg3 harg3 arg4 harg4 arg5 harg5 hc0 hc1 x0 x1 xs)]
  unfold kernelRun1_C
  dsimp only
  try sl_unfold_words
  rw [View.canon_unit_zero zeroOff2, View.readCov_unit_zero (S := S32x64) _ zeroOff2]
  simp only [View.readAt_eq_ld, harg2.read_unread, harg3.read_unread, harg5.read_unread,
    View.ld_unit_zero (S := S32x64x16) zeroOff3, View.ld_unit_zero (S := S64x64x16) zeroOff3,
    View.ld_unit_zero (S := S32x64) zeroOff2]

end Cert.KernelIdeal.Frm

end
-- ==== Proof.KiVal1b.lean ====
/-
  The pairwise kernel's output array after the region, over the extended reals.

  Along a row block q the scratch holds, after the four grid points 4 q, 4 q + 1, 4 q + 2, 4 q + 3, the zero block
  with the four block sums added one after the other; the last point copies it to the output block, which is written
  back as rows 32 q … 32 q + 31 of the output array. The four block sums add up to the specification's feature (the sum
  over all 256 rows), so the output array ends holding the features, entry by entry.
-/
import proofs.«107602_j970662608991_2_alg».proof.Proof.KiVal1a
import proofs.«107602_j970662608991_2_alg».proof.Proof.KiPieces

set_option maxRecDepth 16384

noncomputable section

open scoped BigOperators

namespace Cert.KernelIdeal.Frm

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open Cert.PairSpec (Mat feat blockSum rowOf colOf)

section
variable (V : (c : Dev nD) → (b : Ref sig .tc) → Buf (Elt Ideal) ((c : Thread nD τ).loc b))

/-- The scratch after the first point of a row block: one step from the zero block. -/
theorem acc_first (c : Dev nD) (n : ℕ) (hn : n < cfg1.N) (h0 : n % 4 = 0) :
    (outsAt1 V c n hn).2 = k1_pay2 (F := Ideal) (grid1.coords ⟨n, hn⟩) (iblk1 V c 0 ⟨n, hn⟩) (iblk1 V c 1 ⟨n, hn⟩) (k1_pay1 (F := Ideal)) := by
  have h1 : ¬ n % 4 = 3 := by omega
  refine (congrArg Prod.snd (outsAt1_A V c ⟨n, hn⟩ h0 h1)).trans ?_
  dsimp only
  exact soutA_eq (F := Ideal) ..

/-- The scratch after any other point: one step from what the point before left. -/
theorem acc_next (c : Dev nD) (n : ℕ) (hn : n + 1 < cfg1.N) (h0 : ¬ (n + 1) % 4 = 0) :
    (outsAt1 V c (n + 1) hn).2 = k1_pay2 (F := Ideal) (grid1.coords ⟨n + 1, hn⟩) (iblk1 V c 0 ⟨n + 1, hn⟩) (iblk1 V c 1 ⟨n + 1, hn⟩) (outsAt1 V c n (Nat.lt_of_succ_lt hn)).2 := by
  by_cases h1 : (n + 1) % 4 = 3
  · refine (congrArg Prod.snd (outsAt1_C V c ⟨n + 1, hn⟩ h0 h1)).trans ?_
    dsimp only
    exact soutC_eq (F := Ideal) ..
  · refine (congrArg Prod.snd (outsAt1_B V c ⟨n + 1, hn⟩ h0 h1)).trans ?_
    dsimp only
    exact soutB_eq (F := Ideal) ..

/-- The output block at the last point of a row block: the same step, copied. -/
theorem out_last (c : Dev nD) (n : ℕ) (hn : n + 1 < cfg1.N) (h1 : (n + 1) % 4 = 3) :
    (outsAt1 V c (n + 1) hn).1 = k1_pay2 (F := Ideal) (grid1.coords ⟨n + 1, hn⟩) (iblk1 V c 0 ⟨n + 1, hn⟩) (iblk1 V c 1 ⟨n + 1, hn⟩) (outsAt1 V c n (Nat.lt_of_succ_lt hn)).2 := by
  have h0 : ¬ (n + 1) % 4 = 0 := by omega
  refine (congrArg Prod.fst (outsAt1_C V c ⟨n + 1, hn⟩ h0 h1)).trans ?_
  dsimp only
  exact outC_eq (F := Ideal) ..

variable (x : Cert.PairSpec.SX.Idx → EReal) (T : Cert.PairSpec.ST.Idx → EReal)

section Fold
variable (c : Dev nD)
  (hM : ∀ (r : Fin 256) (o : Fin 64) (k : Fin 16), (V c main_v4 : S256x64x16.Idx → EReal) (ix3 r o k) = Mat x T r o k)
  (q : Fin 8) (p : Fin 32) (o : Fin 64)
include hM

theorem acc0 (hn : 4 * q.val < cfg1.N) : (outsAt1 V c (4 * q.val) hn).2 (ix2 p o) = 0 + blockSum x T q 0 p o := by
  refine (congrFun (acc_first V c (4 * q.val) hn (Nat.mul_mod_right 4 q.val)) (ix2 p o)).trans ?_
  rw [step_at V c x T hM ⟨4 * q.val, hn⟩ q 0 rfl _ p o, Cert.KernelIdeal.PayAt.zero_apply]

theorem acc1 (hn : 4 * q.val + 1 < cfg1.N) : (outsAt1 V c (4 * q.val + 1) hn).2 (ix2 p o) = (0 + blockSum x T q 0 p o) + blockSum x T q 1 p o := by
  refine (congrFun (acc_next V c (4 * q.val) hn (by omega)) (ix2 p o)).trans ?_
  rw [step_at V c x T hM ⟨4 * q.val + 1, hn⟩ q 1 rfl _ p o, acc0 V x T c hM q p o]

theorem acc2 (hn : 4 * q.val + 1 + 1 < cfg1.N) : (outsAt1 V c (4 * q.val + 1 + 1) hn).2 (ix2 p o) = ((0 + blockSum x T q 0 p o) + blockSum x T q 1 p o) + blockSum x T q 2 p o := by
  refine (congrFun (acc_next V c (4 * q.val + 1) hn (by omega)) (ix2 p o)).trans ?_
  rw [step_at V c x T hM ⟨4 * q.val + 1 + 1, hn⟩ q 2 rfl _ p o, acc1 V x T c hM q p o]

/-- The output block at the last point of row block `q`, entry (p, o): the specification's feature of row 32 q + p. -/
theorem out3 (hn : 4 * q.val + 1 + 1 + 1 < cfg1.N) : (outsAt1 V c (4 * q.val + 1 + 1 + 1) hn).1 (ix2 p o) = feat x T (rowOf q p) o := by
  refine (congrFun (out_last V c (4 * q.val + 1 + 1) hn (by omega)) (ix2 p o)).trans ?_
  rw [step_at V c x T hM ⟨4 * q.val + 1 + 1 + 1, hn⟩ q 3 rfl _ p o, acc2 V x T c hM q p o]
  exact Cert.PairSpec.blocks_eq_feat x T q p o

end Fold

/-- The features as one array. -/
def featArr : S256x64.Idx → EReal := fun i => feat x T (i 0) (i 1)

theorem feat_congr (r r' : Fin 256) (o o' : Fin 64) (hr : r.val = r'.val) (ho : o.val = o'.val) : feat x T r o = feat x T r' o' := by
  obtain rfl := Fin.ext hr; obtain rfl := Fin.ext ho; rfl

/-- The output window's block sizes at every point. -/
theorem xsize1_2 : ∀ t : Fin cfg1.N, win1_2.xsize (grid1.coords t) 0 = 32 ∧ win1_2.xsize (grid1.coords t) 1 = 64 :=
  (by decide +kernel : ∀ t : Fin grid1.N, win1_2.xsize (grid1.coords t) 0 = 32 ∧ win1_2.xsize (grid1.coords t) 1 = 64)

/-- What a write-back of the output window writes is its block of the feature array. -/
theorem flushed1_eq (c : Dev nD)
    (hM : ∀ (r : Fin 256) (o : Fin 64) (k : Fin 16), (V c main_v4 : S256x64x16.Idx → EReal) (ix3 r o k) = Mat x T r o k)
    (t : Fin cfg1.N) (hf : (cfg1.win 2).flush t = true) :
    (dat1 V c).flushed 2 t = ((cfg1.win 2).blk t).view.read (Elt Ideal) (featArr x T) := by
  have h3 : t.val % 4 = 3 := (flush1_2 t).mp hf
  have hN : t.val < 32 := lt_of_lt_of_eq t.isLt (show cfg1.N = 32 from N_1)
  obtain ⟨-, -, -, -, -, -, e0, e1, -⟩ := idx1_facts t
  obtain ⟨n, hn⟩ := t
  have hq : n / 4 < 8 := by dsimp only at hN; omega
  obtain ⟨q, hqv⟩ : ∃ q : Fin 8, n = 4 * q.val + 1 + 1 + 1 := ⟨⟨n / 4, hq⟩, by dsimp only at h3 ⊢; omega⟩
  subst hqv
  show (cfg1.win 2).cut (grid1.coords ⟨4 * q.val + 1 + 1 + 1, hn⟩) ((dat1 V c).after 2 ⟨4 * q.val + 1 + 1 + 1, hn⟩) = _
  rw [after1_2]
  funext y
  obtain ⟨p, o, rfl⟩ : ∃ (p : Fin 32) (o : Fin 64), y = ix2 p o := ⟨y 0, y 1, eq_ix2 y⟩
  show (outsAt1 V c (4 * q.val + 1 + 1 + 1) hn).1 (ix2 p o)
    = featArr x T (((cfg1.win 2).blk ⟨4 * q.val + 1 + 1 + 1, hn⟩).view.emb (ix2 p o))
  refine (out3 V x T c hM q p o hn).trans ?_
  unfold featArr
  refine feat_congr x T _ _ _ _ ?_ ?_
  · show (rowOf q p).val = win1_2.index ⟨4 * q.val + 1 + 1 + 1, hn⟩ 0 * 32 + 1 * p.val
    rw [e0]; unfold rowOf; dsimp only; omega
  · show o.val = win1_2.index ⟨4 * q.val + 1 + 1 + 1, hn⟩ 1 * 64 + 1 * o.val
    rw [e1]; omega

/-- So the output array ends holding the features: row r is covered by the last point of its row block. -/
theorem final1 (c : Dev nD)
    (hM : ∀ (r : Fin 256) (o : Fin 64) (k : Fin 16), (V c main_v4 : S256x64x16.Idx → EReal) (ix3 r o k) = Mat x T r o k) :
    (dat1 V c).arrAt 2 cfg1.N = featArr x T :=
  (dat1 V c).arrAt_eq_of_cover 2 (featArr x T) (flushed1_eq V x T c hM) fun i => by
    have h0 : (i 0 : Nat) < 256 := (i 0).isLt
    have h1 : (i 1 : Nat) < 64 := (i 1).isLt
    have hN : cfg1.N = 32 := N_1
    have ht : 4 * ((i 0 : Nat) / 32) + 3 < cfg1.N := by rw [hN]; omega
    refine ⟨⟨4 * ((i 0 : Nat) / 32) + 3, ht⟩, (flush1_2 _).mpr (by show (4 * ((i 0 : Nat) / 32) + 3) % 4 = 3; omega), ?_⟩
    generalize htd : (⟨4 * ((i 0 : Nat) / 32) + 3, ht⟩ : Fin cfg1.N) = t
    have htv : t.val = 4 * ((i 0 : Nat) / 32) + 3 := by rw [← htd]
    obtain ⟨-, -, -, -, -, -, e0, e1, -⟩ := idx1_facts t
    obtain ⟨s0, s1⟩ := xsize1_2 t
    show i ∈ ((View.whole main_v5).slice (win1_2.rect t)).set
    rw [View.set_slice_whole, Rect.mem_set_unit]
    intro a
    match a with
    | ⟨0, _⟩ =>
      show win1_2.index t 0 * win1_2.size 0 ≤ (i 0 : Nat) ∧ (i 0 : Nat) < win1_2.index t 0 * win1_2.size 0 + win1_2.xsize (grid1.coords t) 0
      rw [e0, s0, show win1_2.size 0 = 32 from rfl, htv]; omega
    | ⟨1, _⟩ =>
      show win1_2.index t 1 * win1_2.size 1 ≤ (i 1 : Nat) ∧ (i 1 : Nat) < win1_2.index t 1 * win1_2.size 1 + win1_2.xsize (grid1.coords t) 1
      rw [e1, s1, show win1_2.size 1 = 64 from rfl]; omega

end

end Cert.KernelIdeal.Frm

end
-- ==== Proof.KiMat.lean ====
/-
  The product kernel's array, read at an index, through the reshape.

  The product kernel's region works on two grid points; point t multiplies rows t · 128 … t · 128 + 127 of its left
  array with its whole right array and writes that block of 128 rows of the product back. The two blocks of rows
  tile the [256, 1024] output, so after the region the output array is the whole product: entry (r, n) is
  Σ_f X (r, f) · Y (f, n). On entry X is the argument x (the change of float format moves nothing on the extended reals)
  and Y is the argument T with its two trailing axes flattened, Y (f, o · 16 + k) = T (f, o, k). The pairwise kernel reads the
  product reshaped to [256, 64, 16]: entry (r, o, k) is entry (r, o · 16 + k) of the product, which is the
  specification's Mat x T r o k.
-/
import proofs.«107602_j970662608991_2_alg».proof.Proof.KiMain
import proofs.«107602_j970662608991_2_alg».proof.Proof.PayAt
import proofs.«107602_j970662608991_2_alg».proof.Proof.Spec
import Idealize.ShloMosaic.Lib.Pipeline.Value
import Idealize.ShloMosaic.Lib.ValueIdx
import Idealize.ShloMosaic.Lib.Tactic

set_option maxRecDepth 16384

noncomputable section

open scoped BigOperators

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (m : (ℓ : Loc nD τ sig) → Buf (Elt Ideal) ℓ) (c : Dev nD)

/-- The pairwise kernel's input array is the reshape of what the product kernel's region leaves. -/
theorem V3_v4_eq :
    (V3 (F := Ideal) m c main_v4 : S256x64x16.Idx → EReal)
      = shapeCast S256x64x16 (W2 (F := Ideal) m c (Proc.devRef .tc main_v3) : S256x1024.Idx → EReal)
          shapeCasts_S256x1024_S256x64x16 := by
  dsimp only [V3, W3]
  show StableHlo.after hostOps1 (W2 m c) (Proc.devRef .tc main_v4) = _
  after_results
  rfl

/-- The product kernel's left operand on entry is x, every entry as it is. -/
theorem V1_v1_eq :
    (V1 (F := Ideal) m c main_v1 : S256x1024.Idx → EReal)
      = (m ((c : Thread nD τ).loc main_arg0) : S256x1024.Idx → EReal) := by
  dsimp only [V1, W1, W0]
  show StableHlo.after hostOps0 _ (Proc.devRef .tc main_v1) = _
  after_results
  rfl

/-- The product kernel's right operand on entry is T with its two trailing axes flattened. -/
theorem V1_v2_eq :
    (V1 (F := Ideal) m c main_v2 : S1024x1024.Idx → EReal)
      = shapeCast S1024x1024 (m ((c : Thread nD τ).loc main_arg1) : S1024x64x16.Idx → EReal)
          shapeCasts_S1024x64x16_S1024x1024 := by
  dsimp only [V1, W1, W0]
  show StableHlo.after hostOps0 _ (Proc.devRef .tc main_v2) = _
  after_results
  rfl

/-! ## The product kernel's region: its output array as one function of its two input arrays -/

theorem hz0 : (![0, 0] : Fin 2 → Nat) = fun _ => 0 := funext fun a => by fin_cases a <;> rfl

/-- The whole product of a [256, 1024] array with a [1024, 1024] array: entry (r, n) is the sum over f of X (r, f) · Y (f, n). -/
def G0 (X : S256x1024.Idx → EReal) (Y : S1024x1024.Idx → EReal) : S256x1024.Idx → EReal :=
  fun i => ∑ f : Fin 1024, X (ix2 (i 0 : Fin 256) f) * Y (ix2 f (i 1 : Fin 1024))

theorem G0_apply (X : S256x1024.Idx → EReal) (Y : S1024x1024.Idx → EReal) (r : Fin 256) (n : Fin 1024) :
    G0 X Y (ix2 r n) = ∑ f : Fin 1024, X (ix2 r f) * Y (ix2 f n) := rfl

/-- The body's one store through the whole block leaves the payload of the two blocks loaded whole. -/
private theorem out0_pay (x0 : Vec Ideal S128x1024 .bf16) (x1 : Vec Ideal S1024x1024 .bf16) :
    out0_2 (F := Ideal) x0 x1 = k0_pay1 (F := Ideal) x0 x1 := by
  unfold out0_2
  rw [View.canon_unit_zero hz0]
  simp only [View.ld_unit_zero (S := S128x1024) hz0, View.ld_unit_zero (S := S1024x1024) hz0]

/-- The index maps over the two grid points: the left operand's and the output's block of rows is the point's number,
    the right operand's block is the whole array. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem lt_two (t : Fin cfg0.N) : t.val < 2 := Nat.lt_of_lt_of_eq t.isLt N_0

/-- Row p of the block of 128 rows at point t is row t · 128 + p of the array. -/
def rowAt (t : Fin cfg0.N) (p : Fin 128) : Fin 256 := ⟨t.val * 128 + p.val, by have := lt_two t; omega⟩

/-- Where the left operand's block at point t sits in its array. -/
theorem emb0_0 (t : Fin cfg0.N) (p : Fin 128) (f : Fin 1024) :
    ((cfg0.win 0).blk t).view.emb (ix2 p f) = ix2 (rowAt t p) f := by
  obtain ⟨e0, e1, -, -, -, -⟩ := idx_facts0 t
  funext a; apply Fin.ext
  match a with
  | ⟨0, _⟩ => show win0_0.index t (0 : Fin 2) * 128 + 1 * p.val = t.val * 128 + p.val; omega
  | ⟨1, _⟩ => show win0_0.index t (1 : Fin 2) * 1024 + 1 * f.val = f.val; omega

/-- The right operand's block is its whole array. -/
theorem emb0_1 (t : Fin cfg0.N) (f : Fin 1024) (n : Fin 1024) :
    ((cfg0.win 1).blk t).view.emb (ix2 f n) = ix2 f n := by
  obtain ⟨-, -, e2, e3, -, -⟩ := idx_facts0 t
  funext a; apply Fin.ext
  match a with
  | ⟨0, _⟩ => show win0_1.index t (0 : Fin 2) * 1024 + 1 * f.val = f.val; omega
  | ⟨1, _⟩ => show win0_1.index t (1 : Fin 2) * 1024 + 1 * n.val = n.val; omega

/-- Where the output's block at point t sits in its array. -/
theorem emb0_2 (t : Fin cfg0.N) (p : Fin 128) (n : Fin 1024) :
    ((cfg0.win 2).blk t).view.emb (ix2 p n) = ix2 (rowAt t p) n := by
  obtain ⟨-, -, -, -, e4, e5⟩ := idx_facts0 t
  funext a; apply Fin.ext
  match a with
  | ⟨0, _⟩ => show win0_2.index t (0 : Fin 2) * 128 + 1 * p.val = t.val * 128 + p.val; omega
  | ⟨1, _⟩ => show win0_2.index t (1 : Fin 2) * 1024 + 1 * n.val = n.val; omega

section Region0Value
variable (V : (c : Dev nD) → (b : Ref sig .tc) → Buf (Elt Ideal) ((c : Thread nD τ).loc b))

/-- The left operand's block at point t, read at (p, f): its array at row t · 128 + p. -/
theorem iblk0_0_apply (t : Fin cfg0.N) (p : Fin 128) (f : Fin 1024) :
    (iblk0 V c 0 t : S128x1024.Idx → EReal) (ix2 p f) = (V c main_v1 : S256x1024.Idx → EReal) (ix2 (rowAt t p) f) := by
  show (V c main_v1 : S256x1024.Idx → EReal) (((cfg0.win 0).blk t).view.emb (ix2 p f)) = _
  rw [emb0_0]

/-- The right operand's block at any point, read at (f, n): its array there. -/
theorem iblk0_1_apply (t : Fin cfg0.N) (f : Fin 1024) (n : Fin 1024) :
    (iblk0 V c 1 t : S1024x1024.Idx → EReal) (ix2 f n) = (V c main_v2 : S1024x1024.Idx → EReal) (ix2 f n) := by
  show (V c main_v2 : S1024x1024.Idx → EReal) (((cfg0.win 1).blk t).view.emb (ix2 f n)) = _
  rw [emb0_1]

/-- What point t writes back is block t of the whole product of the two arrays as the region finds them. -/
theorem flushed0_eq (t : Fin cfg0.N) :
    (dat0 V c).flushed 2 t
      = ((cfg0.win 2).blk t).view.read (Elt Ideal) (G0 (V c main_v1) (V c main_v2)) := by
  show (cfg0.win 2).cut (grid0.coords t) ((dat0 V c).after 2 t) = _
  rw [after0_2, out0_pay]
  funext y
  obtain ⟨p, n, rfl⟩ : ∃ (p : Fin 128) (n : Fin 1024), y = ix2 p n := ⟨y 0, y 1, eq_ix2 y⟩
  show k0_pay1 (F := Ideal) (iblk0 V c 0 t) (iblk0 V c 1 t) (ix2 p n)
    = G0 (V c main_v1) (V c main_v2) (((cfg0.win 2).blk t).view.emb (ix2 p n))
  rw [Cert.KernelIdeal.PayAt.pay0_apply, emb0_2, G0_apply]
  exact Finset.sum_congr rfl fun f _ =>
    congrArg₂ (fun a b : EReal => a * b) (iblk0_0_apply c V t p f) (iblk0_1_apply c V t f n)

/-- An index of the output array is in point t's block iff each coordinate is in the block's range on its axis. -/
theorem mem_blk0 (t : Fin cfg0.N) (i : S256x1024.Idx) :
    i ∈ ((cfg0.win 2).blk t).view.set ↔ ∀ a : Fin 2, win0_2.index t a * S128x1024.size a ≤ (i a).val
      ∧ (i a).val < win0_2.index t a * S128x1024.size a + S128x1024.size a := by
  show i ∈ ((View.whole main_v3).slice (win0_2.rect t)).set ↔ _
  rw [View.set_slice_whole, Rect.mem_set_unit]
  exact Iff.rfl

/-- Every index of the output array is in the block of the point its row falls in. -/
theorem cover0 (i : S256x1024.Idx) :
    ∃ t : Fin cfg0.N, (cfg0.win 2).flush t = true ∧ i ∈ ((cfg0.win 2).blk t).view.set := by
  have hi0 : (i 0).val < 256 := (i 0).isLt
  have hi1 : (i 1).val < 1024 := (i 1).isLt
  have hN : cfg0.N = 2 := N_0
  let t : Fin cfg0.N := ⟨(i 0).val / 128, by rw [hN]; omega⟩
  have ht : t.val = (i 0).val / 128 := rfl
  refine ⟨t, flush0_2 t, ?_⟩
  rw [mem_blk0]
  obtain ⟨-, -, -, -, e4, e5⟩ := idx_facts0 t
  intro a
  match a with
  | ⟨0, _⟩ => show win0_2.index t (0 : Fin 2) * 128 ≤ (i 0).val ∧ (i 0).val < win0_2.index t (0 : Fin 2) * 128 + 128; omega
  | ⟨1, _⟩ => show win0_2.index t (1 : Fin 2) * 1024 ≤ (i 1).val ∧ (i 1).val < win0_2.index t (1 : Fin 2) * 1024 + 1024; omega

/-- The output array after the region is the whole product. -/
theorem final0 : (dat0 V c).arrAt 2 cfg0.N = G0 (V c main_v1) (V c main_v2) :=
  (dat0 V c).arrAt_eq_of_cover 2 (G0 (V c main_v1) (V c main_v2)) (fun t _ => flushed0_eq c V t) (cover0)

end Region0Value

/-! ## The pairwise kernel's input array at an index -/

/-- The [256, 64, 16] array the pairwise kernel's two input windows read, at (r, o, k): the specification's product. -/
theorem mat_at (m : (ℓ : Loc nD τ sig) → Buf (Elt Ideal) ℓ) (c : Dev nD) (r : Fin 256) (o : Fin 64) (k : Fin 16) :
    V3 (F := Ideal) m c main_v4 (ix3 r o k) = Cert.PairSpec.Mat (m ((c : Thread nD τ).loc main_arg0)) (m ((c : Thread nD τ).loc main_arg1)) r o k := by
  have hn : o.val * 16 + k.val < 1024 := by have := o.isLt; have := k.isLt; omega
  refine (congrFun (V3_v4_eq m c) (ix3 r o k)).trans ?_
  refine (shapeCast_apply _ shapeCasts_S256x1024_S256x64x16 (ix3 r o k) (ix2 r ⟨o.val * 16 + k.val, hn⟩) ?_).trans ?_
  · rewrite [Shape.rowMajor_val_two, Shape.rowMajor_val_three]
    show r.val * 1024 + (o.val * 16 + k.val) = (r.val * 64 + o.val) * 16 + k.val
    omega
  have hW : (W2 (F := Ideal) m c (Proc.devRef .tc main_v3) : S256x1024.Idx → EReal)
      = G0 (V1 m c main_v1) (V1 m c main_v2) := (W2_arr m c 2).trans (final0 c (V1 m))
  rw [hW, G0_apply]
  show @Eq EReal _ _
  unfold Cert.PairSpec.Mat
  refine Finset.sum_congr rfl fun f _ => ?_
  refine congrArg₂ (fun a b : EReal => a * b) (congrFun (V1_v1_eq m c) (ix2 r f)) ?_
  refine (congrFun (V1_v2_eq m c) (ix2 f ⟨o.val * 16 + k.val, hn⟩)).trans ?_
  refine shapeCast_apply _ shapeCasts_S1024x64x16_S1024x1024 (ix2 f ⟨o.val * 16 + k.val, hn⟩) (ix3 f o k) ?_
  rewrite [Shape.rowMajor_val_three, Shape.rowMajor_val_two]
  show (f.val * 64 + o.val) * 16 + k.val = f.val * 1024 + (o.val * 16 + k.val)
  omega

end Cert.KernelIdeal.Frm

end
-- ==== Proof.KiValue.lean ====
/-
  The program's result over the extended reals: the argument x joined, along the columns, with the feature array —
  the pairwise kernel's output array, which the region leaves holding the specification's features because the
  array its windows read is the product x · T.
-/
import proofs.«107602_j970662608991_2_alg».proof.Proof.KiFrame
import proofs.«107602_j970662608991_2_alg».proof.Proof.KiVal1b
import proofs.«107602_j970662608991_2_alg».proof.Proof.KiMat
import Idealize.ShloMosaic.Lib.StableHlo.Run

set_option maxRecDepth 16384

noncomputable section

open scoped BigOperators

namespace Cert.KernelIdeal.Frm

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open Cert.PairSpec (Mat feat blockSum rowOf colOf)

variable (m : (ℓ : Loc nD τ sig) → Buf (Elt Ideal) ℓ) (ρ : Dev nD → PrngReg)

/-- The result buffer after the final concatenation, from the contents at the pairwise kernel's exit. -/
theorem W5_main_v6 (c : Dev nD) :
    (W5 (F := Ideal) m c (Proc.devRef .tc main_v6) : S256x1088.Idx → EReal)
      = concatenate S256x1088 1 [⟨S256x1024, W4 (F := Ideal) m c (Proc.devRef .tc main_arg0)⟩, ⟨S256x64, W4 (F := Ideal) m c (Proc.devRef .tc main_v5)⟩]
          concatenates_S256x1024_S256x64_S256x1088_d1 := by
  show StableHlo.after hostOps2 (W4 (F := Ideal) m c) (Proc.devRef .tc main_v6) = _
  after_results

/-- The program's result as a function of the arguments. -/
def result (x : S256x1024.Idx → EReal) (T : S1024x64x16.Idx → EReal) : S256x1088.Idx → EReal :=
  concatenate S256x1088 1 [⟨S256x1024, x⟩, ⟨S256x64, featArr x T⟩] concatenates_S256x1024_S256x64_S256x1088_d1

theorem W5_result (c : Dev nD) :
    (W5 (F := Ideal) m c (Proc.devRef .tc main_v6) : S256x1088.Idx → EReal)
      = result (m ((c : Thread nD τ).loc main_arg0)) (m ((c : Thread nD τ).loc main_arg1)) := by
  rw [W5_main_v6, W4_main_arg0, W4_main_v5,
    final1 (V3 (F := Ideal) m) (m ((c : Thread nD τ).loc main_arg0)) (m ((c : Thread nD τ).loc main_arg1)) c (mat_at m c)]
  rfl

/-- From any memory with zero counters the idealized kernel program terminates, nothing faulting, with its result at
    `result` of the arguments and both argument arrays as launched. -/
theorem value_all : θ_run defs (onTc (τ := τ) (main (F := Ideal))) ⟨m, fun _ => 0, ρ⟩ (fun r => ∀ c : Dev nD,
      r.2.mem ((c.tc : Thread nD τ).loc main_v6) = result (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_v6 (by decide))).trans (W5_result m c),
     (h c _ (mem_uc main_arg0 (by decide))).trans (W5_main_arg0 m c),
     (h c _ (mem_uc main_arg1 (by decide))).trans (W5_main_arg1 m c)⟩) (run_all m ρ)

end Cert.KernelIdeal.Frm

end
-- ==== Proof.RefFeat.lean ====
/-
  The reference's feature array is the specification's.

  The reference computes, at (r, o), 0 + Σ_j exp(−(0 + Σ_k |Mat j o k − Mat r o k|)) · (1 − [r = j]) with Mat the product of x with
  T's two trailing axes flattened, reshaped back to [256, 64, 16]. The specification's pair has |Mat r o k − Mat j o k|; the two
  absolute values agree, 0 + s = s, and 1 − [r = j] is 0 on the self pair and 1 elsewhere. Each step below reads one stage of
  the reference at an index given by explicit coordinates.
-/
import proofs.«107602_j970662608991_2_alg».proof.Proof.Gen.ReferenceIdeal.Read
import proofs.«107602_j970662608991_2_alg».proof.Proof.Spec

noncomputable section

open scoped BigOperators

namespace Cert.RefSide

open Cert.ReferenceIdeal Cert.ReferenceIdeal.Gen Cert.ReferenceIdeal.Read Idealize.ShloMosaic Idealize.ShloMosaic.ValueIdx

/-- The two argument arrays' types: x is [256, 1024], T is [1024, 64, 16], entries extended reals. -/
abbrev XTy : Type := (⟨S256x1024, .f32⟩ : BufTy).Contents (Elt Ideal)
abbrev TTy : Type := (⟨S1024x64x16, .f32⟩ : BufTy).Contents (Elt Ideal)

/-- Flattening (r, o, k) to row r, column o·16 + k of the [256, 1024] product and reading x's row r at f. -/
theorem lidx_eq (a : Fin 256) (o : Fin 64) (k : Fin 16) (f : Fin 1024) :
    lidx_main_v1 (idx_main_v2 (ix3 a o k)) f = ix2 a f := by
  funext d
  match d with
  | ⟨0, _⟩ => exact Fin.ext (by show ((a.val * 64 + o.val) * 16 + k.val) / 1024 = a.val; omega)
  | ⟨1, _⟩ => rfl

/-- Column o·16 + k of the flattened T at row f is T(f, o, k). -/
theorem ridx_eq (a : Fin 256) (o : Fin 64) (k : Fin 16) (f : Fin 1024) :
    idx_main_v0 (ridx_main_v1 (idx_main_v2 (ix3 a o k)) f) = ix3 f o k := by
  funext d
  match d with
  | ⟨0, _⟩ => exact Fin.ext (by show (f.val * 1024 + ((a.val * 64 + o.val) * 16 + k.val) % 1024) / 1024 = f.val; omega)
  | ⟨1, _⟩ => exact Fin.ext (by show (f.val * 1024 + ((a.val * 64 + o.val) * 16 + k.val) % 1024) / 16 % 64 = o.val; omega)
  | ⟨2, _⟩ => exact Fin.ext (by show (f.val * 1024 + ((a.val * 64 + o.val) * 16 + k.val) % 1024) % 16 = k.val; omega)

/-- The reshaped product at (r, o, k) is the specification's Mat. -/
theorem mat_eq (x0 : XTy) (x1 : TTy) (a : Fin 256) (o : Fin 64) (k : Fin 16) :
    val_main_v2 (F := Ideal) x0 x1 (ix3 a o k) = Cert.PairSpec.Mat x0 x1 a o k := by
  rw [val_main_v2_apply, val_main_v1_apply]
  unfold Cert.PairSpec.Mat
  refine Finset.sum_congr rfl fun f _ => ?_
  rw [val_main_v0_apply, lidx_eq, ridx_eq]

/-- The float word 0x3F800000 denotes 1. -/
theorem ofBits_one_f32 : Ideal.ofBits .f32 0x3F800000#32 = 1 := by
  simp [Ideal.ofBits, Ideal.ieee]
  rw [← EReal.coe_mul, ← EReal.coe_one]
  congr 1
  norm_num

/-- 1 − 1 = 0 on the extended reals. -/
theorem one_sub_one : (1 : EReal) - 1 = 0 := by
  rw [← EReal.coe_one, ← EReal.coe_sub, sub_self, EReal.coe_zero]

/-- The mask 1 − eye at (r, j, o): 0 on the self pair, 1 elsewhere. -/
theorem mask_eq (a b : Fin 256) (o : Fin 64) :
    val_main_v21 (F := Ideal) (ix3 a b o) = if a = b then 0 else 1 := by
  rw [val_main_v21_apply, val_main_v20_apply, val_main_v19_apply, val_main_cst_0_apply, val_main_v18_apply,
    val_main_v17_apply, val_main_v16_apply, val_main_v15_apply, val_main_v12_apply, val_main_v13_apply,
    val_main_v14_apply, val_main_c_apply]
  show Ideal.ofBits .f32 0x3F800000#32
      - (((IntOp.cmpi .eq (IntOp.addi (BitVec.ofNat 32 a.val) 0#32) (BitVec.ofNat 32 b.val)).toNat : ℝ) : EReal)
    = if a = b then 0 else 1
  rw [ofBits_one_f32]
  by_cases h : a = b
  · subst h
    rw [if_pos rfl]
    have e : IntOp.cmpi .eq (IntOp.addi (BitVec.ofNat 32 a.val) 0#32) (BitVec.ofNat 32 a.val) = 1#1 := by
      show BitVec.ofBool (BitVec.ofNat 32 a.val + 0#32 == BitVec.ofNat 32 a.val) = 1#1
      rw [BitVec.add_zero, beq_self_eq_true]
      rfl
    rw [e]
    have e1 : ((((1#1 : BitVec 1).toNat : ℝ)) : EReal) = 1 := by simp
    rw [e1, one_sub_one]
  · rw [if_neg h]
    have hne : BitVec.ofNat 32 a.val ≠ BitVec.ofNat 32 b.val := by
      intro hh
      have h1 := congrArg BitVec.toNat hh
      simp only [BitVec.toNat_ofNat] at h1
      have ha := a.isLt
      have hb := b.isLt
      exact h (Fin.ext (by omega))
    have e : IntOp.cmpi .eq (IntOp.addi (BitVec.ofNat 32 a.val) 0#32) (BitVec.ofNat 32 b.val) = 0#1 := by
      show BitVec.ofBool (BitVec.ofNat 32 a.val + 0#32 == BitVec.ofNat 32 b.val) = 0#1
      rw [BitVec.add_zero, beq_eq_false_iff_ne.mpr hne]
      rfl
    rw [e]
    have e0 : ((((0#1 : BitVec 1).toNat : ℝ)) : EReal) = 0 := by simp
    rw [e0, sub_zero]

/-- The inner sum over k at (r, j, o) reads the 4-array at (r, j, o, k). -/
theorem idx9_eq (a b : Fin 256) (o : Fin 64) (k : Fin 16) : idx_main_v9 (ix3 a b o) k = ix4 a b o k := by
  funext d
  match d with
  | ⟨0, _⟩ => rfl
  | ⟨1, _⟩ => rfl
  | ⟨2, _⟩ => rfl
  | ⟨3, _⟩ => rfl

/-- The array broadcast along the leading axis reads the product at row j. -/
theorem idx35_eq (a b : Fin 256) (o : Fin 64) (k : Fin 16) :
    idx_main_v3 (idx_main_v5 (ix4 a b o k)) = ix3 b o k := by
  funext d
  match d with
  | ⟨0, _⟩ => rfl
  | ⟨1, _⟩ => rfl
  | ⟨2, _⟩ => rfl

/-- The array broadcast along the second axis reads the product at row r. -/
theorem idx46_eq (a b : Fin 256) (o : Fin 64) (k : Fin 16) :
    idx_main_v4 (idx_main_v6 (ix4 a b o k)) = ix3 a o k := by
  funext d
  match d with
  | ⟨0, _⟩ => rfl
  | ⟨1, _⟩ => rfl
  | ⟨2, _⟩ => rfl

/-- The outer sum over j at (r, o) reads the 3-array at (r, j, o). -/
theorem idx23_eq (a : Fin 256) (o : Fin 64) (b : Fin 256) : idx_main_v23 (ix2 a o) b = ix3 a b o := by
  funext d
  match d with
  | ⟨0, _⟩ => rfl
  | ⟨1, _⟩ => rfl
  | ⟨2, _⟩ => rfl

/-- One absolute difference: the program has |Mat j − Mat r|, the specification |Mat r − Mat j|. -/
theorem absdiff_eq (x0 : XTy) (x1 : TTy) (a b : Fin 256) (o : Fin 64) (k : Fin 16) :
    val_main_v8 (F := Ideal) x0 x1 (ix4 a b o k)
      = max (Cert.PairSpec.Mat x0 x1 a o k - Cert.PairSpec.Mat x0 x1 b o k)
          (-(Cert.PairSpec.Mat x0 x1 a o k - Cert.PairSpec.Mat x0 x1 b o k)) := by
  rw [val_main_v8_apply, val_main_v7_apply, val_main_v5_apply, val_main_v3_apply, val_main_v6_apply,
    val_main_v4_apply, idx35_eq, idx46_eq, mat_eq, mat_eq]
  exact Cert.PairSpec.abs_sub_comm _ _

/-- The L1 distance: 0 + the sum over k of the absolute differences. -/
theorem dist_eq (x0 : XTy) (x1 : TTy) (a b : Fin 256) (o : Fin 64) :
    val_main_v9 (F := Ideal) x0 x1 (ix3 a b o) = Cert.PairSpec.dist x0 x1 a b o := by
  rw [val_main_v9_apply, val_main_cst_apply, Ideal.ofBits_def, Ideal.ofBits_zero_f32, zero_add]
  unfold Cert.PairSpec.dist
  refine Finset.sum_congr rfl fun k _ => ?_
  rw [idx9_eq, absdiff_eq]

/-- One summand: exp(−distance) times the mask. -/
theorem pair_eq (x0 : XTy) (x1 : TTy) (a b : Fin 256) (o : Fin 64) :
    val_main_v22 (F := Ideal) x0 x1 (ix3 a b o) = Cert.PairSpec.pair x0 x1 a b o := by
  rw [val_main_v22_apply, val_main_v11_apply, val_main_v10_apply, dist_eq, mask_eq]
  rfl

/-- The feature at (r, o): 0 + the sum over j of the summands. -/
theorem feat_at (x0 : XTy) (x1 : TTy) (a : Fin 256) (o : Fin 64) :
    val_main_v23 (F := Ideal) x0 x1 (ix2 a o) = Cert.PairSpec.feat x0 x1 a o := by
  rw [val_main_v23_apply, val_main_cst_1_apply, Ideal.ofBits_def, Ideal.ofBits_zero_f32, zero_add]
  unfold Cert.PairSpec.feat
  refine Finset.sum_congr rfl fun j _ => ?_
  rw [idx23_eq, pair_eq]

/-- The [256, 64] array the reference joins to x is the specification's feature array. -/
theorem feat_eq (x0 : (⟨Cert.ReferenceIdeal.S256x1024, .f32⟩ : BufTy).Contents (Elt Ideal))
    (x1 : (⟨Cert.ReferenceIdeal.S1024x64x16, .f32⟩ : BufTy).Contents (Elt Ideal)) :
    Cert.ReferenceIdeal.Read.val_main_v23 (F := Ideal) x0 x1 = fun i => Cert.PairSpec.feat x0 x1 (i 0) (i 1) := by
  funext i
  obtain ⟨a, o, rfl⟩ : ∃ (a : Fin 256) (o : Fin 64), i = ix2 a o := ⟨i 0, i 1, eq_ix2 i⟩
  exact feat_at x0 x1 a o

/-- The reference's result is x joined, along the columns, with that [256, 64] array. -/
theorem result_eq (x0 : (⟨Cert.ReferenceIdeal.S256x1024, .f32⟩ : BufTy).Contents (Elt Ideal))
    (x1 : (⟨Cert.ReferenceIdeal.S1024x64x16, .f32⟩ : BufTy).Contents (Elt Ideal)) :
    Cert.ReferenceIdeal.Read.val_main_v24 (F := Ideal) x0 x1
      = concatenate S256x1088 1 [⟨S256x1024, x0⟩, ⟨S256x64, val_main_v23 (F := Ideal) x0 x1⟩]
          concatenates_S256x1024_S256x64_S256x1088_d1 := rfl

end Cert.RefSide

end
-- ==== Proof.lean ====
/-
  The certificate's claim.

  Both kernel programs (as printed, and idealized) run host operations, a product kernel, a reshape, a pairwise kernel
  and a concatenation; their frames are read off one run of the whole program that names every unscoped buffer's final
  contents. The reference's frame is its own run with the result dropped. The ideal pass rewrote nothing, so
  `preserves` is trivial. At the ideal instance the kernel program's result is x joined with the array of
  features feat r o = Σ_j exp(−Σ_k |M(r,o,k) − M(j,o,k)|)·[r ≠ j] of M = x · T — the kernel adds them block of rows by
  block of rows, the reference in one sum, and sums of extended reals may be regrouped freely — and the reference's
  result is the same join; |a − b| = |b − a| joins the two spellings of the distance.
-/
import proofs.«107602_j970662608991_2_alg».proof.Defs
import proofs.«107602_j970662608991_2_alg».proof.Proof.Gen.Kernel
import proofs.«107602_j970662608991_2_alg».proof.Proof.Gen.KernelIdeal
import proofs.«107602_j970662608991_2_alg».proof.Proof.Gen.ReferenceIdeal
import proofs.«107602_j970662608991_2_alg».proof.Proof.Gen.Pre_finite_inputs
import proofs.«107602_j970662608991_2_alg».proof.Proof.Gen.ReferenceIdeal.Run
import proofs.«107602_j970662608991_2_alg».proof.Proof.Gen.ReferenceIdeal.Read
import proofs.«107602_j970662608991_2_alg».proof.Proof.KbFrame
import proofs.«107602_j970662608991_2_alg».proof.Proof.KiFrame
import proofs.«107602_j970662608991_2_alg».proof.Proof.KiValue
import proofs.«107602_j970662608991_2_alg».proof.Proof.RefFeat
import Idealize.ShloMosaic.Adequacy
import Idealize.ShloMosaic.Init

noncomputable section

namespace Cert.Proof

open Idealize.ShloMosaic Idealize.SL.Sem

theorem frame_k : @Cert.frame_Kernel Cert.Kernel.Gen.facts Cert.Pre_finite_inputs.Gen.facts :=
  fun m ρ _ => Cert.Kernel.Frm.frame_all (F := Bits) m ρ

theorem frame_ki : @Cert.frame_KernelIdeal Cert.KernelIdeal.Gen.facts Cert.Pre_finite_inputs.Gen.facts :=
  fun m ρ _ => Cert.KernelIdeal.Frm.frame_all (F := Ideal) m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- Both programs end at x joined with the feature array of arguments that agree. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.KernelIdeal.Frm.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    Cert.KernelIdeal.Frm.value_all m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, Cert.RefSide.result_eq, Cert.RefSide.feat_eq, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
